-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000x5000x8 : Shape := ⟨3, ![2000, 5000, 8]⟩
abbrev S_ : Shape := ⟨0, ![]⟩

class Facts : Prop where
  bcast_S_S2000x5000x8 : S_.BroadcastsInDim S2000x5000x8 (![] : Fin 0 → Fin S2000x5000x8.rank)
  reducesTo_S2000x5000x8_S_d0_1_2 : S2000x5000x8.ReducesTo [0, 1, 2] S_
  h_S_ : 0 < S_.numel

variable [Facts]

def fn {F : FTy → Type} [FloatOps F] (main_arg0 : FVec F S2000x5000x8 .f32) (main_arg1 : FVec F S2000x5000x8 .f32) : IVec S_ 1 :=
  let main_v0 : FVec F S2000x5000x8 .f32 := Host.absf main_arg0
  let main_cst : FVec F S_ .f32 := constant S_ .f32 0x7F800000#32
  let main_v1 : FVec F S2000x5000x8 .f32 := broadcastInDim S2000x5000x8 ![] bcast_S_S2000x5000x8 main_cst
  let main_v2 : IVec S2000x5000x8 1 := cmpf .olt main_v0 main_v1
  let main_c : IVec S_ 1 := constantI S_ 1 1#1
  let main_v3 : IVec S_ 1 := (fun x v => Host.reduce IntOp.andi x v reducesTo_S2000x5000x8_S_d0_1_2 h_S_) main_v2 main_c
  let main_v4 : FVec F S2000x5000x8 .f32 := Host.absf main_arg1
  let main_cst_0 : FVec F S_ .f32 := constant S_ .f32 0x7F800000#32
  let main_v5 : FVec F S2000x5000x8 .f32 := broadcastInDim S2000x5000x8 ![] bcast_S_S2000x5000x8 main_cst_0
  let main_v6 : IVec S2000x5000x8 1 := cmpf .olt main_v4 main_v5
  let main_c_1 : IVec S_ 1 := constantI S_ 1 1#1
  let main_v7 : IVec S_ 1 := (fun x v => Host.reduce IntOp.andi x v reducesTo_S2000x5000x8_S_d0_1_2 h_S_) main_v6 main_c_1
  let main_v8 : IVec S_ 1 := andi main_v3 main_v7
  main_v8
-- ==== Kernel.lean ====
abbrev S2000x5000x8 : Shape := ⟨3, ![2000, 5000, 8]⟩
abbrev S2x1000x40000 : Shape := ⟨3, ![2, 1000, 40000]⟩
abbrev S2x5x40000 : Shape := ⟨3, ![2, 5, 40000]⟩
abbrev S1x40x40000 : Shape := ⟨3, ![1, 40, 40000]⟩
abbrev S1x5x40000 : Shape := ⟨3, ![1, 5, 40000]⟩
abbrev S5x40000 : Shape := ⟨2, ![5, 40000]⟩
abbrev S1x8x40000 : Shape := ⟨3, ![1, 8, 40000]⟩
abbrev S8x40000 : Shape := ⟨2, ![8, 40000]⟩
abbrev S40000 : Shape := ⟨1, ![40000]⟩
abbrev S1x40000 : Shape := ⟨2, ![1, 40000]⟩
abbrev S_ : Shape := ⟨0, ![]⟩
abbrev S5000x8 : Shape := ⟨2, ![5000, 8]⟩
abbrev S1x1 : Shape := ⟨2, ![1, 1]⟩
abbrev S8 : Shape := ⟨1, ![8]⟩
abbrev S1x8 : Shape := ⟨2, ![1, 8]⟩
abbrev S1 : Shape := ⟨1, ![1]⟩

abbrev nBuf : Space → Nat
  | .hbm => 24
  | .vmem => 13
  | .smem => 0
  | _ => 0

abbrev bufTy : (tb : Table) → Fin (tcTables nBuf tb) → BufTy
  | .hbm, ⟨0, _⟩ => ⟨S2000x5000x8, .f32⟩
  | .hbm, ⟨1, _⟩ => ⟨S2000x5000x8, .f32⟩
  | .hbm, ⟨2, _⟩ => ⟨S2x1000x40000, .f32⟩
  | .hbm, ⟨3, _⟩ => ⟨S2x1000x40000, .f32⟩
  | .hbm, ⟨4, _⟩ => ⟨S2x5x40000, .f32⟩
  | .hbm, ⟨5, _⟩ => ⟨S_, .f32⟩
  | .hbm, ⟨6, _⟩ => ⟨S5x40000, .f32⟩
  | .hbm, ⟨7, _⟩ => ⟨S1x40000, .f32⟩
  | .hbm, ⟨8, _⟩ => ⟨S40000, .f32⟩
  | .hbm, ⟨9, _⟩ => ⟨S5000x8, .f32⟩
  | .hbm, ⟨10, _⟩ => ⟨S1x40000, .f32⟩
  | .hbm, ⟨11, _⟩ => ⟨S40000, .f32⟩
  | .hbm, ⟨12, _⟩ => ⟨S5000x8, .f32⟩
  | .hbm, ⟨13, _⟩ => ⟨S1x40000, .f32⟩
  | .hbm, ⟨14, _⟩ => ⟨S40000, .f32⟩
  | .hbm, ⟨15, _⟩ => ⟨S5000x8, .f32⟩
  | .hbm, ⟨16, _⟩ => ⟨S1x40000, .f32⟩
  | .hbm, ⟨17, _⟩ => ⟨S40000, .f32⟩
  | .hbm, ⟨18, _⟩ => ⟨S5000x8, .f32⟩
  | .hbm, ⟨19, _⟩ => ⟨S1x40000, .f32⟩
  | .hbm, ⟨20, _⟩ => ⟨S40000, .f32⟩
  | .hbm, ⟨21, _⟩ => ⟨S5000x8, .f32⟩
  | .hbm, ⟨22, _⟩ => ⟨S1x1, .f32⟩
  | .hbm, ⟨23, _⟩ => ⟨S_, .f32⟩
  | .local _ .vmem, ⟨0, _⟩ => ⟨S1x40x40000, .f32⟩
  | .local _ .vmem, ⟨1, _⟩ => ⟨S1x40x40000, .f32⟩
  | .local _ .vmem, ⟨2, _⟩ => ⟨S1x40x40000, .f32⟩
  | .local _ .vmem, ⟨3, _⟩ => ⟨S1x40x40000, .f32⟩
  | .local _ .vmem, ⟨4, _⟩ => ⟨S1x5x40000, .f32⟩
  | .local _ .vmem, ⟨5, _⟩ => ⟨S1x5x40000, .f32⟩
  | .local _ .vmem, ⟨6, _⟩ => ⟨S5x40000, .f32⟩
  | .local _ .vmem, ⟨7, _⟩ => ⟨S5000x8, .f32⟩
  | .local _ .vmem, ⟨8, _⟩ => ⟨S5000x8, .f32⟩
  | .local _ .vmem, ⟨9, _⟩ => ⟨S5000x8, .f32⟩
  | .local _ .vmem, ⟨10, _⟩ => ⟨S5000x8, .f32⟩
  | .local _ .vmem, ⟨11, _⟩ => ⟨S5000x8, .f32⟩
  | .local _ .vmem, ⟨12, _⟩ => ⟨S1x1, .f32⟩
  | _, _ => ⟨S2000x5000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11

abbrev nD : Nat := 1
abbrev τ : Topo := Topo.v7x

variable {F : FTy → Type} [FloatOps F]

abbrev grid0 : Pipeline.Grid := ⟨2, ![2, 25], ![false, false]⟩

@[reducible] def k0_t1_loop : Scf.Loop 32 :=
  let c0_i32_1 : BitVec 32 := 0#32
  let c5_i32 : BitVec 32 := 5#32
  let v3 : BitVec 32 := Scalar.addi c0_i32_1 c5_i32
  let c1_i32 : BitVec 32 := 1#32
  ⟨c0_i32_1, v3, c1_i32⟩
def k0_mult1 (k0_t1 : Fin k0_t1_loop.trips) : BitVec 32 :=
  let c0_i32_5 : BitVec 32 := 0#32
  let c0_i32_1 : BitVec 32 := 0#32
  let c1_i32 : BitVec 32 := 1#32
  let arg6 : BitVec 32 := Scf.iv c0_i32_1 c1_i32 k0_t1
  let c1_i32_4 : BitVec 32 := 1#32
  let v7 : BitVec 32 := Scalar.muli arg6 c1_i32_4
  let v8 : BitVec 32 := Scalar.addi c0_i32_5 v7
  let c8_i32 : BitVec 32 := 8#32
  let v9 : BitVec 32 := Scalar.muli v8 c8_i32
  v9
def k0_off1 (k0_t1 : Fin k0_t1_loop.trips) : Fin 3 → Nat :=
  let c0 : Index := 0#32
  let c0_i32_5 : BitVec 32 := 0#32
  let c0_i32_1 : BitVec 32 := 0#32
  let c1_i32 : BitVec 32 := 1#32
  let arg6 : BitVec 32 := Scf.iv c0_i32_1 c1_i32 k0_t1
  let c1_i32_4 : BitVec 32 := 1#32
  let v7 : BitVec 32 := Scalar.muli arg6 c1_i32_4
  let v8 : BitVec 32 := Scalar.addi c0_i32_5 v7
  let c8_i32 : BitVec 32 := 8#32
  let v9 : BitVec 32 := Scalar.muli v8 c8_i32
  let v10 : BitVec 32 := v9
  let v11 : Index := Scalar.indexCast v10
  let c0_6 : Index := 0#32
  ![0, v11.toNat, 0]
def k0_cond2 (i : grid0.Coords) : BitVec 1 :=
  let arg1 : BitVec 32 := BitVec.ofNat 32 (i 1).val
  let c24_i32 : BitVec 32 := 24#32
  let v4 : BitVec 1 := Scalar.cmpi .eq arg1 c24_i32
  let v5 : BitVec 32 := Scalar.extui v4
  let c0_i32_3 : BitVec 32 := 0#32
  let v6 : BitVec 1 := Scalar.cmpi .ne v5 c0_i32_3
  v6

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x40x40000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x40x40000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x5x40000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S5000x8 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S5000x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S5000x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S5000x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S5000x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  shapeCasts_S2000x5000x8_S2x1000x40000 : S2000x5000x8.ShapeCasts S2x1000x40000
  inb_S5x40000_S5x40000_0_0 : ∀ a, (![0, 0] : Fin 2 → Nat) a + S5x40000.size a ≤ S5x40000.size a
  h_S5x40000 : 0 < S5x40000.numel
  shapeCasts_S5x40000_S5x40000 : S5x40000.ShapeCasts S5x40000
  h_S1x8x40000 : 0 < S1x8x40000.numel
  shapeCasts_S1x8x40000_S8x40000 : S1x8x40000.ShapeCasts S8x40000
  reduces_S8x40000_S40000 : S8x40000.Reduces [0] S40000
  inb_S5x40000_S1x40000_0_0 : ∀ a, (![0, 0] : Fin 2 → Nat) a + S1x40000.size a ≤ S5x40000.size a
  h_S1x40000 : 0 < S1x40000.numel
  shapeCasts_S1x40000_S40000 : S1x40000.ShapeCasts S40000
  shapeCasts_S40000_S1x40000 : S40000.ShapeCasts S1x40000
  inb_S5x40000_S1x40000_1_0 : ∀ a, (![1, 0] : Fin 2 → Nat) a + S1x40000.size a ≤ S5x40000.size a
  inb_S5x40000_S1x40000_2_0 : ∀ a, (![2, 0] : Fin 2 → Nat) a + S1x40000.size a ≤ S5x40000.size a
  inb_S5x40000_S1x40000_3_0 : ∀ a, (![3, 0] : Fin 2 → Nat) a + S1x40000.size a ≤ S5x40000.size a
  inb_S5x40000_S1x40000_4_0 : ∀ a, (![4, 0] : Fin 2 → Nat) a + S1x40000.size a ≤ S5x40000.size a
  inb_S1x5x40000_S1x5x40000_0_0_0 : ∀ a, (![0, 0, 0] : Fin 3 → Nat) a + S1x5x40000.size a ≤ S1x5x40000.size a
  h_S1x5x40000 : 0 < S1x5x40000.numel
  shapeCasts_S1x5x40000_S5x40000 : S1x5x40000.ShapeCasts S5x40000
  shapeCasts_S5x40000_S1x5x40000 : S5x40000.ShapeCasts S1x5x40000
  reducesTo_S2x5x40000_S5x40000_d0 : S2x5x40000.ReducesTo [0] S5x40000
  h_S_ : 0 < S_.numel
  slices_S5x40000_S1x40000_0_0 : S5x40000.Slices ![0, 0] S1x40000
  shapeCasts_S40000_S5000x8 : S40000.ShapeCasts S5000x8
  slices_S5x40000_S1x40000_1_0 : S5x40000.Slices ![1, 0] S1x40000
  slices_S5x40000_S1x40000_2_0 : S5x40000.Slices ![2, 0] S1x40000
  slices_S5x40000_S1x40000_3_0 : S5x40000.Slices ![3, 0] S1x40000
  slices_S5x40000_S1x40000_4_0 : S5x40000.Slices ![4, 0] S1x40000
  inb_S5000x8_S5000x8_0_0 : ∀ a, (![0, 0] : Fin 2 → Nat) a + S5000x8.size a ≤ S5000x8.size a
  h_S5000x8 : 0 < S5000x8.numel
  shapeCasts_S5000x8_S5000x8 : S5000x8.ShapeCasts S5000x8
  reduces_S5000x8_S8 : S5000x8.Reduces [0] S8
  shapeCasts_S8_S1x8 : S8.ShapeCasts S1x8
  natLt_1_32 : 1 < 32
  reduces_S1x8_S1 : S1x8.Reduces [1] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S1x8x40000.size a ≤ S1x40x40000.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x40x40000.size a ≤ S2x1000x40000.size a
  hwx0_0 : ∀ i : grid0.Coords, EltTy.bits .f32 = 32 ∨ (Rect.block (s := S2x1000x40000) S1x40x40000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x40x40000.size a ≤ S2x1000x40000.size a
  hwx0_1 : ∀ i : grid0.Coords, EltTy.bits .f32 = 32 ∨ (Rect.block (s := S2x1000x40000) S1x40x40000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x5x40000.size a ≤ S2x5x40000.size a
  hwx0_2 : ∀ i : grid0.Coords, EltTy.bits .f32 = 32 ∨ (Rect.block (s := S2x5x40000) S1x5x40000.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S5000x8.size a ≤ S5000x8.size a
  hwx1_0 : ∀ i : grid1.Coords, EltTy.bits .f32 = 32 ∨ (Rect.block (s := S5000x8) S5000x8.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S5000x8.size a ≤ S5000x8.size a
  hwx1_1 : ∀ i : grid1.Coords, EltTy.bits .f32 = 32 ∨ (Rect.block (s := S5000x8) S5000x8.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S5000x8.size a ≤ S5000x8.size a
  hwx1_2 : ∀ i : grid1.Coords, EltTy.bits .f32 = 32 ∨ (Rect.block (s := S5000x8) S5000x8.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S5000x8.size a ≤ S5000x8.size a
  hwx1_3 : ∀ i : grid1.Coords, EltTy.bits .f32 = 32 ∨ (Rect.block (s := S5000x8) S5000x8.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S5000x8.size a ≤ S5000x8.size a
  hwx1_4 : ∀ i : grid1.Coords, EltTy.bits .f32 = 32 ∨ (Rect.block (s := S5000x8) S5000x8.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)

variable [Facts₀]

abbrev win0_0 : Pipeline.Window sig grid0 :=
  Pipeline.Window.ofSpec (Memref.whole main_v0) S1x40x40000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x40x40000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x5x40000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v6) S5000x8.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v9) S5000x8.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S5000x8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S5000x8.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v19) S1x1.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S2000x5000x8 : Shape := ⟨3, ![2000, 5000, 8]⟩
abbrev S_ : Shape := ⟨0, ![]⟩
abbrev S5000x8 : Shape := ⟨2, ![5000, 8]⟩
abbrev S1x5000x8 : Shape := ⟨3, ![1, 5000, 8]⟩
abbrev S8 : Shape := ⟨1, ![8]⟩

abbrev nBuf : Space → Nat
  | .hbm => 70
  | .vmem => 0
  | .smem => 0
  | _ => 0

abbrev bufTy : (tb : Table) → Fin (tcTables nBuf tb) → BufTy
  | .hbm, ⟨0, _⟩ => ⟨S2000x5000x8, .f32⟩
  | .hbm, ⟨1, _⟩ => ⟨S2000x5000x8, .f32⟩
  | .hbm, ⟨2, _⟩ => ⟨S2000x5000x8, .i1⟩
  | .hbm, ⟨3, _⟩ => ⟨S2000x5000x8, .i1⟩
  | .hbm, ⟨4, _⟩ => ⟨S2000x5000x8, .f32⟩
  | .hbm, ⟨5, _⟩ => ⟨S_, .f32⟩
  | .hbm, ⟨6, _⟩ => ⟨S5000x8, .f32⟩
  | .hbm, ⟨7, _⟩ => ⟨S_, .f32⟩
  | .hbm, ⟨8, _⟩ => ⟨S_, .f32⟩
  | .hbm, ⟨9, _⟩ => ⟨S2000x5000x8, .f32⟩
  | .hbm, ⟨10, _⟩ => ⟨S2000x5000x8, .f32⟩
  | .hbm, ⟨11, _⟩ => ⟨S_, .f32⟩
  | .hbm, ⟨12, _⟩ => ⟨S5000x8, .f32⟩
  | .hbm, ⟨13, _⟩ => ⟨S5000x8, .f32⟩
  | .hbm, ⟨14, _⟩ => ⟨S_, .f32⟩
  | .hbm, ⟨15, _⟩ => ⟨S5000x8, .f32⟩
  | .hbm, ⟨16, _⟩ => ⟨S5000x8, .f32⟩
  | .hbm, ⟨17, _⟩ => ⟨S1x5000x8, .f32⟩
  | .hbm, ⟨18, _⟩ => ⟨S2000x5000x8, .f32⟩
  | .hbm, ⟨19, _⟩ => ⟨S2000x5000x8, .f32⟩
  | .hbm, ⟨20, _⟩ => ⟨S2000x5000x8, .f32⟩
  | .hbm, ⟨21, _⟩ => ⟨S2000x5000x8, .f32⟩
  | .hbm, ⟨22, _⟩ => ⟨S_, .f32⟩
  | .hbm, ⟨23, _⟩ => ⟨S5000x8, .f32⟩
  | .hbm, ⟨24, _⟩ => ⟨S2000x5000x8, .f32⟩
  | .hbm, ⟨25, _⟩ => ⟨S2000x5000x8, .f32⟩
  | .hbm, ⟨26, _⟩ => ⟨S2000x5000x8, .f32⟩
  | .hbm, ⟨27, _⟩ => ⟨S_, .f32⟩
  | .hbm, ⟨28, _⟩ => ⟨S5000x8, .f32⟩
  | .hbm, ⟨29, _⟩ => ⟨S_, .f32⟩
  | .hbm, ⟨30, _⟩ => ⟨S5000x8, .f32⟩
  | .hbm, ⟨31, _⟩ => ⟨S5000x8, .i1⟩
  | .hbm, ⟨32, _⟩ => ⟨S_, .f32⟩
  | .hbm, ⟨33, _⟩ => ⟨S5000x8, .f32⟩
  | .hbm, ⟨34, _⟩ => ⟨S5000x8, .i1⟩
  | .hbm, ⟨35, _⟩ => ⟨S5000x8, .i1⟩
  | .hbm, ⟨36, _⟩ => ⟨S_, .f32⟩
  | .hbm, ⟨37, _⟩ => ⟨S_, .f32⟩
  | .hbm, ⟨38, _⟩ => ⟨S5000x8, .f32⟩
  | .hbm, ⟨39, _⟩ => ⟨S5000x8, .f32⟩
  | .hbm, ⟨40, _⟩ => ⟨S5000x8, .f32⟩
  | .hbm, ⟨41, _⟩ => ⟨S_, .f32⟩
  | .hbm, ⟨42, _⟩ => ⟨S5000x8, .f32⟩
  | .hbm, ⟨43, _⟩ => ⟨S5000x8, .f32⟩
  | .hbm, ⟨44, _⟩ => ⟨S5000x8, .f32⟩
  | .hbm, ⟨45, _⟩ => ⟨S5000x8, .f32⟩
  | .hbm, ⟨46, _⟩ => ⟨S_, .f32⟩
  | .hbm, ⟨47, _⟩ => ⟨S_, .f32⟩
  | .hbm, ⟨48, _⟩ => ⟨S5000x8, .f32⟩
  | .hbm, ⟨49, _⟩ => ⟨S5000x8, .f32⟩
  | .hbm, ⟨50, _⟩ => ⟨S_, .f32⟩
  | .hbm, ⟨51, _⟩ => ⟨S8, .f32⟩
  | .hbm, ⟨52, _⟩ => ⟨S5000x8, .f32⟩
  | .hbm, ⟨53, _⟩ => ⟨S_, .f32⟩
  | .hbm, ⟨54, _⟩ => ⟨S8, .f32⟩
  | .hbm, ⟨55, _⟩ => ⟨S_, .f32⟩
  | .hbm, ⟨56, _⟩ => ⟨S8, .f32⟩
  | .hbm, ⟨57, _⟩ => ⟨S8, .i1⟩
  | .hbm, ⟨58, _⟩ => ⟨S_, .f32⟩
  | .hbm, ⟨59, _⟩ => ⟨S8, .f32⟩
  | .hbm, ⟨60, _⟩ => ⟨S8, .f32⟩
  | .hbm, ⟨61, _⟩ => ⟨S8, .f32⟩
  | .hbm, ⟨62, _⟩ => ⟨S_, .f32⟩
  | .hbm, ⟨63, _⟩ => ⟨S_, .f32⟩
  | .hbm, ⟨64, _⟩ => ⟨S8, .f32⟩
  | .hbm, ⟨65, _⟩ => ⟨S8, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | _, _ => ⟨S2000x5000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_call1_v0 : Ref sig .tc := ⟨.hbm, 37, rfl⟩
abbrev main_call1_v1 : Ref sig .tc := ⟨.hbm, 38, rfl⟩
abbrev main_v24 : Ref sig .tc := ⟨.hbm, 39, rfl⟩
abbrev main_v25 : Ref sig .tc := ⟨.hbm, 40, rfl⟩
abbrev main_cst_8 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_9 : Ref sig .tc := ⟨.hbm, 46, rfl⟩
abbrev main_call2_v0 : Ref sig .tc := ⟨.hbm, 47, rfl⟩
abbrev main_call2_v1 : Ref sig .tc := ⟨.hbm, 48, rfl⟩
abbrev main_v30 : Ref sig .tc := ⟨.hbm, 49, rfl⟩
abbrev main_cst_10 : Ref sig .tc := ⟨.hbm, 50, rfl⟩
abbrev main_v31 : Ref sig .tc := ⟨.hbm, 51, rfl⟩
abbrev main_v32 : Ref sig .tc := ⟨.hbm, 52, rfl⟩
abbrev main_cst_11 : Ref sig .tc := ⟨.hbm, 53, rfl⟩
abbrev main_v33 : Ref sig .tc := ⟨.hbm, 54, rfl⟩
abbrev main_cst_12 : Ref sig .tc := ⟨.hbm, 55, rfl⟩
abbrev main_v34 : Ref sig .tc := ⟨.hbm, 56, rfl⟩
abbrev main_v35 : Ref sig .tc := ⟨.hbm, 57, rfl⟩
abbrev main_cst_13 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_14 : Ref sig .tc := ⟨.hbm, 62, rfl⟩
abbrev main_call3_v0 : Ref sig .tc := ⟨.hbm, 63, rfl⟩
abbrev main_call3_v1 : Ref sig .tc := ⟨.hbm, 64, rfl⟩
abbrev main_v39 : Ref sig .tc := ⟨.hbm, 65, rfl⟩
abbrev main_cst_15 : Ref sig .tc := ⟨.hbm, 66, rfl⟩
abbrev main_v40 : Ref sig .tc := ⟨.hbm, 67, rfl⟩
abbrev main_cst_16 : Ref sig .tc := ⟨.hbm, 68, rfl⟩
abbrev main_v41 : Ref sig .tc := ⟨.hbm, 69, rfl⟩

abbrev nD : Nat := 1
abbrev τ : Topo := Topo.v7x

variable {F : FTy → Type} [FloatOps F]

class Facts₀ : Prop where
  reducesTo_S2000x5000x8_S5000x8_d0 : S2000x5000x8.ReducesTo [0] S5000x8
  h_S_ : 0 < S_.numel
  bcast_S_S2000x5000x8 : S_.BroadcastsInDim S2000x5000x8 (![] : Fin 0 → Fin S2000x5000x8.rank)
  bcast_S_S5000x8 : S_.BroadcastsInDim S5000x8 (![] : Fin 0 → Fin S5000x8.rank)
  bcast_S5000x8_S1x5000x8_1_2 : S5000x8.BroadcastsInDim S1x5000x8 (![1, 2] : Fin 2 → Fin S1x5000x8.rank)
  bcast_S1x5000x8_S2000x5000x8_0_1_2 : S1x5000x8.BroadcastsInDim S2000x5000x8 (![0, 1, 2] : Fin 3 → Fin S2000x5000x8.rank)
  reducesTo_S5000x8_S8_d0 : S5000x8.ReducesTo [0] S8
  bcast_S_S8 : S_.BroadcastsInDim S8 (![] : Fin 0 → Fin S8.rank)
  reducesTo_S8_S_d0 : S8.ReducesTo [0] S_

variable [Facts₀]

class Facts : Prop extends Facts₀ where

variable [Facts]
-- ==== Proof.ReduceKit.lean ====
/-
  The reduction kernel (region 0: a grid of 2 × 25 points, two input windows of 40 rows of the flattened
  [2, 1000, 40000] arrays, one output window of the [2, 5, 40000] partial sums, one scratch of five rows carried
  from point to point): what its body's run and the region's proof data are stated over.
  * a window's block at a point, read off the array as the region finds it;
  * an input window's current staging buffer holds its block at every point;
  * the body's two branch conditions in closed form over the grid: the scratch is zero-filled at the points whose
    second coordinate is 0 (t ≡ 0 mod 25) and copied to the output at those where it is 24 (t ≡ 24 mod 25);
  * the output window is idle (neither stored into nor written back) at every other point;
  * the class invariant opened: the scratch at some contents beside the generator register.
-/
import proofs.«114420_j7301444403972_2_alg».proof.Proof.Gen.KernelIdeal.Launch
import proofs.«114420_j7301444403972_2_alg».proof.Proof.Gen.KernelIdeal.Skeleton
import proofs.«114420_j7301444403972_2_alg».proof.Proof.Gen.KernelIdeal.Points
import proofs.«114420_j7301444403972_2_alg».proof.Proof.Gen.KernelIdeal.Loops
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Reduce

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input's current staging buffer holds its block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the second input. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
end

/-! ## The body's branch conditions -/

/-- The zero-fill's condition: the second grid coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 25 = 0 :=
  (by decide +kernel : ∀ t : Fin grid0.N, cond0_0 (grid0.coords t) ↔ t.val % 25 = 0)

/-- The copy-out's condition: the second grid coordinate is 24. -/
abbrev cond0_1 (i : grid0.Coords) : Prop := k0_cond2 i = 1#1
theorem hcond0_1 : ∀ t : Fin cfg0.N, cond0_1 (grid0.coords t) ↔ t.val % 25 = 24 :=
  (by decide +kernel : ∀ t : Fin grid0.N, cond0_1 (grid0.coords t) ↔ t.val % 25 = 24)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the points of the copy-out the output window is idle, and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the body is called with -/

abbrev ms0_0 (t : Fin cfg0.N) : Memref sig .tc .vmem S1x40x40000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x40x40000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x5x40000 .f32 := win0_2.stage (cfg0.slots t 2)
abbrev hs0_2 (t : Fin cfg0.N) : (ms0_2 t).IsWhole := hstage0_2 ((cfg0.slots t 2).cast nbuf0_2)
/-- The scratch: a whole scoped buffer of the kernel's own. -/
abbrev scM0 : Memref sig .tc .vmem S5x40000 .f32 := Memref.whole cc0_scratch0

/-- The scoped buffers this region neither stages nor names (the other region's staging buffers), at anything. -/
abbrev others0 (c : Dev nD) : sProp 𝕄 :=
  iprop((∃ f, (c : Thread nD τ).loc cc1_stg0_0 ↦{fullShare} f) ∗ (∃ f, (c : Thread nD τ).loc cc1_stg1_0 ↦{fullShare} f)
    ∗ (∃ f, (c : Thread nD τ).loc cc1_stg2_0 ↦{fullShare} f) ∗ (∃ f, (c : Thread nD τ).loc cc1_stg3_0 ↦{fullShare} f)
    ∗ (∃ f, (c : Thread nD τ).loc cc1_stg4_0 ↦{fullShare} f) ∗ (∃ f, (c : Thread nD τ).loc cc1_stg5_0 ↦{fullShare} f))

/-- The class invariant with the scratch as a memref owned at some contents. -/
theorem PhiA0_eq (c : Dev nD) :
    (Pipeline.ΦA spec0 c : sProp 𝕄)
      = iprop(((∃ d, owns (c : Thread nD τ) scM0 fullShare d) ∗ others0 c) ∗ (∃ r, prngReg c r)) := by
  unfold Pipeline.ΦA; rw [scopedRest0_eq]; simp only [scM0, owns_whole]; try rfl

end Cert.KernelIdeal.Reduce

end
-- ==== Proof.ReduceRunA.lean ====
/-
  The reduction kernel's body run once, whole, at a point where the scratch is zero-filled first (i₁ = 0): the zero-fill, then the loop.
  The inputs' staging buffers are held at their contents and handed back as they were; the scratch ends at contents
  the run itself finds: the five trips' stores, each an accumulation onto what the trip found, written over what the
  loop was entered with.
-/
import proofs.«114420_j7301444403972_2_alg».proof.Proof.ReduceKit

set_option maxRecDepth 16384

noncomputable section

namespace Cert.KernelIdeal.Reduce

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a first point of a half (i₁ = 0): from the inputs' buffers at `x0`, `x1`, the output's buffer at anything
    (handed back untouched) and the scratch at anything, the body runs to its return with the scratch holding the
    pieces `LS` the run finds, written over whatever it held: the zero-fill of all five rows, then the five trips. -/
noncomputable def kernelRun0_A (c : Dev nD) (i : grid0.Coords) (arg2 : Memref sig .tc .vmem S1x40x40000 .f32) (harg2 : arg2.IsWhole) (arg3 : Memref sig .tc .vmem S1x40x40000 .f32) (harg3 : arg3.IsWhole) (arg4 : Memref sig .tc .vmem S1x5x40000 .f32) (harg4 : arg4.IsWhole) (arg5 : Memref sig .tc .vmem S5x40000 .f32) (harg5 : arg5.IsWhole) (hc0 : cond0_0 i) (hc1 : ¬cond0_1 i)
    (x0 x1 : Vec F S1x40x40000 .f32) :
    { LS : List (View.Piece (Elt F) S5x40000 .f32) //
      ∀ (xi2 : Vec F S1x5x40000 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__reduce_kernel i arg2 harg2 arg3 harg3 arg4 harg4 arg5 harg5) K } := by
  refine ⟨?_, fun xi2 E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%ds, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Reduce

end
-- ==== Proof.ReduceRunB.lean ====
/-
  The reduction kernel's body run once, whole, at a point where the scratch is neither zero-filled nor copied out (0 < i₁ < 24): only the loop runs.
  The inputs' staging buffers are held at their contents and handed back as they were; the scratch ends at contents
  the run itself finds: the five trips' stores, each an accumulation onto what the trip found, written over what the
  loop was entered with.
-/
import proofs.«114420_j7301444403972_2_alg».proof.Proof.ReduceKit

set_option maxRecDepth 16384

noncomputable section

namespace Cert.KernelIdeal.Reduce

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a middle point: from the inputs' buffers at `x0`, `x1`, the output's buffer at anything (handed back
    untouched) and the scratch at `xs`, the body runs to its return with the scratch at the contents `fs` the run finds. -/
noncomputable def kernelRun0_B (c : Dev nD) (i : grid0.Coords) (arg2 : Memref sig .tc .vmem S1x40x40000 .f32) (harg2 : arg2.IsWhole) (arg3 : Memref sig .tc .vmem S1x40x40000 .f32) (harg3 : arg3.IsWhole) (arg4 : Memref sig .tc .vmem S1x5x40000 .f32) (harg4 : arg4.IsWhole) (arg5 : Memref sig .tc .vmem S5x40000 .f32) (harg5 : arg5.IsWhole) (hc0 : ¬cond0_0 i) (hc1 : ¬cond0_1 i)
    (x0 x1 : Vec F S1x40x40000 .f32) (xs : Vec F S5x40000 .f32) :
    { fs : BufTy.Contents (Elt F) arg5.view.ty //
      ∀ (xi2 : Vec F S1x5x40000 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (arg5.view.loc (c : Thread nD τ) ↦[arg5.view.set]{fullShare} fs)) -∗ K ⟨⟩))
          ⊢ wp frame (wpE (defs₀ (F := F)) Variants.none c none) E (cc0__reduce_kernel i arg2 harg2 arg3 harg3 arg4 harg4 arg5 harg5) K } := by
  refine ⟨?_, fun xi2 E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexact HS0

end Cert.KernelIdeal.Reduce

end
-- ==== Proof.ReduceRunC.lean ====
/-
  The reduction kernel's body run once, whole, at a point where the scratch is copied into the output's buffer at the end (i₁ = 24): the loop, then the copy.
  The inputs' staging buffers are held at their contents and handed back as they were; the scratch ends at contents
  the run itself finds: the five trips' stores, each an accumulation onto what the trip found, written over what the
  loop was entered with.
-/
import proofs.«114420_j7301444403972_2_alg».proof.Proof.ReduceKit

set_option maxRecDepth 16384

noncomputable section

namespace Cert.KernelIdeal.Reduce

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a last point of a half (i₁ = 24): from the inputs' buffers at `x0`, `x1`, the output's buffer at anything and
    the scratch at `xs`, the body runs to its return with the scratch at the contents `fs` the run finds and the
    output's buffer holding the piece list `L2` the run finds (one store of the whole block: the scratch's rows). -/
noncomputable def kernelRun0_C (c : Dev nD) (i : grid0.Coords) (arg2 : Memref sig .tc .vmem S1x40x40000 .f32) (harg2 : arg2.IsWhole) (arg3 : Memref sig .tc .vmem S1x40x40000 .f32) (harg3 : arg3.IsWhole) (arg4 : Memref sig .tc .vmem S1x5x40000 .f32) (harg4 : arg4.IsWhole) (arg5 : Memref sig .tc .vmem S5x40000 .f32) (harg5 : arg5.IsWhole) (hc0 : ¬cond0_0 i) (hc1 : cond0_1 i)
    (x0 x1 : Vec F S1x40x40000 .f32) (xs : Vec F S5x40000 .f32) :
    Σ' (L2 : List (View.Piece (Elt F) S1x5x40000 .f32)), { fs : BufTy.Contents (Elt F) arg5.view.ty //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (arg5.view.loc (c : Thread nD τ) ↦[arg5.view.set]{fullShare} fs)) -∗ K ⟨⟩))
          ⊢ wp frame (wpE (defs₀ (F := F)) Variants.none c none) E (cc0__reduce_kernel i arg2 harg2 arg3 harg3 arg4 harg4 arg5 harg5) K } := by
  refine ⟨?_, ?_, fun E K => ?run⟩
  case run =>
    simp only [cc0__reduce_kernel_eq_skeleton]; unfold cc0__reduce_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexact HS0

end Cert.KernelIdeal.Reduce

end
-- ==== Proof.ReduceFrame.lean ====
/-
  The reduction kernel's region as proof data for the pipeline, at the contents `V` the region is entered with.
  Per control case, what the body leaves in the scratch (and, at a copy-out point, in the output's buffer); then, by
  recursion on the grid point, what the scratch holds after every point (`outsAt0`): zero-filled and accumulated
  at the first point of each half, accumulated onto what the point before left at every other point, and copied to
  the output at the last point of each half. The invariant between points is the scratch at that point's contents
  (before the first point: at anything). The body obligation follows by cases on the point modulo 25.
-/
import proofs.«114420_j7301444403972_2_alg».proof.Proof.ReduceRunA
import proofs.«114420_j7301444403972_2_alg».proof.Proof.ReduceRunB
import proofs.«114420_j7301444403972_2_alg».proof.Proof.ReduceRunC

set_option maxRecDepth 16384

noncomputable section

namespace Cert.KernelIdeal.Reduce

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The views through which the scratch's and the output buffer's contents are stated. -/
abbrev VS0 : View sig .tc .vmem S5x40000 .f32 := scM0.view
abbrev VO0 : View sig .tc .vmem S1x5x40000 .f32 := (Memref.whole cc0_stg2_0 : Memref sig .tc .vmem S1x5x40000 .f32).view

/-- A placeholder for the output's buffer at a point where the window is idle: nothing consults it. -/
def oIdle : Vec F S1x5x40000 .f32 := VO0.read (Elt F) (VO0.writes (Elt F) VO0.junk [])

/-! ## What each case leaves -/

/-- Case A's pieces cover the scratch (the zero-fill alone does). -/
theorem scoverA (c : Dev nD) (i : grid0.Coords) (arg2 : Memref sig .tc .vmem S1x40x40000 .f32) (harg2 : arg2.IsWhole) (arg3 : Memref sig .tc .vmem S1x40x40000 .f32) (harg3 : arg3.IsWhole) (arg4 : Memref sig .tc .vmem S1x5x40000 .f32) (harg4 : arg4.IsWhole) (arg5 : Memref sig .tc .vmem S5x40000 .f32) (harg5 : arg5.IsWhole) (hc0 : cond0_0 i) (hc1 : ¬cond0_1 i) (x0 x1 : Vec F S1x40x40000 .f32) (y : S5x40000.Idx) :
    ∃ pc ∈ (kernelRun0_A c i arg2 harg2 arg3 harg3 arg4 harg4 arg5 harg5 hc0 hc1 x0 x1).1, y ∈ pc.1.set :=
  View.cover_of_tiledL (kernelRun0_A c i arg2 harg2 arg3 harg3 arg4 harg4 arg5 harg5 hc0 hc1 x0 x1).1 S5x40000.size (by sl_kernel_rfl) y

/-- What case A leaves in the scratch: its pieces read back over junk. -/
def sA (c : Dev nD) (i : grid0.Coords) (arg2 : Memref sig .tc .vmem S1x40x40000 .f32) (harg2 : arg2.IsWhole) (arg3 : Memref sig .tc .vmem S1x40x40000 .f32) (harg3 : arg3.IsWhole) (arg4 : Memref sig .tc .vmem S1x5x40000 .f32) (harg4 : arg4.IsWhole) (arg5 : Memref sig .tc .vmem S5x40000 .f32) (harg5 : arg5.IsWhole) (hc0 : cond0_0 i) (hc1 : ¬cond0_1 i) (x0 x1 : Vec F S1x40x40000 .f32) : Vec F S5x40000 .f32 :=
  VS0.read (Elt F) (VS0.writes (Elt F) VS0.junk (kernelRun0_A c i arg2 harg2 arg3 harg3 arg4 harg4 arg5 harg5 hc0 hc1 x0 x1).1)

/-- What case B leaves in the scratch, entered at `xs`. -/
def sB (c : Dev nD) (i : grid0.Coords) (arg2 : Memref sig .tc .vmem S1x40x40000 .f32) (harg2 : arg2.IsWhole) (arg3 : Memref sig .tc .vmem S1x40x40000 .f32) (harg3 : arg3.IsWhole) (arg4 : Memref sig .tc .vmem S1x5x40000 .f32) (harg4 : arg4.IsWhole) (arg5 : Memref sig .tc .vmem S5x40000 .f32) (harg5 : arg5.IsWhole) (hc0 : ¬cond0_0 i) (hc1 : ¬cond0_1 i) (x0 x1 : Vec F S1x40x40000 .f32) (xs : Vec F S5x40000 .f32) : Vec F S5x40000 .f32 :=
  arg5.view.read (Elt F) (kernelRun0_B c i arg2 harg2 arg3 harg3 arg4 harg4 arg5 harg5 hc0 hc1 x0 x1 xs).1

/-- What case C leaves in the scratch, entered at `xs`. -/
def sC (c : Dev nD) (i : grid0.Coords) (arg2 : Memref sig .tc .vmem S1x40x40000 .f32) (harg2 : arg2.IsWhole) (arg3 : Memref sig .tc .vmem S1x40x40000 .f32) (harg3 : arg3.IsWhole) (arg4 : Memref sig .tc .vmem S1x5x40000 .f32) (harg4 : arg4.IsWhole) (arg5 : Memref sig .tc .vmem S5x40000 .f32) (harg5 : arg5.IsWhole) (hc0 : ¬cond0_0 i) (hc1 : cond0_1 i) (x0 x1 : Vec F S1x40x40000 .f32) (xs : Vec F S5x40000 .f32) : Vec F S5x40000 .f32 :=
  arg5.view.read (Elt F) (kernelRun0_C c i arg2 harg2 arg3 harg3 arg4 harg4 arg5 harg5 hc0 hc1 x0 x1 xs).2.1

/-- Case C's one store covers the output's block. -/
theorem coverC (c : Dev nD) (i : grid0.Coords) (arg2 : Memref sig .tc .vmem S1x40x40000 .f32) (harg2 : arg2.IsWhole) (arg3 : Memref sig .tc .vmem S1x40x40000 .f32) (harg3 : arg3.IsWhole) (arg4 : Memref sig .tc .vmem S1x5x40000 .f32) (harg4 : arg4.IsWhole) (arg5 : Memref sig .tc .vmem S5x40000 .f32) (harg5 : arg5.IsWhole) (hc0 : ¬cond0_0 i) (hc1 : cond0_1 i) (x0 x1 : Vec F S1x40x40000 .f32) (xs : Vec F S5x40000 .f32) (y : S1x5x40000.Idx) :
    ∃ pc ∈ (kernelRun0_C c i arg2 harg2 arg3 harg3 arg4 harg4 arg5 harg5 hc0 hc1 x0 x1 xs).1, y ∈ pc.1.set :=
  View.cover_of_tiledL (kernelRun0_C c i arg2 harg2 arg3 harg3 arg4 harg4 arg5 harg5 hc0 hc1 x0 x1 xs).1 S1x5x40000.size (by sl_kernel_rfl) y

/-- What case C leaves in the output's buffer: its piece read back over junk. -/
def oC (c : Dev nD) (i : grid0.Coords) (arg2 : Memref sig .tc .vmem S1x40x40000 .f32) (harg2 : arg2.IsWhole) (arg3 : Memref sig .tc .vmem S1x40x40000 .f32) (harg3 : arg3.IsWhole) (arg4 : Memref sig .tc .vmem S1x5x40000 .f32) (harg4 : arg4.IsWhole) (arg5 : Memref sig .tc .vmem S5x40000 .f32) (harg5 : arg5.IsWhole) (hc0 : ¬cond0_0 i) (hc1 : cond0_1 i) (x0 x1 : Vec F S1x40x40000 .f32) (xs : Vec F S5x40000 .f32) : Vec F S1x5x40000 .f32 :=
  VO0.read (Elt F) (VO0.writes (Elt F) VO0.junk (kernelRun0_C c i arg2 harg2 arg3 harg3 arg4 harg4 arg5 harg5 hc0 hc1 x0 x1 xs).1)

section
variable (V : (c : Dev nD) → (b : Ref sig .tc) → Buf (Elt F) ((c : Thread nD τ).loc b))

/-! ## What the output's buffer and the scratch hold after each point -/

theorem N0_eq : cfg0.N = 50 := N_0

/-- After the body at position `n`: (the output's buffer, the scratch). -/
def outsAt0 (c : Dev nD) : (n : ℕ) → n < cfg0.N → Vec F S1x5x40000 .f32 × Vec F S5x40000 .f32
  | 0, hn => (oIdle, sA c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 25 = 0 then
      (oIdle, sA c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩))
    else
      if h1 : (n + 1) % 25 = 24 then
        (oC c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2,
         sC c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (oIdle, sB c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- At a first point of a half. -/
theorem outsAt0_A (c : Dev nD) (t : Fin cfg0.N) (h0 : t.val % 25 = 0) :
    outsAt0 V c t.val t.isLt = (oIdle, sA c (grid0.coords t) (ms0_0 t) (hs0_0 t) (ms0_1 t) (hs0_1 t) (ms0_2 t) (hs0_2 t) scM0 (Memref.isWhole_whole _) ((hcond0_0 t).mpr h0) (fun h => (fun h => by omega) ((hcond0_1 t).mp h)) (iblk0 V c 0 t) (iblk0 V c 1 t)) := by
  obtain ⟨n, hn⟩ := t
  cases n with
  | zero => exact rfl
  | succ n => exact (dif_pos h0).trans rfl

/-- At a middle point: accumulated onto what the point before left. -/
theorem outsAt0_B (c : Dev nD) (t : Fin cfg0.N) (h0 : ¬t.val % 25 = 0) (h1 : ¬t.val % 25 = 24) :
    outsAt0 V c t.val t.isLt = (oIdle, sB c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last point of a half: accumulated, and the scratch copied to the output's buffer. -/
theorem outsAt0_C (c : Dev nD) (t : Fin cfg0.N) (h0 : ¬t.val % 25 = 0) (h1 : t.val % 25 = 24) :
    outsAt0 V c t.val t.isLt = (oC c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2,
      sC c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: before the first point the class's invariant (the scratch at anything); afterwards the scratch
    at what the point before left, the other scoped buffers at anything, the generator register at some state. -/
def PhiS (c : Dev nD) : (n : ℕ) → n ≤ cfg0.N → sProp 𝕄
  | 0, _ => Pipeline.ΦA spec0 c
  | n + 1, hn => iprop((owns (c : Thread nD τ) scM0 fullShare ((outsAt0 V c n hn).2) ∗ others0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop((owns (c : Thread nD τ) scM0 fullShare ((outsAt0 V c n hn).2) ∗ others0 c) ∗ (∃ r, prngReg c r)) := rfl

theorem PhiS_pos (c : Dev nD) (n : ℕ) (h : n ≤ cfg0.N) (hz : n ≠ 0) :
    PhiS V c n h = iprop((owns (c : Thread nD τ) scM0 fullShare ((outsAt0 V c (n - 1) (by omega)).2) ∗ others0 c) ∗ (∃ r, prngReg c r)) := by
  cases n with
  | zero => exact absurd rfl hz
  | succ n => rfl

/-! ## The proof data -/

/-- On core `c`: the arrays as the region finds them; after the body each input's buffer at its block and the output's at
    `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point, by cases on the point modulo 25. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 50 := lt_of_lt_of_eq t.isLt (show cfg0.N = 50 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 25 = 0
  · have hnc1 : ¬cond0_1 (grid0.coords t) := fun h => (fun h => by omega) ((hcond0_1 t).mp h)
    rw [Dat.leavesExact_idle (dat0 V c) 2 t (idleAt0_2 t hnc1) (noFlush0_2 t hnc1)]
    rw [outsAt0_A V c t h0]
    unfold sA; (try dsimp only)
    by_cases hz : t.val = 0
    · rw [PhiS_castSucc V c t, PhiS_zero V c _ _ hz, PhiA0_eq]
      iintro ⟨⟨⟨HS0, Hoth⟩, Hg⟩, Ho, ⟨%d0, H0⟩, ⟨%d1, H1⟩, ⟨%d2, H2⟩⟩
      iapply ((kernelRun0_A c (grid0.coords t) _ _ _ _ _ _ _ _ ((hcond0_0 t).mpr h0) hnc1 (iblk0 V c 0 t) (iblk0 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scoverA c _ _ _ _ _ _ _ _ _ _ _ _ _)
          iexact Hoth
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS0, Hoth⟩, Hg⟩, Ho, ⟨%d0, H0⟩, ⟨%d1, H1⟩, ⟨%d2, H2⟩⟩
      iapply ((kernelRun0_A c (grid0.coords t) _ _ _ _ _ _ _ _ ((hcond0_0 t).mpr h0) hnc1 (iblk0 V c 0 t) (iblk0 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scoverA c _ _ _ _ _ _ _ _ _ _ _ _ _)
          iexact Hoth
        iexact Hg
      isplitl [Ho]; · iexact Ho
      isplitl [H0]; · iexact H0
      isplitl [H1]; · iexact H1
      iexists _; iexact H2
  · have hz : t.val ≠ 0 := fun h => h0 (by rw [h])
    have hnc0 : ¬cond0_0 (grid0.coords t) := fun h => h0 ((hcond0_0 t).mp h)
    by_cases h1 : t.val % 25 = 24
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold oC sC; (try dsimp only)
      rw [PhiS_castSucc V c t, PhiS_pos V c _ _ hz]
      iintro ⟨⟨⟨HS0, Hoth⟩, Hg⟩, Ho, ⟨%d0, H0⟩, ⟨%d1, H1⟩, ⟨%d2, H2⟩⟩
      iapply ((kernelRun0_C c (grid0.coords t) _ _ _ _ _ _ _ _ hnc0 ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, HS0⟩
      isplitl [HS0 Hoth Hg]
      · isplitl [HS0 Hoth]
        · isplitl [HS0]
          · unfold owns; iexists _; isplitr
            swap; · iexact HS0
            ipureintro; rfl
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (coverC c _ _ _ _ _ _ _ _ _ _ _ _ _ _)
    · have hnc1 : ¬cond0_1 (grid0.coords t) := fun h => h1 ((hcond0_1 t).mp h)
      rw [Dat.leavesExact_idle (dat0 V c) 2 t (idleAt0_2 t hnc1) (noFlush0_2 t hnc1)]
      rw [outsAt0_B V c t h0 h1]
      unfold sB; (try dsimp only)
      rw [PhiS_castSucc V c t, PhiS_pos V c _ _ hz]
      iintro ⟨⟨⟨HS0, Hoth⟩, Hg⟩, Ho, ⟨%d0, H0⟩, ⟨%d1, H1⟩, ⟨%d2, H2⟩⟩
      iapply ((kernelRun0_B c (grid0.coords t) _ _ _ _ _ _ _ _ hnc0 hnc1 (iblk0 V c 0 t) (iblk0 V c 1 t) _).2 _ Set.univ _)
      isplitl [H0]; · iexact H0
      isplitl [H1]; · iexact H1
      isplitl [H2]; · iexact H2
      isplitl [HS0]; · iexact HS0
      iintro ⟨H0, H1, H2, HS0⟩
      isplitl [HS0 Hoth Hg]
      · isplitl [HS0 Hoth]
        · isplitl [HS0]
          · unfold owns; iexists _; isplitr
            swap; · iexact HS0
            ipureintro; rfl
          iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hoth⟩, Hg⟩
  isplitl [HS0 Hoth]
  · isplitl [HS0]
    · iexists _; iexact HS0
    iexact Hoth
  iexact Hg

theorem hout0 (c : Dev nD) : (dat0 V c).Φ (Fin.last cfg0.N) ⊢ Pipeline.ΦA spec0 c :=
  Phi_out0 V c _ (by rw [Fin.val_last]; have : cfg0.N = 50 := N_0; omega)

end

end Cert.KernelIdeal.Reduce

end
-- ==== Proof.FinalRegion.lean ====
/- REGION 1 of the program: the second TensorCore call, a grid of ONE point whose five input windows are each the
   whole [5000,8] array and whose one output window is the whole [1,1] array that receives the program's scalar.
   With x0 … x4 the five [5000,8] inputs, at row s and column y:
        mean = x1 / max(x0, 1),  var = max(x2 − x0·mean·mean, 0),  mask = (x0 > 10) ∧ (var > 0),
        num[y]  = Σ_s (if mask then (x2 − 2·x3 + x4) / (sqrt(if mask then var else 1) + 0.1)² else 0)      (k1_pay6),
        hits[y] = Σ_s (if mask then 1 else 0)                                                            (Σ_s of k1_pay7),
        result  = (Σ_y (if hits[y] > 0 then num[y] / max(hits[y], 1) else 0)) / 8                          (k1_pay1).

   Everything here is stated at a PARAMETER `V` — the TensorCore's buffer contents when the region is entered —
   and at any float interpretation `F`. The module proves the region's class-A half:

   * `iblk1`       — each window's block at a point, read off its array as the region finds it;
   * `before1_W_of` — an input window's staging buffer holds that block when the body is called;
   * `out1_5`      — what the body leaves in the output window's buffer: ONE store of the whole [1,1] block whose
                      payload is the pure term  k1_pay1 (k1_pay6 x0 x1 x2 x3 x4) (k1_pay7 x0 x1 x2)  of the five
                      input blocks (the formula above);
   * `sound_kernel1` — the body's triple: from the five inputs at read contents and the output at ANY contents
                      (the body reads the output's buffer once, the value unused, and then overwrites it) it runs
                      to the inputs unchanged and the output at `out1_5` of the inputs;
   * `dat1`, `A_eq1`, `after1_W`, `before1_W` — the pipeline's proof data (arrays at `V`, full shares, nothing
                      owed, the class invariant) and its projections;
   * `sound_body1`, `body_obligation1` — the body obligation at every grid point. -/
import proofs.«114420_j7301444403972_2_alg».proof.Proof.Gen.KernelIdeal.Launch
import proofs.«114420_j7301444403972_2_alg».proof.Proof.Gen.KernelIdeal.Skeleton
import proofs.«114420_j7301444403972_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the program's extents recurses once per coordinate of the long axis
set_option maxRecDepth 16384

noncomputable section

namespace Cert.KernelIdeal.FinalRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole module is stated at
variable (V : (c : Dev nD) → (b : Ref sig .tc) → Buf (Elt F) ((c : Thread nD τ).loc b))

/-! # REGION 1 of @main: the second TensorCore call (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds, at every grid point and whether or not the point fetched it, the block
    of its array at that point — for ANY proof data whose array is `V`'s (`hA`) and whose body leaves the block in
    place (`hafter`): the window is never cut and never idle, so an unfetched block is the one already there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds, at every grid point and whether or not the point fetched it, the block
    of its array at that point — for ANY proof data whose array is `V`'s (`hA`) and whose body leaves the block in
    place (`hafter`): the window is never cut and never idle, so an unfetched block is the one already there. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds, at every grid point and whether or not the point fetched it, the block
    of its array at that point — for ANY proof data whose array is `V`'s (`hA`) and whose body leaves the block in
    place (`hafter`): the window is never cut and never idle, so an unfetched block is the one already there. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds, at every grid point and whether or not the point fetched it, the block
    of its array at that point — for ANY proof data whose array is `V`'s (`hA`) and whose body leaves the block in
    place (`hafter`): the window is never cut and never idle, so an unfetched block is the one already there. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds, at every grid point and whether or not the point fetched it, the block
    of its array at that point — for ANY proof data whose array is `V`'s (`hA`) and whose body leaves the block in
    place (`hafter`): the window is never cut and never idle, so an unfetched block is the one already there. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole [5000,8] block: what each of the five loads reads. -/
abbrev r1_0 : Rect S5000x8 := Rect.unit (s := S5000x8) ![0, 0] S5000x8.size inb_S5000x8_S5000x8_0_0
/-- The whole [1,1] block: what the one store writes (and the unused load before it reads). -/
abbrev r1_1 : Rect S1x1 := Rect.unit (s := S1x1) ![0, 0] S1x1.size inb_S1x1_S1x1_0_0

/-! ## What the body leaves in the output window's buffer -/

/-- Window 5's staging buffer after the body, from the five input windows' blocks: its one store as a piece, the
    payload the pure term of the five blocks. -/
def out1_5 (x0 : Vec F S5000x8 .f32) (x1 : Vec F S5000x8 .f32) (x2 : Vec F S5000x8 .f32) (x3 : Vec F S5000x8 .f32) (x4 : Vec F S5000x8 .f32) : Vec F S1x1 .f32 :=
  View.canon [⟨r1_1, k1_pay1 (k1_pay6 (View.ld x0 r1_0) (View.ld x1 r1_0) (View.ld x2 r1_0) (View.ld x3 r1_0) (View.ld x4 r1_0)) (k1_pay7 (View.ld x0 r1_0) (View.ld x1 r1_0) (View.ld x2 r1_0))⟩]

/-- The one store tiles the [1,1] buffer, so it covers it. -/
theorem cover1_5 (p0 : Vec F S1x1 .f32) (y : S1x1.Idx) :
    ∃ pc ∈ ([⟨r1_1, p0⟩] : List (View.Piece (Elt F) S1x1 .f32)), y ∈ pc.1.set :=
  View.cover_of_tiled [⟨r1_1, p0⟩] S1x1.size (by rfl) y

/-! ## The body's triple -/

set_option maxHeartbeats 1000000 in
/-- The kernel body on whole staging memrefs, the five inputs' at read contents `xW` and the output's at anything, runs
    to the continuation holding the inputs' as they were and the output's at `out1_5` of the inputs': five whole-block
    loads (inside the body's first part), one load of the output's buffer whose value nothing uses, one whole-block store. -/
theorem sound_kernel1 (c : Dev nD) (E : Set ℕ) (i : grid1.Coords) (arg1 : Memref sig .tc .vmem S5000x8 .f32) (harg1 : arg1.IsWhole) (arg2 : Memref sig .tc .vmem S5000x8 .f32) (harg2 : arg2.IsWhole) (arg3 : Memref sig .tc .vmem S5000x8 .f32) (harg3 : arg3.IsWhole) (arg4 : Memref sig .tc .vmem S5000x8 .f32) (harg4 : arg4.IsWhole) (arg5 : Memref sig .tc .vmem S5000x8 .f32) (harg5 : arg5.IsWhole) (arg6 : Memref sig .tc .vmem S1x1 .f32) (harg6 : arg6.IsWhole)
    (x0 : Vec F S5000x8 .f32) (x1 : Vec F S5000x8 .f32) (x2 : Vec F S5000x8 .f32) (x3 : Vec F S5000x8 .f32) (x4 : Vec F S5000x8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__final_kernel i arg1 harg1 arg2 harg2 arg3 harg3 arg4 harg4 arg5 harg5 arg6 harg6) K := by
  simp only [cc1__final_kernel_eq_skeleton]; unfold cc1__final_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover1_5 _)

/-! ## The pipeline's proof data -/

/-- The proof data of pipeline 1 on core `c`: the arrays as the region finds them (`V`); after the body at point
    `t` each input's buffer at its block and the output's at `out1_5` of the five input blocks; the invariant the
    class's (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents (the definition projected, so `V` is never unfolded). -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

/-- info: 'Cert.KernelIdeal.FinalRegion.body_obligation1' depends on axioms: [propext, Classical.choice, Quot.sound] -/
#guard_msgs in #print axioms body_obligation1

end Cert.KernelIdeal.FinalRegion

end
-- ==== Proof.Whole.lean ====
/-
  @main of the program as five segments — the two reshapes, the reduction kernel's region, the host sum of the two
  partial results with its slices and reshapes, the final kernel's region, the last reshape — and its run: the
  buffers' contents at every segment boundary as a fold from the launch memory (a host stretch applies its
  operations; a region leaves its arrays at what its write-backs leave and every other buffer as it found it), each
  region as a record over the thread state "every unscoped buffer at the boundary's contents, the generator register
  at some state, nothing owed", and from the library's launch theorem for a list of segments: every weakly fair
  execution terminates and every unscoped buffer ends at the last boundary's contents. The argument arrays are
  written by no operation and are no region's window, so they end as launched.
-/
import proofs.«114420_j7301444403972_2_alg».proof.Proof.ReduceFrame
import proofs.«114420_j7301444403972_2_alg».proof.Proof.FinalRegion
import proofs.«114420_j7301444403972_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Reduce Cert.KernelIdeal.FinalRegion

variable (m : (ℓ : Loc nD τ sig) → Buf (Elt F) ℓ) (ρ : Dev nD → PrngReg)

/-! ## The buffers' contents at each segment boundary -/

/-- At launch. -/
abbrev W0 : Dev nD → Valuation τ sig (Elt F) := fun c b => m ((c : Dev nD), b)
/-- After the two reshapes (the reduction region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the reduction region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the host sum, slices and reshapes (the final region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the final region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- After the last reshape: the end. -/
abbrev W5 : Dev nD → Valuation τ sig (Elt F) := fun c => StableHlo.after hostOps2 (W4 m c)

/-- A buffer that no host operation writes and that is no window's array of either region ends as launched. -/
theorem W5_untouched (c : Dev nD) (r : Ref sig .tc) (h0 : r ∉ (hostOps0_W : List (Ref sig .tc))) (h1 : r ∉ (hostOps1_W : List (Ref sig .tc)))
    (h2 : r ∉ (hostOps2_W : List (Ref sig .tc))) (ha0 : ∀ w, Pipeline.arrRef spec0 w ≠ r) (ha1 : ∀ w, Pipeline.arrRef spec1 w ≠ r) :
    W5 m c (Proc.devRef .tc r) = m ((c : Thread nD τ).loc r) :=
  (StableHlo.after_of_writes_sub hostOps2 _ hostOps2_writes h2).trans <|
    (W4_of_ne m c r ha1).trans <| (StableHlo.after_of_writes_sub hostOps1 _ hostOps1_writes h1).trans <|
    (W2_of_ne m c r ha0).trans <| (StableHlo.after_of_writes_sub hostOps0 _ hostOps0_writes h0).trans rfl

theorem W5_main_arg0 (c : Dev nD) : W5 m c (Proc.devRef .tc main_arg0) = m ((c : Thread nD τ).loc main_arg0) :=
  W5_untouched m c main_arg0 (by decide) (by decide) (by decide) (by decide) (by decide)
theorem W5_main_arg1 (c : Dev nD) : W5 m c (Proc.devRef .tc main_arg1) = m ((c : Thread nD τ).loc main_arg1) :=
  W5_untouched m c main_arg1 (by decide) (by decide) (by decide) (by decide) (by decide)

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state and the core's `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- The reduction region: entered from every unscoped buffer at `W1`, left at `W2`; its arrays split out of the unscoped
    buffers and put back at the exit contents; the generator register into the invariant and out. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from PhiS_zero (V1 m) c 0 (Nat.zero_le _) rfl]; unfold Pipeline.ΦA
    iintro ⟨Hp, -, Hr⟩
    isplitl [Hr]; · iexact Hr
    iexact Hp
  hout c := by
    rw [Pipeline.ownSems0_none]
    have h2 : (Pipeline.ΦA spec0 c : sProp 𝕄)
        ⊢ iprop((∃ r, prngReg c r) ∗ BI.emp ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (show (pdats m 0 c).Φ (Fin.last _) ⊢ Pipeline.ΦA spec0 c from hout0 (V1 m) c).trans h2
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The final region: entered from every unscoped buffer at `W3`, left at `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every unscoped buffer of the TensorCore ends at the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W5_main_arg0 m c),
     (h c _ (mem_uc main_arg1 (by decide))).trans (W5_main_arg1 m c)⟩) (run_all m ρ)

end Cert.KernelIdeal.Whole

end
-- ==== Proof.ReduceKitK.lean ====
/-
  (For the program as printed, read at the word-level instance: the same statements and proofs as for its
  idealization, whose text is the same.)
  The reduction kernel (region 0: a grid of 2 × 25 points, two input windows of 40 rows of the flattened
  [2, 1000, 40000] arrays, one output window of the [2, 5, 40000] partial sums, one scratch of five rows carried
  from point to point): what its body's run and the region's proof data are stated over.
  * a window's block at a point, read off the array as the region finds it;
  * an input window's current staging buffer holds its block at every point;
  * the body's two branch conditions in closed form over the grid: the scratch is zero-filled at the points whose
    second coordinate is 0 (t ≡ 0 mod 25) and copied to the output at those where it is 24 (t ≡ 24 mod 25);
  * the output window is idle (neither stored into nor written back) at every other point;
  * the class invariant opened: the scratch at some contents beside the generator register.
-/
import proofs.«114420_j7301444403972_2_alg».proof.Proof.Gen.Kernel.Launch
import proofs.«114420_j7301444403972_2_alg».proof.Proof.Gen.Kernel.Skeleton
import proofs.«114420_j7301444403972_2_alg».proof.Proof.Gen.Kernel.Points
import proofs.«114420_j7301444403972_2_alg».proof.Proof.Gen.Kernel.Loops
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Reduce

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input's current staging buffer holds its block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the second input. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
end

/-! ## The body's branch conditions -/

/-- The zero-fill's condition: the second grid coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 25 = 0 :=
  (by decide +kernel : ∀ t : Fin grid0.N, cond0_0 (grid0.coords t) ↔ t.val % 25 = 0)

/-- The copy-out's condition: the second grid coordinate is 24. -/
abbrev cond0_1 (i : grid0.Coords) : Prop := k0_cond2 i = 1#1
theorem hcond0_1 : ∀ t : Fin cfg0.N, cond0_1 (grid0.coords t) ↔ t.val % 25 = 24 :=
  (by decide +kernel : ∀ t : Fin grid0.N, cond0_1 (grid0.coords t) ↔ t.val % 25 = 24)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the points of the copy-out the output window is idle, and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the body is called with -/

abbrev ms0_0 (t : Fin cfg0.N) : Memref sig .tc .vmem S1x40x40000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x40x40000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x5x40000 .f32 := win0_2.stage (cfg0.slots t 2)
abbrev hs0_2 (t : Fin cfg0.N) : (ms0_2 t).IsWhole := hstage0_2 ((cfg0.slots t 2).cast nbuf0_2)
/-- The scratch: a whole scoped buffer of the kernel's own. -/
abbrev scM0 : Memref sig .tc .vmem S5x40000 .f32 := Memref.whole cc0_scratch0

/-- The scoped buffers this region neither stages nor names (the other region's staging buffers), at anything. -/
abbrev others0 (c : Dev nD) : sProp 𝕄 :=
  iprop((∃ f, (c : Thread nD τ).loc cc1_stg0_0 ↦{fullShare} f) ∗ (∃ f, (c : Thread nD τ).loc cc1_stg1_0 ↦{fullShare} f)
    ∗ (∃ f, (c : Thread nD τ).loc cc1_stg2_0 ↦{fullShare} f) ∗ (∃ f, (c : Thread nD τ).loc cc1_stg3_0 ↦{fullShare} f)
    ∗ (∃ f, (c : Thread nD τ).loc cc1_stg4_0 ↦{fullShare} f) ∗ (∃ f, (c : Thread nD τ).loc cc1_stg5_0 ↦{fullShare} f))

/-- The class invariant with the scratch as a memref owned at some contents. -/
theorem PhiA0_eq (c : Dev nD) :
    (Pipeline.ΦA spec0 c : sProp 𝕄)
      = iprop(((∃ d, owns (c : Thread nD τ) scM0 fullShare d) ∗ others0 c) ∗ (∃ r, prngReg c r)) := by
  unfold Pipeline.ΦA; rw [scopedRest0_eq]; simp only [scM0, owns_whole]; try rfl

end Cert.Kernel.Reduce

end
-- ==== Proof.ReduceRunAK.lean ====
/-
  (For the program as printed, read at the word-level instance: the same statements and proofs as for its
  idealization, whose text is the same.)
  The reduction kernel's body run once, whole, at a point where the scratch is zero-filled first (i₁ = 0): the zero-fill, then the loop.
  The inputs' staging buffers are held at their contents and handed back as they were; the scratch ends at contents
  the run itself finds: the five trips' stores, each an accumulation onto what the trip found, written over what the
  loop was entered with.
-/
import proofs.«114420_j7301444403972_2_alg».proof.Proof.ReduceKitK

set_option maxRecDepth 16384

noncomputable section

namespace Cert.Kernel.Reduce

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a first point of a half (i₁ = 0): from the inputs' buffers at `x0`, `x1`, the output's buffer at anything
    (handed back untouched) and the scratch at anything, the body runs to its return with the scratch holding the
    pieces `LS` the run finds, written over whatever it held: the zero-fill of all five rows, then the five trips. -/
noncomputable def kernelRun0_A (c : Dev nD) (i : grid0.Coords) (arg2 : Memref sig .tc .vmem S1x40x40000 .f32) (harg2 : arg2.IsWhole) (arg3 : Memref sig .tc .vmem S1x40x40000 .f32) (harg3 : arg3.IsWhole) (arg4 : Memref sig .tc .vmem S1x5x40000 .f32) (harg4 : arg4.IsWhole) (arg5 : Memref sig .tc .vmem S5x40000 .f32) (harg5 : arg5.IsWhole) (hc0 : cond0_0 i) (hc1 : ¬cond0_1 i)
    (x0 x1 : Vec F S1x40x40000 .f32) :
    { LS : List (View.Piece (Elt F) S5x40000 .f32) //
      ∀ (xi2 : Vec F S1x5x40000 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__reduce_kernel i arg2 harg2 arg3 harg3 arg4 harg4 arg5 harg5) K } := by
  refine ⟨?_, fun xi2 E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%ds, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Reduce

end
-- ==== Proof.ReduceRunBK.lean ====
/-
  (For the program as printed, read at the word-level instance: the same statements and proofs as for its
  idealization, whose text is the same.)
  The reduction kernel's body run once, whole, at a point where the scratch is neither zero-filled nor copied out (0 < i₁ < 24): only the loop runs.
  The inputs' staging buffers are held at their contents and handed back as they were; the scratch ends at contents
  the run itself finds: the five trips' stores, each an accumulation onto what the trip found, written over what the
  loop was entered with.
-/
import proofs.«114420_j7301444403972_2_alg».proof.Proof.ReduceKitK

set_option maxRecDepth 16384

noncomputable section

namespace Cert.Kernel.Reduce

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a middle point: from the inputs' buffers at `x0`, `x1`, the output's buffer at anything (handed back
    untouched) and the scratch at `xs`, the body runs to its return with the scratch at the contents `fs` the run finds. -/
noncomputable def kernelRun0_B (c : Dev nD) (i : grid0.Coords) (arg2 : Memref sig .tc .vmem S1x40x40000 .f32) (harg2 : arg2.IsWhole) (arg3 : Memref sig .tc .vmem S1x40x40000 .f32) (harg3 : arg3.IsWhole) (arg4 : Memref sig .tc .vmem S1x5x40000 .f32) (harg4 : arg4.IsWhole) (arg5 : Memref sig .tc .vmem S5x40000 .f32) (harg5 : arg5.IsWhole) (hc0 : ¬cond0_0 i) (hc1 : ¬cond0_1 i)
    (x0 x1 : Vec F S1x40x40000 .f32) (xs : Vec F S5x40000 .f32) :
    { fs : BufTy.Contents (Elt F) arg5.view.ty //
      ∀ (xi2 : Vec F S1x5x40000 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (arg5.view.loc (c : Thread nD τ) ↦[arg5.view.set]{fullShare} fs)) -∗ K ⟨⟩))
          ⊢ wp frame (wpE (defs₀ (F := F)) Variants.none c none) E (cc0__reduce_kernel i arg2 harg2 arg3 harg3 arg4 harg4 arg5 harg5) K } := by
  refine ⟨?_, fun xi2 E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexact HS0

end Cert.Kernel.Reduce

end
-- ==== Proof.ReduceRunCK.lean ====
/-
  (For the program as printed, read at the word-level instance: the same statements and proofs as for its
  idealization, whose text is the same.)
  The reduction kernel's body run once, whole, at a point where the scratch is copied into the output's buffer at the end (i₁ = 24): the loop, then the copy.
  The inputs' staging buffers are held at their contents and handed back as they were; the scratch ends at contents
  the run itself finds: the five trips' stores, each an accumulation onto what the trip found, written over what the
  loop was entered with.
-/
import proofs.«114420_j7301444403972_2_alg».proof.Proof.ReduceKitK

set_option maxRecDepth 16384

noncomputable section

namespace Cert.Kernel.Reduce

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a last point of a half (i₁ = 24): from the inputs' buffers at `x0`, `x1`, the output's buffer at anything and
    the scratch at `xs`, the body runs to its return with the scratch at the contents `fs` the run finds and the
    output's buffer holding the piece list `L2` the run finds (one store of the whole block: the scratch's rows). -/
noncomputable def kernelRun0_C (c : Dev nD) (i : grid0.Coords) (arg2 : Memref sig .tc .vmem S1x40x40000 .f32) (harg2 : arg2.IsWhole) (arg3 : Memref sig .tc .vmem S1x40x40000 .f32) (harg3 : arg3.IsWhole) (arg4 : Memref sig .tc .vmem S1x5x40000 .f32) (harg4 : arg4.IsWhole) (arg5 : Memref sig .tc .vmem S5x40000 .f32) (harg5 : arg5.IsWhole) (hc0 : ¬cond0_0 i) (hc1 : cond0_1 i)
    (x0 x1 : Vec F S1x40x40000 .f32) (xs : Vec F S5x40000 .f32) :
    Σ' (L2 : List (View.Piece (Elt F) S1x5x40000 .f32)), { fs : BufTy.Contents (Elt F) arg5.view.ty //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (arg5.view.loc (c : Thread nD τ) ↦[arg5.view.set]{fullShare} fs)) -∗ K ⟨⟩))
          ⊢ wp frame (wpE (defs₀ (F := F)) Variants.none c none) E (cc0__reduce_kernel i arg2 harg2 arg3 harg3 arg4 harg4 arg5 harg5) K } := by
  refine ⟨?_, ?_, fun E K => ?run⟩
  case run =>
    simp only [cc0__reduce_kernel_eq_skeleton]; unfold cc0__reduce_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexact HS0

end Cert.Kernel.Reduce

end
-- ==== Proof.ReduceFrameK.lean ====
/-
  (For the program as printed, read at the word-level instance: the same statements and proofs as for its
  idealization, whose text is the same.)
  The reduction kernel's region as proof data for the pipeline, at the contents `V` the region is entered with.
  Per control case, what the body leaves in the scratch (and, at a copy-out point, in the output's buffer); then, by
  recursion on the grid point, what the scratch holds after every point (`outsAt0`): zero-filled and accumulated
  at the first point of each half, accumulated onto what the point before left at every other point, and copied to
  the output at the last point of each half. The invariant between points is the scratch at that point's contents
  (before the first point: at anything). The body obligation follows by cases on the point modulo 25.
-/
import proofs.«114420_j7301444403972_2_alg».proof.Proof.ReduceRunAK
import proofs.«114420_j7301444403972_2_alg».proof.Proof.ReduceRunBK
import proofs.«114420_j7301444403972_2_alg».proof.Proof.ReduceRunCK

set_option maxRecDepth 16384

noncomputable section

namespace Cert.Kernel.Reduce

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The views through which the scratch's and the output buffer's contents are stated. -/
abbrev VS0 : View sig .tc .vmem S5x40000 .f32 := scM0.view
abbrev VO0 : View sig .tc .vmem S1x5x40000 .f32 := (Memref.whole cc0_stg2_0 : Memref sig .tc .vmem S1x5x40000 .f32).view

/-- A placeholder for the output's buffer at a point where the window is idle: nothing consults it. -/
def oIdle : Vec F S1x5x40000 .f32 := VO0.read (Elt F) (VO0.writes (Elt F) VO0.junk [])

/-! ## What each case leaves -/

/-- Case A's pieces cover the scratch (the zero-fill alone does). -/
theorem scoverA (c : Dev nD) (i : grid0.Coords) (arg2 : Memref sig .tc .vmem S1x40x40000 .f32) (harg2 : arg2.IsWhole) (arg3 : Memref sig .tc .vmem S1x40x40000 .f32) (harg3 : arg3.IsWhole) (arg4 : Memref sig .tc .vmem S1x5x40000 .f32) (harg4 : arg4.IsWhole) (arg5 : Memref sig .tc .vmem S5x40000 .f32) (harg5 : arg5.IsWhole) (hc0 : cond0_0 i) (hc1 : ¬cond0_1 i) (x0 x1 : Vec F S1x40x40000 .f32) (y : S5x40000.Idx) :
    ∃ pc ∈ (kernelRun0_A c i arg2 harg2 arg3 harg3 arg4 harg4 arg5 harg5 hc0 hc1 x0 x1).1, y ∈ pc.1.set :=
  View.cover_of_tiledL (kernelRun0_A c i arg2 harg2 arg3 harg3 arg4 harg4 arg5 harg5 hc0 hc1 x0 x1).1 S5x40000.size (by sl_kernel_rfl) y

/-- What case A leaves in the scratch: its pieces read back over junk. -/
def sA (c : Dev nD) (i : grid0.Coords) (arg2 : Memref sig .tc .vmem S1x40x40000 .f32) (harg2 : arg2.IsWhole) (arg3 : Memref sig .tc .vmem S1x40x40000 .f32) (harg3 : arg3.IsWhole) (arg4 : Memref sig .tc .vmem S1x5x40000 .f32) (harg4 : arg4.IsWhole) (arg5 : Memref sig .tc .vmem S5x40000 .f32) (harg5 : arg5.IsWhole) (hc0 : cond0_0 i) (hc1 : ¬cond0_1 i) (x0 x1 : Vec F S1x40x40000 .f32) : Vec F S5x40000 .f32 :=
  VS0.read (Elt F) (VS0.writes (Elt F) VS0.junk (kernelRun0_A c i arg2 harg2 arg3 harg3 arg4 harg4 arg5 harg5 hc0 hc1 x0 x1).1)

/-- What case B leaves in the scratch, entered at `xs`. -/
def sB (c : Dev nD) (i : grid0.Coords) (arg2 : Memref sig .tc .vmem S1x40x40000 .f32) (harg2 : arg2.IsWhole) (arg3 : Memref sig .tc .vmem S1x40x40000 .f32) (harg3 : arg3.IsWhole) (arg4 : Memref sig .tc .vmem S1x5x40000 .f32) (harg4 : arg4.IsWhole) (arg5 : Memref sig .tc .vmem S5x40000 .f32) (harg5 : arg5.IsWhole) (hc0 : ¬cond0_0 i) (hc1 : ¬cond0_1 i) (x0 x1 : Vec F S1x40x40000 .f32) (xs : Vec F S5x40000 .f32) : Vec F S5x40000 .f32 :=
  arg5.view.read (Elt F) (kernelRun0_B c i arg2 harg2 arg3 harg3 arg4 harg4 arg5 harg5 hc0 hc1 x0 x1 xs).1

/-- What case C leaves in the scratch, entered at `xs`. -/
def sC (c : Dev nD) (i : grid0.Coords) (arg2 : Memref sig .tc .vmem S1x40x40000 .f32) (harg2 : arg2.IsWhole) (arg3 : Memref sig .tc .vmem S1x40x40000 .f32) (harg3 : arg3.IsWhole) (arg4 : Memref sig .tc .vmem S1x5x40000 .f32) (harg4 : arg4.IsWhole) (arg5 : Memref sig .tc .vmem S5x40000 .f32) (harg5 : arg5.IsWhole) (hc0 : ¬cond0_0 i) (hc1 : cond0_1 i) (x0 x1 : Vec F S1x40x40000 .f32) (xs : Vec F S5x40000 .f32) : Vec F S5x40000 .f32 :=
  arg5.view.read (Elt F) (kernelRun0_C c i arg2 harg2 arg3 harg3 arg4 harg4 arg5 harg5 hc0 hc1 x0 x1 xs).2.1

/-- Case C's one store covers the output's block. -/
theorem coverC (c : Dev nD) (i : grid0.Coords) (arg2 : Memref sig .tc .vmem S1x40x40000 .f32) (harg2 : arg2.IsWhole) (arg3 : Memref sig .tc .vmem S1x40x40000 .f32) (harg3 : arg3.IsWhole) (arg4 : Memref sig .tc .vmem S1x5x40000 .f32) (harg4 : arg4.IsWhole) (arg5 : Memref sig .tc .vmem S5x40000 .f32) (harg5 : arg5.IsWhole) (hc0 : ¬cond0_0 i) (hc1 : cond0_1 i) (x0 x1 : Vec F S1x40x40000 .f32) (xs : Vec F S5x40000 .f32) (y : S1x5x40000.Idx) :
    ∃ pc ∈ (kernelRun0_C c i arg2 harg2 arg3 harg3 arg4 harg4 arg5 harg5 hc0 hc1 x0 x1 xs).1, y ∈ pc.1.set :=
  View.cover_of_tiledL (kernelRun0_C c i arg2 harg2 arg3 harg3 arg4 harg4 arg5 harg5 hc0 hc1 x0 x1 xs).1 S1x5x40000.size (by sl_kernel_rfl) y

/-- What case C leaves in the output's buffer: its piece read back over junk. -/
def oC (c : Dev nD) (i : grid0.Coords) (arg2 : Memref sig .tc .vmem S1x40x40000 .f32) (harg2 : arg2.IsWhole) (arg3 : Memref sig .tc .vmem S1x40x40000 .f32) (harg3 : arg3.IsWhole) (arg4 : Memref sig .tc .vmem S1x5x40000 .f32) (harg4 : arg4.IsWhole) (arg5 : Memref sig .tc .vmem S5x40000 .f32) (harg5 : arg5.IsWhole) (hc0 : ¬cond0_0 i) (hc1 : cond0_1 i) (x0 x1 : Vec F S1x40x40000 .f32) (xs : Vec F S5x40000 .f32) : Vec F S1x5x40000 .f32 :=
  VO0.read (Elt F) (VO0.writes (Elt F) VO0.junk (kernelRun0_C c i arg2 harg2 arg3 harg3 arg4 harg4 arg5 harg5 hc0 hc1 x0 x1 xs).1)

section
variable (V : (c : Dev nD) → (b : Ref sig .tc) → Buf (Elt F) ((c : Thread nD τ).loc b))

/-! ## What the output's buffer and the scratch hold after each point -/

theorem N0_eq : cfg0.N = 50 := N_0

/-- After the body at position `n`: (the output's buffer, the scratch). -/
def outsAt0 (c : Dev nD) : (n : ℕ) → n < cfg0.N → Vec F S1x5x40000 .f32 × Vec F S5x40000 .f32
  | 0, hn => (oIdle, sA c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 25 = 0 then
      (oIdle, sA c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩))
    else
      if h1 : (n + 1) % 25 = 24 then
        (oC c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2,
         sC c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (oIdle, sB c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- At a first point of a half. -/
theorem outsAt0_A (c : Dev nD) (t : Fin cfg0.N) (h0 : t.val % 25 = 0) :
    outsAt0 V c t.val t.isLt = (oIdle, sA c (grid0.coords t) (ms0_0 t) (hs0_0 t) (ms0_1 t) (hs0_1 t) (ms0_2 t) (hs0_2 t) scM0 (Memref.isWhole_whole _) ((hcond0_0 t).mpr h0) (fun h => (fun h => by omega) ((hcond0_1 t).mp h)) (iblk0 V c 0 t) (iblk0 V c 1 t)) := by
  obtain ⟨n, hn⟩ := t
  cases n with
  | zero => exact rfl
  | succ n => exact (dif_pos h0).trans rfl

/-- At a middle point: accumulated onto what the point before left. -/
theorem outsAt0_B (c : Dev nD) (t : Fin cfg0.N) (h0 : ¬t.val % 25 = 0) (h1 : ¬t.val % 25 = 24) :
    outsAt0 V c t.val t.isLt = (oIdle, sB c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last point of a half: accumulated, and the scratch copied to the output's buffer. -/
theorem outsAt0_C (c : Dev nD) (t : Fin cfg0.N) (h0 : ¬t.val % 25 = 0) (h1 : t.val % 25 = 24) :
    outsAt0 V c t.val t.isLt = (oC c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2,
      sC c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: before the first point the class's invariant (the scratch at anything); afterwards the scratch
    at what the point before left, the other scoped buffers at anything, the generator register at some state. -/
def PhiS (c : Dev nD) : (n : ℕ) → n ≤ cfg0.N → sProp 𝕄
  | 0, _ => Pipeline.ΦA spec0 c
  | n + 1, hn => iprop((owns (c : Thread nD τ) scM0 fullShare ((outsAt0 V c n hn).2) ∗ others0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop((owns (c : Thread nD τ) scM0 fullShare ((outsAt0 V c n hn).2) ∗ others0 c) ∗ (∃ r, prngReg c r)) := rfl

theorem PhiS_pos (c : Dev nD) (n : ℕ) (h : n ≤ cfg0.N) (hz : n ≠ 0) :
    PhiS V c n h = iprop((owns (c : Thread nD τ) scM0 fullShare ((outsAt0 V c (n - 1) (by omega)).2) ∗ others0 c) ∗ (∃ r, prngReg c r)) := by
  cases n with
  | zero => exact absurd rfl hz
  | succ n => rfl

/-! ## The proof data -/

/-- On core `c`: the arrays as the region finds them; after the body each input's buffer at its block and the output's at
    `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point, by cases on the point modulo 25. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 50 := lt_of_lt_of_eq t.isLt (show cfg0.N = 50 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 25 = 0
  · have hnc1 : ¬cond0_1 (grid0.coords t) := fun h => (fun h => by omega) ((hcond0_1 t).mp h)
    rw [Dat.leavesExact_idle (dat0 V c) 2 t (idleAt0_2 t hnc1) (noFlush0_2 t hnc1)]
    rw [outsAt0_A V c t h0]
    unfold sA; (try dsimp only)
    by_cases hz : t.val = 0
    · rw [PhiS_castSucc V c t, PhiS_zero V c _ _ hz, PhiA0_eq]
      iintro ⟨⟨⟨HS0, Hoth⟩, Hg⟩, Ho, ⟨%d0, H0⟩, ⟨%d1, H1⟩, ⟨%d2, H2⟩⟩
      iapply ((kernelRun0_A c (grid0.coords t) _ _ _ _ _ _ _ _ ((hcond0_0 t).mpr h0) hnc1 (iblk0 V c 0 t) (iblk0 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scoverA c _ _ _ _ _ _ _ _ _ _ _ _ _)
          iexact Hoth
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS0, Hoth⟩, Hg⟩, Ho, ⟨%d0, H0⟩, ⟨%d1, H1⟩, ⟨%d2, H2⟩⟩
      iapply ((kernelRun0_A c (grid0.coords t) _ _ _ _ _ _ _ _ ((hcond0_0 t).mpr h0) hnc1 (iblk0 V c 0 t) (iblk0 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scoverA c _ _ _ _ _ _ _ _ _ _ _ _ _)
          iexact Hoth
        iexact Hg
      isplitl [Ho]; · iexact Ho
      isplitl [H0]; · iexact H0
      isplitl [H1]; · iexact H1
      iexists _; iexact H2
  · have hz : t.val ≠ 0 := fun h => h0 (by rw [h])
    have hnc0 : ¬cond0_0 (grid0.coords t) := fun h => h0 ((hcond0_0 t).mp h)
    by_cases h1 : t.val % 25 = 24
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold oC sC; (try dsimp only)
      rw [PhiS_castSucc V c t, PhiS_pos V c _ _ hz]
      iintro ⟨⟨⟨HS0, Hoth⟩, Hg⟩, Ho, ⟨%d0, H0⟩, ⟨%d1, H1⟩, ⟨%d2, H2⟩⟩
      iapply ((kernelRun0_C c (grid0.coords t) _ _ _ _ _ _ _ _ hnc0 ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, HS0⟩
      isplitl [HS0 Hoth Hg]
      · isplitl [HS0 Hoth]
        · isplitl [HS0]
          · unfold owns; iexists _; isplitr
            swap; · iexact HS0
            ipureintro; rfl
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (coverC c _ _ _ _ _ _ _ _ _ _ _ _ _ _)
    · have hnc1 : ¬cond0_1 (grid0.coords t) := fun h => h1 ((hcond0_1 t).mp h)
      rw [Dat.leavesExact_idle (dat0 V c) 2 t (idleAt0_2 t hnc1) (noFlush0_2 t hnc1)]
      rw [outsAt0_B V c t h0 h1]
      unfold sB; (try dsimp only)
      rw [PhiS_castSucc V c t, PhiS_pos V c _ _ hz]
      iintro ⟨⟨⟨HS0, Hoth⟩, Hg⟩, Ho, ⟨%d0, H0⟩, ⟨%d1, H1⟩, ⟨%d2, H2⟩⟩
      iapply ((kernelRun0_B c (grid0.coords t) _ _ _ _ _ _ _ _ hnc0 hnc1 (iblk0 V c 0 t) (iblk0 V c 1 t) _).2 _ Set.univ _)
      isplitl [H0]; · iexact H0
      isplitl [H1]; · iexact H1
      isplitl [H2]; · iexact H2
      isplitl [HS0]; · iexact HS0
      iintro ⟨H0, H1, H2, HS0⟩
      isplitl [HS0 Hoth Hg]
      · isplitl [HS0 Hoth]
        · isplitl [HS0]
          · unfold owns; iexists _; isplitr
            swap; · iexact HS0
            ipureintro; rfl
          iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hoth⟩, Hg⟩
  isplitl [HS0 Hoth]
  · isplitl [HS0]
    · iexists _; iexact HS0
    iexact Hoth
  iexact Hg

theorem hout0 (c : Dev nD) : (dat0 V c).Φ (Fin.last cfg0.N) ⊢ Pipeline.ΦA spec0 c :=
  Phi_out0 V c _ (by rw [Fin.val_last]; have : cfg0.N = 50 := N_0; omega)

end

end Cert.Kernel.Reduce

end
-- ==== Proof.FinalRegionK.lean ====
/- REGION 1 of the program: the second TensorCore call, a grid of ONE point whose five input windows are each the
   whole [5000,8] array and whose one output window is the whole [1,1] array that receives the program's scalar.
   With x0 … x4 the five [5000,8] inputs, at row s and column y:
        mean = x1 / max(x0, 1),  var = max(x2 − x0·mean·mean, 0),  mask = (x0 > 10) ∧ (var > 0),
        num[y]  = Σ_s (if mask then (x2 − 2·x3 + x4) / (sqrt(if mask then var else 1) + 0.1)² else 0)      (k1_pay6),
        hits[y] = Σ_s (if mask then 1 else 0)                                                            (Σ_s of k1_pay7),
        result  = (Σ_y (if hits[y] > 0 then num[y] / max(hits[y], 1) else 0)) / 8                          (k1_pay1).

   Everything here is stated at a PARAMETER `V` — the TensorCore's buffer contents when the region is entered —
   and at any float interpretation `F`. The module proves the region's class-A half:

   * `iblk1`       — each window's block at a point, read off its array as the region finds it;
   * `before1_W_of` — an input window's staging buffer holds that block when the body is called;
   * `out1_5`      — what the body leaves in the output window's buffer: ONE store of the whole [1,1] block whose
                      payload is the pure term  k1_pay1 (k1_pay6 x0 x1 x2 x3 x4) (k1_pay7 x0 x1 x2)  of the five
                      input blocks (the formula above);
   * `sound_kernel1` — the body's triple: from the five inputs at read contents and the output at ANY contents
                      (the body reads the output's buffer once, the value unused, and then overwrites it) it runs
                      to the inputs unchanged and the output at `out1_5` of the inputs;
   * `dat1`, `A_eq1`, `after1_W`, `before1_W` — the pipeline's proof data (arrays at `V`, full shares, nothing
                      owed, the class invariant) and its projections;
   * `sound_body1`, `body_obligation1` — the body obligation at every grid point. -/
import proofs.«114420_j7301444403972_2_alg».proof.Proof.Gen.Kernel.Launch
import proofs.«114420_j7301444403972_2_alg».proof.Proof.Gen.Kernel.Skeleton
import proofs.«114420_j7301444403972_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the program's extents recurses once per coordinate of the long axis
set_option maxRecDepth 16384

noncomputable section

namespace Cert.Kernel.FinalRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole module is stated at
variable (V : (c : Dev nD) → (b : Ref sig .tc) → Buf (Elt F) ((c : Thread nD τ).loc b))

/-! # REGION 1 of @main: the second TensorCore call (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds, at every grid point and whether or not the point fetched it, the block
    of its array at that point — for ANY proof data whose array is `V`'s (`hA`) and whose body leaves the block in
    place (`hafter`): the window is never cut and never idle, so an unfetched block is the one already there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds, at every grid point and whether or not the point fetched it, the block
    of its array at that point — for ANY proof data whose array is `V`'s (`hA`) and whose body leaves the block in
    place (`hafter`): the window is never cut and never idle, so an unfetched block is the one already there. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds, at every grid point and whether or not the point fetched it, the block
    of its array at that point — for ANY proof data whose array is `V`'s (`hA`) and whose body leaves the block in
    place (`hafter`): the window is never cut and never idle, so an unfetched block is the one already there. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds, at every grid point and whether or not the point fetched it, the block
    of its array at that point — for ANY proof data whose array is `V`'s (`hA`) and whose body leaves the block in
    place (`hafter`): the window is never cut and never idle, so an unfetched block is the one already there. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds, at every grid point and whether or not the point fetched it, the block
    of its array at that point — for ANY proof data whose array is `V`'s (`hA`) and whose body leaves the block in
    place (`hafter`): the window is never cut and never idle, so an unfetched block is the one already there. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole [5000,8] block: what each of the five loads reads. -/
abbrev r1_0 : Rect S5000x8 := Rect.unit (s := S5000x8) ![0, 0] S5000x8.size inb_S5000x8_S5000x8_0_0
/-- The whole [1,1] block: what the one store writes (and the unused load before it reads). -/
abbrev r1_1 : Rect S1x1 := Rect.unit (s := S1x1) ![0, 0] S1x1.size inb_S1x1_S1x1_0_0

/-! ## What the body leaves in the output window's buffer -/

/-- Window 5's staging buffer after the body, from the five input windows' blocks: its one store as a piece, the
    payload the pure term of the five blocks. -/
def out1_5 (x0 : Vec F S5000x8 .f32) (x1 : Vec F S5000x8 .f32) (x2 : Vec F S5000x8 .f32) (x3 : Vec F S5000x8 .f32) (x4 : Vec F S5000x8 .f32) : Vec F S1x1 .f32 :=
  View.canon [⟨r1_1, k1_pay1 (k1_pay6 (View.ld x0 r1_0) (View.ld x1 r1_0) (View.ld x2 r1_0) (View.ld x3 r1_0) (View.ld x4 r1_0)) (k1_pay7 (View.ld x0 r1_0) (View.ld x1 r1_0) (View.ld x2 r1_0))⟩]

/-- The one store tiles the [1,1] buffer, so it covers it. -/
theorem cover1_5 (p0 : Vec F S1x1 .f32) (y : S1x1.Idx) :
    ∃ pc ∈ ([⟨r1_1, p0⟩] : List (View.Piece (Elt F) S1x1 .f32)), y ∈ pc.1.set :=
  View.cover_of_tiled [⟨r1_1, p0⟩] S1x1.size (by rfl) y

/-! ## The body's triple -/

set_option maxHeartbeats 1000000 in
/-- The kernel body on whole staging memrefs, the five inputs' at read contents `xW` and the output's at anything, runs
    to the continuation holding the inputs' as they were and the output's at `out1_5` of the inputs': five whole-block
    loads (inside the body's first part), one load of the output's buffer whose value nothing uses, one whole-block store. -/
theorem sound_kernel1 (c : Dev nD) (E : Set ℕ) (i : grid1.Coords) (arg1 : Memref sig .tc .vmem S5000x8 .f32) (harg1 : arg1.IsWhole) (arg2 : Memref sig .tc .vmem S5000x8 .f32) (harg2 : arg2.IsWhole) (arg3 : Memref sig .tc .vmem S5000x8 .f32) (harg3 : arg3.IsWhole) (arg4 : Memref sig .tc .vmem S5000x8 .f32) (harg4 : arg4.IsWhole) (arg5 : Memref sig .tc .vmem S5000x8 .f32) (harg5 : arg5.IsWhole) (arg6 : Memref sig .tc .vmem S1x1 .f32) (harg6 : arg6.IsWhole)
    (x0 : Vec F S5000x8 .f32) (x1 : Vec F S5000x8 .f32) (x2 : Vec F S5000x8 .f32) (x3 : Vec F S5000x8 .f32) (x4 : Vec F S5000x8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__final_kernel i arg1 harg1 arg2 harg2 arg3 harg3 arg4 harg4 arg5 harg5 arg6 harg6) K := by
  simp only [cc1__final_kernel_eq_skeleton]; unfold cc1__final_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover1_5 _)

/-! ## The pipeline's proof data -/

/-- The proof data of pipeline 1 on core `c`: the arrays as the region finds them (`V`); after the body at point
    `t` each input's buffer at its block and the output's at `out1_5` of the five input blocks; the invariant the
    class's (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents (the definition projected, so `V` is never unfolded). -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

/-- info: 'Cert.Kernel.FinalRegion.body_obligation1' depends on axioms: [propext, Classical.choice, Quot.sound] -/
#guard_msgs in #print axioms body_obligation1

end Cert.Kernel.FinalRegion

end
-- ==== Proof.WholeK.lean ====
/-
  (For the program as printed, read at the word-level instance: the same statements and proofs as for its
  idealization, whose text is the same.)
  @main of the program as five segments — the two reshapes, the reduction kernel's region, the host sum of the two
  partial results with its slices and reshapes, the final kernel's region, the last reshape — and its run: the
  buffers' contents at every segment boundary as a fold from the launch memory (a host stretch applies its
  operations; a region leaves its arrays at what its write-backs leave and every other buffer as it found it), each
  region as a record over the thread state "every unscoped buffer at the boundary's contents, the generator register
  at some state, nothing owed", and from the library's launch theorem for a list of segments: every weakly fair
  execution terminates and every unscoped buffer ends at the last boundary's contents. The argument arrays are
  written by no operation and are no region's window, so they end as launched.
-/
import proofs.«114420_j7301444403972_2_alg».proof.Proof.ReduceFrameK
import proofs.«114420_j7301444403972_2_alg».proof.Proof.FinalRegionK
import proofs.«114420_j7301444403972_2_alg».proof.Proof.Gen.Kernel.Regions
import Idealize.ShloMosaic.Lib.Pipeline.RegionsLoop
import Idealize.ShloMosaic.Lib.Pipeline.FrameSuffix

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Reduce Cert.Kernel.FinalRegion

variable (m : (ℓ : Loc nD τ sig) → Buf (Elt F) ℓ) (ρ : Dev nD → PrngReg)

/-! ## The buffers' contents at each segment boundary -/

/-- At launch. -/
abbrev W0 : Dev nD → Valuation τ sig (Elt F) := fun c b => m ((c : Dev nD), b)
/-- After the two reshapes (the reduction region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the reduction region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the host sum, slices and reshapes (the final region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the final region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- After the last reshape: the end. -/
abbrev W5 : Dev nD → Valuation τ sig (Elt F) := fun c => StableHlo.after hostOps2 (W4 m c)

/-- A buffer that no host operation writes and that is no window's array of either region ends as launched. -/
theorem W5_untouched (c : Dev nD) (r : Ref sig .tc) (h0 : r ∉ (hostOps0_W : List (Ref sig .tc))) (h1 : r ∉ (hostOps1_W : List (Ref sig .tc)))
    (h2 : r ∉ (hostOps2_W : List (Ref sig .tc))) (ha0 : ∀ w, Pipeline.arrRef spec0 w ≠ r) (ha1 : ∀ w, Pipeline.arrRef spec1 w ≠ r) :
    W5 m c (Proc.devRef .tc r) = m ((c : Thread nD τ).loc r) :=
  (StableHlo.after_of_writes_sub hostOps2 _ hostOps2_writes h2).trans <|
    (W4_of_ne m c r ha1).trans <| (StableHlo.after_of_writes_sub hostOps1 _ hostOps1_writes h1).trans <|
    (W2_of_ne m c r ha0).trans <| (StableHlo.after_of_writes_sub hostOps0 _ hostOps0_writes h0).trans rfl

theorem W5_main_arg0 (c : Dev nD) : W5 m c (Proc.devRef .tc main_arg0) = m ((c : Thread nD τ).loc main_arg0) :=
  W5_untouched m c main_arg0 (by decide) (by decide) (by decide) (by decide) (by decide)
theorem W5_main_arg1 (c : Dev nD) : W5 m c (Proc.devRef .tc main_arg1) = m ((c : Thread nD τ).loc main_arg1) :=
  W5_untouched m c main_arg1 (by decide) (by decide) (by decide) (by decide) (by decide)

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state and the core's `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- The reduction region: entered from every unscoped buffer at `W1`, left at `W2`; its arrays split out of the unscoped
    buffers and put back at the exit contents; the generator register into the invariant and out. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from PhiS_zero (V1 m) c 0 (Nat.zero_le _) rfl]; unfold Pipeline.ΦA
    iintro ⟨Hp, -, Hr⟩
    isplitl [Hr]; · iexact Hr
    iexact Hp
  hout c := by
    rw [Pipeline.ownSems0_none]
    have h2 : (Pipeline.ΦA spec0 c : sProp 𝕄)
        ⊢ iprop((∃ r, prngReg c r) ∗ BI.emp ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (show (pdats m 0 c).Φ (Fin.last _) ⊢ Pipeline.ΦA spec0 c from hout0 (V1 m) c).trans h2
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The final region: entered from every unscoped buffer at `W3`, left at `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every unscoped buffer of the TensorCore ends at the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W5_main_arg0 m c),
     (h c _ (mem_uc main_arg1 (by decide))).trans (W5_main_arg1 m c)⟩) (run_all m ρ)

end Cert.Kernel.Whole

end
-- ==== Proof.Frames.lean ====
/-
  Four of the certificate's five claims. Each program runs to the end, faults nowhere and leaves its two argument
  arrays unchanged: for the kernel (as printed, and idealized) this is the run of @main's five segments read at the
  argument arrays, which no host operation writes and no region stages; for the reference it is its run with the
  result dropped. The idealization rewrote no operation, so there is nothing to preserve.
-/
import proofs.«114420_j7301444403972_2_alg».proof.Defs
import proofs.«114420_j7301444403972_2_alg».proof.Proof.Whole
import proofs.«114420_j7301444403972_2_alg».proof.Proof.WholeK
import proofs.«114420_j7301444403972_2_alg».proof.Proof.RefRun
import proofs.«114420_j7301444403972_2_alg».proof.Proof.Gen.Pre_finite_inputs

noncomputable section

namespace Cert.Proof.Claims

open Idealize.ShloMosaic Idealize.ShloMosaic.TcCoe Idealize.SL.Sem

theorem frame_p : Cert.frame_Kernel := fun m ρ _ => Cert.Kernel.Whole.frame (F := Bits) m ρ

theorem frame_pi : Cert.frame_KernelIdeal := fun m ρ _ => Cert.KernelIdeal.Whole.frame (F := Ideal) m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

end Cert.Proof.Claims

end
-- ==== Proof.FinalValue.lean ====
/- THE VALUE of the program's second TensorCore call (region 1), read off its proof data, at any float
   interpretation `F` (in particular the ideal one) and at a parameter `V`, the buffer contents at the region's entry.

   The region's grid has ONE point and every window's block is its whole array (each index map is constantly
   (0, 0)). So:
   * an input window's block at the point IS its array as the region finds it (`iblk1_eq_K`);
   * what the one point writes back to the output window is the pure term
        finalScalar a0 a1 a2 a3 a4 = k1_pay1 (k1_pay6 a0 a1 a2 a3 a4) (k1_pay7 a0 a1 a2)
     of the five [5000,8] input arrays a0 … a4, read through the output's block (`flushed5_eq`);
   * the output's one block covers its [1,1] array (`cover5`);
   so the output array after the region is exactly that term (`final5`). -/
import proofs.«114420_j7301444403972_2_alg».proof.Proof.FinalRegion
import Idealize.ShloMosaic.Lib.Pipeline.Value

noncomputable section

namespace Cert.KernelIdeal.FinalValue

open Cert.KernelIdeal Cert.KernelIdeal.Gen Cert.KernelIdeal.FinalRegion Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The offsets of every access of the body: the origin. -/
theorem origin2 : (![0, 0] : Fin 2 → Nat) = fun _ => 0 := funext fun a => by fin_cases a <;> rfl

/-- The region's result as ONE function of the five input arrays: the body's payload of its five whole-block loads. -/
def finalScalar (a0 a1 a2 a3 a4 : Vec F S5000x8 .f32) : Vec F S1x1 .f32 :=
  k1_pay1 (k1_pay6 a0 a1 a2 a3 a4) (k1_pay7 a0 a1 a2)

/-- Every window's block index is (0, 0) at every grid point (decided over the one point). -/
theorem index_zero : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- Input window 0's block at any point is its whole array: an element of the block sits in the array at block
    index × block size + its own coordinate, and the block index is zero. -/
theorem iblk1_eq_0 (c : Dev nD) (t : Fin cfg1.N) :
    iblk1 V c 0 t = (V c main_v6 : S5000x8.Idx → Elt F .f32) := by
  unfold iblk1
  funext j
  show V c main_v6 (((cfg1.win 0).blk t).view.emb j) = V c main_v6 j
  obtain ⟨e00, e01, e10, e11, e20, e21, e30, e31, e40, e41, e50, e51⟩ := index_zero t
  congr 1
  funext a; apply Fin.ext
  match a with
  | ⟨0, _⟩ => show win1_0.index t (0 : Fin 2) * 5000 + 1 * (j 0).val = (j 0).val; omega
  | ⟨1, _⟩ => show win1_0.index t (1 : Fin 2) * 8 + 1 * (j 1).val = (j 1).val; omega
/-- Input window 1's block at any point is its whole array: an element of the block sits in the array at block
    index × block size + its own coordinate, and the block index is zero. -/
theorem iblk1_eq_1 (c : Dev nD) (t : Fin cfg1.N) :
    iblk1 V c 1 t = (V c main_v9 : S5000x8.Idx → Elt F .f32) := by
  unfold iblk1
  funext j
  show V c main_v9 (((cfg1.win 1).blk t).view.emb j) = V c main_v9 j
  obtain ⟨e00, e01, e10, e11, e20, e21, e30, e31, e40, e41, e50, e51⟩ := index_zero t
  congr 1
  funext a; apply Fin.ext
  match a with
  | ⟨0, _⟩ => show win1_1.index t (0 : Fin 2) * 5000 + 1 * (j 0).val = (j 0).val; omega
  | ⟨1, _⟩ => show win1_1.index t (1 : Fin 2) * 8 + 1 * (j 1).val = (j 1).val; omega
/-- Input window 2's block at any point is its whole array: an element of the block sits in the array at block
    index × block size + its own coordinate, and the block index is zero. -/
theorem iblk1_eq_2 (c : Dev nD) (t : Fin cfg1.N) :
    iblk1 V c 2 t = (V c main_v12 : S5000x8.Idx → Elt F .f32) := by
  unfold iblk1
  funext j
  show V c main_v12 (((cfg1.win 2).blk t).view.emb j) = V c main_v12 j
  obtain ⟨e00, e01, e10, e11, e20, e21, e30, e31, e40, e41, e50, e51⟩ := index_zero t
  congr 1
  funext a; apply Fin.ext
  match a with
  | ⟨0, _⟩ => show win1_2.index t (0 : Fin 2) * 5000 + 1 * (j 0).val = (j 0).val; omega
  | ⟨1, _⟩ => show win1_2.index t (1 : Fin 2) * 8 + 1 * (j 1).val = (j 1).val; omega
/-- Input window 3's block at any point is its whole array: an element of the block sits in the array at block
    index × block size + its own coordinate, and the block index is zero. -/
theorem iblk1_eq_3 (c : Dev nD) (t : Fin cfg1.N) :
    iblk1 V c 3 t = (V c main_v15 : S5000x8.Idx → Elt F .f32) := by
  unfold iblk1
  funext j
  show V c main_v15 (((cfg1.win 3).blk t).view.emb j) = V c main_v15 j
  obtain ⟨e00, e01, e10, e11, e20, e21, e30, e31, e40, e41, e50, e51⟩ := index_zero t
  congr 1
  funext a; apply Fin.ext
  match a with
  | ⟨0, _⟩ => show win1_3.index t (0 : Fin 2) * 5000 + 1 * (j 0).val = (j 0).val; omega
  | ⟨1, _⟩ => show win1_3.index t (1 : Fin 2) * 8 + 1 * (j 1).val = (j 1).val; omega
/-- Input window 4's block at any point is its whole array: an element of the block sits in the array at block
    index × block size + its own coordinate, and the block index is zero. -/
theorem iblk1_eq_4 (c : Dev nD) (t : Fin cfg1.N) :
    iblk1 V c 4 t = (V c main_v18 : S5000x8.Idx → Elt F .f32) := by
  unfold iblk1
  funext j
  show V c main_v18 (((cfg1.win 4).blk t).view.emb j) = V c main_v18 j
  obtain ⟨e00, e01, e10, e11, e20, e21, e30, e31, e40, e41, e50, e51⟩ := index_zero t
  congr 1
  funext a; apply Fin.ext
  match a with
  | ⟨0, _⟩ => show win1_4.index t (0 : Fin 2) * 5000 + 1 * (j 0).val = (j 0).val; omega
  | ⟨1, _⟩ => show win1_4.index t (1 : Fin 2) * 8 + 1 * (j 1).val = (j 1).val; omega

/-- WHAT THE POINT WRITES BACK to the output window's array is the block of `finalScalar` of the five input arrays as
    the region finds them. -/
theorem flushed5_eq (c : Dev nD) (t : Fin cfg1.N) :
    (dat1 V c).flushed 5 t = ((cfg1.win 5).blk t).view.read (Elt F)
      (finalScalar (V c main_v6) (V c main_v9) (V c main_v12) (V c main_v15) (V c main_v18)) := by
  show (cfg1.win 5).cut (grid1.coords t) ((dat1 V c).after 5 t) = _
  rw [after1_5]
  unfold out1_5
  rw [View.canon_unit_zero origin2]
  simp only [View.ld_unit_zero (S := S5000x8) origin2]
  rw [iblk1_eq_0, iblk1_eq_1, iblk1_eq_2, iblk1_eq_3, iblk1_eq_4]
  obtain ⟨e00, e01, e10, e11, e20, e21, e30, e31, e40, e41, e50, e51⟩ := index_zero t
  funext j
  show finalScalar (V c main_v6) (V c main_v9) (V c main_v12) (V c main_v15) (V c main_v18) j
    = finalScalar (V c main_v6) (V c main_v9) (V c main_v12) (V c main_v15) (V c main_v18) (((cfg1.win 5).blk t).view.emb j)
  congr 1
  funext a; apply Fin.ext
  match a with
  | ⟨0, _⟩ => show (j 0).val = win1_5.index t (0 : Fin 2) * 1 + 1 * (j 0).val; omega
  | ⟨1, _⟩ => show (j 1).val = win1_5.index t (1 : Fin 2) * 1 + 1 * (j 1).val; omega

/-- An index of the output array is in point `t`'s block iff each coordinate is in the block's range on its axis. -/
theorem mem_blk5 (t : Fin cfg1.N) (i : S1x1.Idx) :
    i ∈ ((cfg1.win 5).blk t).view.set ↔ ∀ a : Fin 2, win1_5.index t a * S1x1.size a ≤ (i a).val ∧ (i a).val < win1_5.index t a * S1x1.size a + S1x1.size a := by
  show i ∈ ((View.whole main_v19).slice (win1_5.rect t)).set ↔ _
  rw [View.set_slice_whole, Rect.mem_set_unit]
  exact Iff.rfl

/-- The one point's block covers the whole [1,1] output array. -/
theorem cover5 (i : S1x1.Idx) : ∃ t : Fin cfg1.N, (cfg1.win 5).flush t = true ∧ i ∈ ((cfg1.win 5).blk t).view.set := by
  refine ⟨t1_0, flush1_5 t1_0, ?_⟩
  rw [mem_blk5]
  obtain ⟨e00, e01, e10, e11, e20, e21, e30, e31, e40, e41, e50, e51⟩ := index_zero t1_0
  have hi0 : (i 0).val < 1 := (i 0).isLt
  have hi1 : (i 1).val < 1 := (i 1).isLt
  intro a
  match a with
  | ⟨0, _⟩ => show win1_5.index t1_0 (0 : Fin 2) * 1 ≤ (i 0).val ∧ (i 0).val < win1_5.index t1_0 (0 : Fin 2) * 1 + 1; omega
  | ⟨1, _⟩ => show win1_5.index t1_0 (1 : Fin 2) * 1 ≤ (i 1).val ∧ (i 1).val < win1_5.index t1_0 (1 : Fin 2) * 1 + 1; omega

/-- THE OUTPUT ARRAY after the region: `finalScalar` of the five input arrays as the region finds them. -/
theorem final5 (c : Dev nD) :
    (dat1 V c).arrAt 5 cfg1.N
      = finalScalar (V c main_v6) (V c main_v9) (V c main_v12) (V c main_v15) (V c main_v18) :=
  (dat1 V c).arrAt_eq_of_cover 5 _ (fun t _ => flushed5_eq V c t) cover5

/-- The same with the arrays named through the windows, as the proof data name them. -/
theorem final5_arrRef (c : Dev nD) :
    (dat1 V c).arrAt 5 cfg1.N
      = finalScalar (V c (Pipeline.arrRef spec1 0)) (V c (Pipeline.arrRef spec1 1)) (V c (Pipeline.arrRef spec1 2))
          (V c (Pipeline.arrRef spec1 3)) (V c (Pipeline.arrRef spec1 4)) :=
  final5 V c

/-- info: 'Cert.KernelIdeal.FinalValue.final5' depends on axioms: [propext, Classical.choice, Quot.sound] -/
#guard_msgs in #print axioms final5

end Cert.KernelIdeal.FinalValue

end
-- ==== Proof.HostValue.lean ====
/- THE THREE STRETCHES OF HOST OPERATIONS of @main, read at an index, at the ideal values (the extended reals) and
   from an ARBITRARY valuation `W` of the TensorCore's buffers.

   (1) Before the first TensorCore call: two reshapes [2000,5000,8] → [2,1000,40000]. Row-major positions agree, so
       the result at (h, t, 8·s + y) is the argument at (1000·h + t, s, y).
   (2) Between the two calls: the zero constant; the add-reduction of the first call's [2,5,40000] result over
       its leading axis; and for each row r = 0 … 4 of the [5,40000] sum: the slice of that row, flattened to
       [40000] and reshaped to [5000,8]. So the r-th of the five [5000,8] arrays at (s, y) is
           0 + ∑ h : Fin 2, (the first call's result) (h, r, 8·s + y).
   (3) After the second call: the reshape [1,1] → [] of its result, so the scalar is that array's one entry. -/
import proofs.«114420_j7301444403972_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HostValue

open Cert.KernelIdeal Cert.KernelIdeal.Gen Idealize.ShloMosaic Idealize.ShloMosaic.TcCoe Idealize.SL.Sem
open Idealize.ShloMosaic.StableHlo Idealize.ShloMosaic.ValueIdx
open scoped BigOperators

variable (W : Valuation τ sig (Elt Ideal))

/-! ## (1) The two reshapes before the first call -/

/-- The reshape [2000,5000,8] → [2,1000,40000] at (h, t, 8·s + y) reads (1000·h + t, s, y): both have row-major
    position ((1000·h + t)·5000 + s)·8 + y. -/
theorem reshape_in_apply (x : S2000x5000x8.Idx → EReal) (h : Fin 2) (t : Fin 1000) (s : Fin 5000) (y : Fin 8)
    (hq : 8 * s.val + y.val < 40000) (hr : 1000 * h.val + t.val < 2000) :
    shapeCast S2x1000x40000 x shapeCasts_S2000x5000x8_S2x1000x40000 (ix3 h t ⟨8 * s.val + y.val, hq⟩)
      = x (ix3 ⟨1000 * h.val + t.val, hr⟩ s y) :=
  shapeCast_apply x _ _ _ (by
    rw [Shape.rowMajor_val_three, Shape.rowMajor_val_three]
    show ((1000 * h.val + t.val) * 5000 + s.val) * 8 + y.val = (h.val * 1000 + t.val) * 40000 + (8 * s.val + y.val)
    omega)

/-- The same reshape at a flat last coordinate q: it reads (1000·h + t, q / 8, q % 8). -/
theorem reshape_in_apply_flat (x : S2000x5000x8.Idx → EReal) (h : Fin 2) (t : Fin 1000) (q : Fin 40000)
    (hr : 1000 * h.val + t.val < 2000) (hs : q.val / 8 < 5000) (hy : q.val % 8 < 8) :
    shapeCast S2x1000x40000 x shapeCasts_S2000x5000x8_S2x1000x40000 (ix3 h t q)
      = x (ix3 ⟨1000 * h.val + t.val, hr⟩ ⟨q.val / 8, hs⟩ ⟨q.val % 8, hy⟩) :=
  shapeCast_apply x _ _ _ (by
    rw [Shape.rowMajor_val_three, Shape.rowMajor_val_three]
    show ((1000 * h.val + t.val) * 5000 + q.val / 8) * 8 + q.val % 8 = (h.val * 1000 + t.val) * 40000 + q.val
    omega)

/-- After the first stretch, `%0` is the reshape of the first argument as the stretch finds it. -/
theorem after0_v0 : (StableHlo.after hostOps0 W (Proc.devRef .tc main_v0) : S2x1000x40000.Idx → EReal)
    = shapeCast S2x1000x40000 (W (Proc.devRef .tc main_arg0)) shapeCasts_S2000x5000x8_S2x1000x40000 := by
  after_results; rfl

/-- After the first stretch, `%1` is the reshape of the second argument as the stretch finds it. -/
theorem after0_v1 : (StableHlo.after hostOps0 W (Proc.devRef .tc main_v1) : S2x1000x40000.Idx → EReal)
    = shapeCast S2x1000x40000 (W (Proc.devRef .tc main_arg1)) shapeCasts_S2000x5000x8_S2x1000x40000 := by
  after_results; rfl

/-- `%0` at (h, t, 8·s + y) is the first argument at (1000·h + t, s, y). -/
theorem after0_v0_apply (h : Fin 2) (t : Fin 1000) (s : Fin 5000) (y : Fin 8)
    (hq : 8 * s.val + y.val < 40000) (hr : 1000 * h.val + t.val < 2000) :
    (StableHlo.after hostOps0 W (Proc.devRef .tc main_v0) : S2x1000x40000.Idx → EReal) (ix3 h t ⟨8 * s.val + y.val, hq⟩)
      = (W (Proc.devRef .tc main_arg0) : S2000x5000x8.Idx → EReal) (ix3 ⟨1000 * h.val + t.val, hr⟩ s y) := by
  rw [after0_v0]; exact reshape_in_apply _ h t s y hq hr

/-- `%1` at (h, t, 8·s + y) is the second argument at (1000·h + t, s, y). -/
theorem after0_v1_apply (h : Fin 2) (t : Fin 1000) (s : Fin 5000) (y : Fin 8)
    (hq : 8 * s.val + y.val < 40000) (hr : 1000 * h.val + t.val < 2000) :
    (StableHlo.after hostOps0 W (Proc.devRef .tc main_v1) : S2x1000x40000.Idx → EReal) (ix3 h t ⟨8 * s.val + y.val, hq⟩)
      = (W (Proc.devRef .tc main_arg1) : S2000x5000x8.Idx → EReal) (ix3 ⟨1000 * h.val + t.val, hr⟩ s y) := by
  rw [after0_v1]; exact reshape_in_apply _ h t s y hq hr

/-- `%0` at (h, t, q) is the first argument at (1000·h + t, q / 8, q % 8). -/
theorem after0_v0_apply_flat (h : Fin 2) (t : Fin 1000) (q : Fin 40000)
    (hr : 1000 * h.val + t.val < 2000) (hs : q.val / 8 < 5000) (hy : q.val % 8 < 8) :
    (StableHlo.after hostOps0 W (Proc.devRef .tc main_v0) : S2x1000x40000.Idx → EReal) (ix3 h t q)
      = (W (Proc.devRef .tc main_arg0) : S2000x5000x8.Idx → EReal) (ix3 ⟨1000 * h.val + t.val, hr⟩ ⟨q.val / 8, hs⟩ ⟨q.val % 8, hy⟩) := by
  rw [after0_v0]; exact reshape_in_apply_flat _ h t q hr hs hy

/-- `%1` at (h, t, q) is the second argument at (1000·h + t, q / 8, q % 8). -/
theorem after0_v1_apply_flat (h : Fin 2) (t : Fin 1000) (q : Fin 40000)
    (hr : 1000 * h.val + t.val < 2000) (hs : q.val / 8 < 5000) (hy : q.val % 8 < 8) :
    (StableHlo.after hostOps0 W (Proc.devRef .tc main_v1) : S2x1000x40000.Idx → EReal) (ix3 h t q)
      = (W (Proc.devRef .tc main_arg1) : S2000x5000x8.Idx → EReal) (ix3 ⟨1000 * h.val + t.val, hr⟩ ⟨q.val / 8, hs⟩ ⟨q.val % 8, hy⟩) := by
  rw [after0_v1]; exact reshape_in_apply_flat _ h t q hr hs hy

/-- The first stretch writes neither argument. -/
theorem after0_arg0 : StableHlo.after hostOps0 W (Proc.devRef .tc main_arg0) = W (Proc.devRef .tc main_arg0) := by after_results
theorem after0_arg1 : StableHlo.after hostOps0 W (Proc.devRef .tc main_arg1) = W (Proc.devRef .tc main_arg1) := by after_results

/-! ## (2) The stretch between the two calls -/

/-- The [2,5,40000] array loses its leading axis under the reduction (the witness that names the inserted index). -/
theorem reduces_lead : S2x5x40000.Reduces [0] S5x40000 := by decide

/-- The index of the [2,5,40000] array over (r, q) with leading coordinate h is (h, r, q). -/
theorem lift_lead (r : Fin 5) (q : Fin 40000) (h : Fin 2) :
    reduces_lead.lift (ix2 r q) h = ix3 h r q := by
  funext a
  match a with
  | ⟨0, _⟩ => rfl
  | ⟨1, _⟩ => rfl
  | ⟨2, _⟩ => rfl

/-- The add-reduction over the leading axis from the zero constant, at (r, q): zero plus the sum of the two slabs. -/
theorem reduce_lead_apply (x : S2x5x40000.Idx → EReal) (r : Fin 5) (q : Fin 40000) :
    (Host.reduceAdd (F := Ideal) (φ := .f32) x (constant (F := Ideal) S_ .f32 0x00000000#32) reducesTo_S2x5x40000_S5x40000_d0 h_S_ : S5x40000.Idx → EReal) (ix2 r q)
      = 0 + ∑ h : Fin 2, x (ix3 h r q) := by
  show Ideal.hostReduceAdd reducesTo_S2x5x40000_S5x40000_d0 x (Ideal.ofBits .f32 0x00000000#32) (ix2 r q) = _
  rw [Ideal.hostReduceAdd_single reducesTo_S2x5x40000_S5x40000_d0 reduces_lead, Ideal.ofBits_zero_f32]
  exact congrArg (fun z => (0 : EReal) + z) (Finset.sum_congr rfl fun h _ => congrArg x (lift_lead r q h))

/-- Row r of a [5,40000] array, sliced out, flattened and reshaped to [5000,8], at (s, y) is the array at (r, 8·s + y). -/
theorem row_block_apply (z : S5x40000.Idx → EReal) (r : Fin 5) (off : Fin 2 → Nat) (hoff : off = ![r.val, 0])
    (hs : S5x40000.Slices off S1x40000) (s : Fin 5000) (y : Fin 8) (hq : 8 * s.val + y.val < 40000) :
    shapeCast S5000x8 (shapeCast S40000 (extractStridedSlice S1x40000 off z hs) shapeCasts_S1x40000_S40000) shapeCasts_S40000_S5000x8 (ix2 s y)
      = z (ix2 r ⟨8 * s.val + y.val, hq⟩) := by
  subst hoff
  refine (shapeCast_apply _ shapeCasts_S40000_S5000x8 (ix2 s y) (ix1 ⟨8 * s.val + y.val, hq⟩) (by
    rw [Shape.rowMajor_val_one, Shape.rowMajor_val_two]
    show 8 * s.val + y.val = s.val * 8 + y.val
    omega)).trans ?_
  refine (shapeCast_apply _ shapeCasts_S1x40000_S40000 (ix1 ⟨8 * s.val + y.val, hq⟩) (ix2 (0 : Fin 1) ⟨8 * s.val + y.val, hq⟩) (by
    rw [Shape.rowMajor_val_one, Shape.rowMajor_val_two]
    show 0 * 40000 + (8 * s.val + y.val) = 8 * s.val + y.val
    omega)).trans ?_
  exact extractStridedSlice_apply _ z hs _ _ fun a => by
    match a with
    | ⟨0, _⟩ => show r.val = r.val + 0; omega
    | ⟨1, _⟩ => show 8 * s.val + y.val = 0 + (8 * s.val + y.val); omega

/-- The first call's [2,5,40000] result as the stretch finds it in `W`, as a function to the extended reals. -/
abbrev slabs : S2x5x40000.Idx → EReal := W (Proc.devRef .tc main_v2)

/-- The term the stretch leaves in the r-th of the five [5000,8] arrays, as one function of the first call's result. -/
abbrev statOf (x : S2x5x40000.Idx → EReal) (off : Fin 2 → Nat) (hs : S5x40000.Slices off S1x40000) : S5000x8.Idx → EReal :=
  shapeCast S5000x8 (shapeCast S40000 (extractStridedSlice S1x40000 off
    (Host.reduceAdd (F := Ideal) (φ := .f32) x (constant (F := Ideal) S_ .f32 0x00000000#32) reducesTo_S2x5x40000_S5x40000_d0 h_S_) hs)
    shapeCasts_S1x40000_S40000) shapeCasts_S40000_S5000x8

/-- That term at (s, y): zero plus the sum over the leading axis of the first call's result at (·, r, 8·s + y). -/
theorem statOf_apply (x : S2x5x40000.Idx → EReal) (r : Fin 5) (off : Fin 2 → Nat) (hoff : off = ![r.val, 0])
    (hs : S5x40000.Slices off S1x40000) (s : Fin 5000) (y : Fin 8) (hq : 8 * s.val + y.val < 40000) :
    statOf x off hs (ix2 s y) = 0 + ∑ h : Fin 2, x (ix3 h r ⟨8 * s.val + y.val, hq⟩) :=
  (row_block_apply _ r off hoff hs s y hq).trans (reduce_lead_apply x r _)

/-- After the middle stretch, the array of window 0 of the second call is row 0's term of the first call's result. -/
theorem after1_main_v6 : (StableHlo.after hostOps1 W (Proc.devRef .tc main_v6) : S5000x8.Idx → EReal)
    = statOf (W (Proc.devRef .tc main_v2)) ![0, 0] slices_S5x40000_S1x40000_0_0 := by
  after_results; rfl

/-- At (s, y): zero plus the sum over the leading axis of the first call's result at (·, 0, 8·s + y) — for any name `x`
    of that result (`hx`), -/
theorem after1_main_v6_apply_of (x : S2x5x40000.Idx → EReal) (hx : (W (Proc.devRef .tc main_v2) : S2x5x40000.Idx → EReal) = x)
    (s : Fin 5000) (y : Fin 8) (hq : 8 * s.val + y.val < 40000) :
    (StableHlo.after hostOps1 W (Proc.devRef .tc main_v6) : S5000x8.Idx → EReal) (ix2 s y)
      = 0 + ∑ h : Fin 2, x (ix3 h (0 : Fin 5) ⟨8 * s.val + y.val, hq⟩) := by
  subst hx; rw [after1_main_v6]; exact statOf_apply _ (0 : Fin 5) _ rfl _ s y hq

/-- and in particular for the result as `W` holds it. -/
theorem after1_main_v6_apply (s : Fin 5000) (y : Fin 8) (hq : 8 * s.val + y.val < 40000) :
    (StableHlo.after hostOps1 W (Proc.devRef .tc main_v6) : S5000x8.Idx → EReal) (ix2 s y)
      = 0 + ∑ h : Fin 2, slabs W (ix3 h (0 : Fin 5) ⟨8 * s.val + y.val, hq⟩) :=
  after1_main_v6_apply_of W (slabs W) rfl s y hq

/-- After the middle stretch, the array of window 1 of the second call is row 1's term of the first call's result. -/
theorem after1_main_v9 : (StableHlo.after hostOps1 W (Proc.devRef .tc main_v9) : S5000x8.Idx → EReal)
    = statOf (W (Proc.devRef .tc main_v2)) ![1, 0] slices_S5x40000_S1x40000_1_0 := by
  after_results; rfl

/-- At (s, y): zero plus the sum over the leading axis of the first call's result at (·, 1, 8·s + y) — for any name `x`
    of that result (`hx`), -/
theorem after1_main_v9_apply_of (x : S2x5x40000.Idx → EReal) (hx : (W (Proc.devRef .tc main_v2) : S2x5x40000.Idx → EReal) = x)
    (s : Fin 5000) (y : Fin 8) (hq : 8 * s.val + y.val < 40000) :
    (StableHlo.after hostOps1 W (Proc.devRef .tc main_v9) : S5000x8.Idx → EReal) (ix2 s y)
      = 0 + ∑ h : Fin 2, x (ix3 h (1 : Fin 5) ⟨8 * s.val + y.val, hq⟩) := by
  subst hx; rw [after1_main_v9]; exact statOf_apply _ (1 : Fin 5) _ rfl _ s y hq

/-- and in particular for the result as `W` holds it. -/
theorem after1_main_v9_apply (s : Fin 5000) (y : Fin 8) (hq : 8 * s.val + y.val < 40000) :
    (StableHlo.after hostOps1 W (Proc.devRef .tc main_v9) : S5000x8.Idx → EReal) (ix2 s y)
      = 0 + ∑ h : Fin 2, slabs W (ix3 h (1 : Fin 5) ⟨8 * s.val + y.val, hq⟩) :=
  after1_main_v9_apply_of W (slabs W) rfl s y hq

/-- After the middle stretch, the array of window 2 of the second call is row 2's term of the first call's result. -/
theorem after1_main_v12 : (StableHlo.after hostOps1 W (Proc.devRef .tc main_v12) : S5000x8.Idx → EReal)
    = statOf (W (Proc.devRef .tc main_v2)) ![2, 0] slices_S5x40000_S1x40000_2_0 := by
  after_results; rfl

/-- At (s, y): zero plus the sum over the leading axis of the first call's result at (·, 2, 8·s + y) — for any name `x`
    of that result (`hx`), -/
theorem after1_main_v12_apply_of (x : S2x5x40000.Idx → EReal) (hx : (W (Proc.devRef .tc main_v2) : S2x5x40000.Idx → EReal) = x)
    (s : Fin 5000) (y : Fin 8) (hq : 8 * s.val + y.val < 40000) :
    (StableHlo.after hostOps1 W (Proc.devRef .tc main_v12) : S5000x8.Idx → EReal) (ix2 s y)
      = 0 + ∑ h : Fin 2, x (ix3 h (2 : Fin 5) ⟨8 * s.val + y.val, hq⟩) := by
  subst hx; rw [after1_main_v12]; exact statOf_apply _ (2 : Fin 5) _ rfl _ s y hq

/-- and in particular for the result as `W` holds it. -/
theorem after1_main_v12_apply (s : Fin 5000) (y : Fin 8) (hq : 8 * s.val + y.val < 40000) :
    (StableHlo.after hostOps1 W (Proc.devRef .tc main_v12) : S5000x8.Idx → EReal) (ix2 s y)
      = 0 + ∑ h : Fin 2, slabs W (ix3 h (2 : Fin 5) ⟨8 * s.val + y.val, hq⟩) :=
  after1_main_v12_apply_of W (slabs W) rfl s y hq

/-- After the middle stretch, the array of window 3 of the second call is row 3's term of the first call's result. -/
theorem after1_main_v15 : (StableHlo.after hostOps1 W (Proc.devRef .tc main_v15) : S5000x8.Idx → EReal)
    = statOf (W (Proc.devRef .tc main_v2)) ![3, 0] slices_S5x40000_S1x40000_3_0 := by
  after_results; rfl

/-- At (s, y): zero plus the sum over the leading axis of the first call's result at (·, 3, 8·s + y) — for any name `x`
    of that result (`hx`), -/
theorem after1_main_v15_apply_of (x : S2x5x40000.Idx → EReal) (hx : (W (Proc.devRef .tc main_v2) : S2x5x40000.Idx → EReal) = x)
    (s : Fin 5000) (y : Fin 8) (hq : 8 * s.val + y.val < 40000) :
    (StableHlo.after hostOps1 W (Proc.devRef .tc main_v15) : S5000x8.Idx → EReal) (ix2 s y)
      = 0 + ∑ h : Fin 2, x (ix3 h (3 : Fin 5) ⟨8 * s.val + y.val, hq⟩) := by
  subst hx; rw [after1_main_v15]; exact statOf_apply _ (3 : Fin 5) _ rfl _ s y hq

/-- and in particular for the result as `W` holds it. -/
theorem after1_main_v15_apply (s : Fin 5000) (y : Fin 8) (hq : 8 * s.val + y.val < 40000) :
    (StableHlo.after hostOps1 W (Proc.devRef .tc main_v15) : S5000x8.Idx → EReal) (ix2 s y)
      = 0 + ∑ h : Fin 2, slabs W (ix3 h (3 : Fin 5) ⟨8 * s.val + y.val, hq⟩) :=
  after1_main_v15_apply_of W (slabs W) rfl s y hq

/-- After the middle stretch, the array of window 4 of the second call is row 4's term of the first call's result. -/
theorem after1_main_v18 : (StableHlo.after hostOps1 W (Proc.devRef .tc main_v18) : S5000x8.Idx → EReal)
    = statOf (W (Proc.devRef .tc main_v2)) ![4, 0] slices_S5x40000_S1x40000_4_0 := by
  after_results; rfl

/-- At (s, y): zero plus the sum over the leading axis of the first call's result at (·, 4, 8·s + y) — for any name `x`
    of that result (`hx`), -/
theorem after1_main_v18_apply_of (x : S2x5x40000.Idx → EReal) (hx : (W (Proc.devRef .tc main_v2) : S2x5x40000.Idx → EReal) = x)
    (s : Fin 5000) (y : Fin 8) (hq : 8 * s.val + y.val < 40000) :
    (StableHlo.after hostOps1 W (Proc.devRef .tc main_v18) : S5000x8.Idx → EReal) (ix2 s y)
      = 0 + ∑ h : Fin 2, x (ix3 h (4 : Fin 5) ⟨8 * s.val + y.val, hq⟩) := by
  subst hx; rw [after1_main_v18]; exact statOf_apply _ (4 : Fin 5) _ rfl _ s y hq

/-- and in particular for the result as `W` holds it. -/
theorem after1_main_v18_apply (s : Fin 5000) (y : Fin 8) (hq : 8 * s.val + y.val < 40000) :
    (StableHlo.after hostOps1 W (Proc.devRef .tc main_v18) : S5000x8.Idx → EReal) (ix2 s y)
      = 0 + ∑ h : Fin 2, slabs W (ix3 h (4 : Fin 5) ⟨8 * s.val + y.val, hq⟩) :=
  after1_main_v18_apply_of W (slabs W) rfl s y hq

/-- The middle stretch writes neither argument, nor the first call's result. -/
theorem after1_arg0 : StableHlo.after hostOps1 W (Proc.devRef .tc main_arg0) = W (Proc.devRef .tc main_arg0) := by after_results
theorem after1_arg1 : StableHlo.after hostOps1 W (Proc.devRef .tc main_arg1) = W (Proc.devRef .tc main_arg1) := by after_results
theorem after1_v2 : StableHlo.after hostOps1 W (Proc.devRef .tc main_v2) = W (Proc.devRef .tc main_v2) := by after_results

/-! ## (3) The reshape after the second call -/

/-- After the last stretch, the scalar `%20` is the one entry of the second call's [1,1] result. -/
theorem after2_v20 : (StableHlo.after hostOps2 W (Proc.devRef .tc main_v20) : S_.Idx → EReal)
    = fun _ => (W (Proc.devRef .tc main_v19) : S1x1.Idx → EReal) (ix2 0 0) := by
  after_results
  funext j
  exact shapeCast_apply (W (Proc.devRef .tc main_v19) : S1x1.Idx → EReal) shapeCasts_S1x1_S_ j (ix2 0 0) (by
    show (S1x1.rowMajor (ix2 0 0)).val = (Shape.rowMajorPi S_.size j).val
    rw [Shape.rowMajor_val_two, Shape.rowMajorPi_zero]; rfl)

/-- The last stretch writes neither argument. -/
theorem after2_arg0 : StableHlo.after hostOps2 W (Proc.devRef .tc main_arg0) = W (Proc.devRef .tc main_arg0) := by after_results
theorem after2_arg1 : StableHlo.after hostOps2 W (Proc.devRef .tc main_arg1) = W (Proc.devRef .tc main_arg1) := by after_results

/-- info: 'Cert.KernelIdeal.HostValue.after1_main_v18_apply' depends on axioms: [propext, Classical.choice, Quot.sound] -/
#guard_msgs in #print axioms after1_main_v18_apply

end Cert.KernelIdeal.HostValue

end
-- ==== Proof.Stats.lean ====
/-
  The five per-column statistics of a masked Nash–Sutcliffe-type loss, and the scalar they determine.

  For a prediction array x and a target array y of shape [2000, 5000, 8] (time, site, variable) whose entries
  are extended reals, and for a column j = (site, variable):

      cnt j = ∑ₜ 1            st j  = ∑ₜ y(t, j)          st2 j = ∑ₜ y(t, j)²
      stp j = ∑ₜ y(t, j)·x(t, j)                          sp2 j = ∑ₜ x(t, j)²

  each sum over the 2000 time steps. From them: the column mean m = st / max(cnt, 1), the centred sum of
  squares max(st2 − cnt·m·m, 0), the residual sum of squares st2 − 2·stp + sp2, the column's term
  residual / (√(centred) + 0.1)² when cnt > 10 and the centred sum is positive, else 0; per variable the
  terms are summed and divided by the number of valid columns (0 when there is none), and the eight results
  are averaged. `loss x y` is that scalar, written as the second kernel's arithmetic applied to the five
  statistics.

  Also: the 32-bit float words of 1, 2, 8 and 10 denote those real numbers.
-/
import proofs.«114420_j7301444403972_2_alg».proof.Proof.Gen.KernelIdeal.Skeleton
import Idealize.ShloMosaic.PureOps.Ideal
import Idealize.ShloMosaic.Lib.ValueIdx

noncomputable section

open scoped BigOperators

namespace Cert.Proof.Stats

open Idealize.ShloMosaic Idealize.ShloMosaic.ValueIdx

/-- The shape of the two inputs: time × site × variable. -/
abbrev SIn : Shape := ⟨3, ![2000, 5000, 8]⟩
/-- The shape of a statistic: site × variable. -/
abbrev SCol : Shape := ⟨2, ![5000, 8]⟩

/-- An input array over the extended reals. -/
abbrev In : Type := (⟨SIn, .f32⟩ : BufTy).Contents (Elt Ideal)
/-- A per-column statistic. -/
abbrev Stat : Type := SCol.Idx → EReal

/-- The input index (t, site, variable) of time step `t` in column `j`. -/
abbrev at3 (t : Fin 2000) (j : SCol.Idx) : SIn.Idx :=
  ix3 (n0 := 2000) (n1 := 5000) (n2 := 8) t (j 0) (j 1)

/-- The number of time steps, as a sum of ones. -/
def cnt : Stat := fun _ => ∑ _t : Fin 2000, (1 : EReal)
/-- The column sums of the target. -/
def st (y : In) : Stat := fun j => ∑ t : Fin 2000, y (at3 t j)
/-- The column sums of the squared target. -/
def st2 (y : In) : Stat := fun j => ∑ t : Fin 2000, y (at3 t j) * y (at3 t j)
/-- The column sums of target times prediction. -/
def stp (x y : In) : Stat := fun j => ∑ t : Fin 2000, y (at3 t j) * x (at3 t j)
/-- The column sums of the squared prediction. -/
def sp2 (x : In) : Stat := fun j => ∑ t : Fin 2000, x (at3 t j) * x (at3 t j)

/-- The loss as a function of the two inputs: the final arithmetic applied to the five statistics. -/
def loss (x y : In) : EReal :=
  (Cert.KernelIdeal.Gen.k1_pay1 (F := Ideal)
    (Cert.KernelIdeal.Gen.k1_pay6 (F := Ideal) cnt (st y) (st2 y) (stp x y) (sp2 x))
    (Cert.KernelIdeal.Gen.k1_pay7 (F := Ideal) cnt (st y) (st2 y))) (ix2 (0 : Fin 1) (0 : Fin 1))

/-! ## Float words as real numbers -/

/-- The word of 1.0: sign 0, exponent field 127, fraction 0, that is 2^23 · 2^(127 − 127 − 23) = 1. -/
theorem ofBits_one : Ideal.ofBits .f32 0x3F800000#32 = (1 : EReal) := by
  have h : Ideal.ofBits .f32 0x3F800000#32 = ((1 : ℝ) : EReal) := by
    simp [Ideal.ofBits, Ideal.ieee, -EReal.coe_mul]; norm_num
  rw [h, EReal.coe_one]
/-- The word of 2.0: exponent field 128, that is 2^23 · 2^(128 − 127 − 23) = 2. -/
theorem ofBits_two : Ideal.ofBits .f32 0x40000000#32 = ((2 : ℝ) : EReal) := by
  simp [Ideal.ofBits, Ideal.ieee, -EReal.coe_mul]; norm_num
/-- The word of 8.0: exponent field 130, that is 2^23 · 2^(130 − 127 − 23) = 8. -/
theorem ofBits_eight : Ideal.ofBits .f32 0x41000000#32 = ((8 : ℝ) : EReal) := by
  simp [Ideal.ofBits, Ideal.ieee, -EReal.coe_mul]; norm_num
/-- The word of 10.0: exponent field 130, fraction 2^21, that is (2^23 + 2^21) · 2^(130 − 127 − 23) = 10. -/
theorem ofBits_ten : Ideal.ofBits .f32 0x41200000#32 = ((10 : ℝ) : EReal) := by
  simp [Ideal.ofBits, Ideal.ieee, -EReal.coe_mul]; norm_num

end Cert.Proof.Stats

end
-- ==== Proof.LibRealValued.lean ====
/-
  Extended reals that are real numbers: a small library for value proofs whose algebra fails at the infinities.

  The extended reals have the two infinities, and `a - a` is 0 only when `a` is neither of them; likewise cancelling,
  distributing and moving a factor across a sum hold for real numbers and can fail at an infinity. A proof that needs such
  a law first shows that the terms involved are real numbers. This file has

    * `IsReal` and its closure under sums, products and finite sums;
    * the evaluations a real number minus itself is 0, exp 0 = 1, 1 / 1 = 1, and max (-inf) y = y — together, the softmax
      over an axis of length one is exp (s - s) / (0 + exp (s - s)) = 1 for a real score `s`;
    * a float pattern whose exponent field is not all ones denotes a real number (so a finite literal is `IsReal`, by
      `decide` on its bits, without evaluating it);
    * a fold over an axis of length one;
    * the "every float input is finite" precondition read back: |a| < +inf says `a` is a real number, and one
      "all entries have |a| < +inf" conjunct gives it of every entry.
-/
import Idealize.ShloMosaic.PureOps.Ideal
import Idealize.ShloMosaic.Lib.ReduceAll
import Idealize.ShloMosaic.Lib.ValueIdx

noncomputable section

namespace Cert.RealValued

open Idealize.ShloMosaic Idealize.ShloMosaic.ValueIdx

/-- An extended real that is a real number: neither infinity. -/
def IsReal (a : EReal) : Prop := ∃ r : ℝ, a = (r : EReal)

/-- The sum of two real numbers is a real number. -/
theorem IsReal.add {a b : EReal} (ha : IsReal a) (hb : IsReal b) : IsReal (a + b) := by
  obtain ⟨r, rfl⟩ := ha
  obtain ⟨s, rfl⟩ := hb
  exact ⟨r + s, (EReal.coe_add r s).symm⟩

/-- The product of two real numbers is a real number. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- Zero is a real number. -/
theorem isReal_zero : IsReal 0 := ⟨0, EReal.coe_zero.symm⟩

/-- A finite sum of real numbers is a real number. -/
theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A real number minus itself is 0 (false at either infinity). -/
theorem sub_self_of_isReal {a : EReal} (h : IsReal a) : a - a = 0 := by
  obtain ⟨r, rfl⟩ := h
  rw [← EReal.coe_sub, sub_self, EReal.coe_zero]

/-- The exponential of zero is one. -/
theorem exp_zero : Ideal.exp 0 = 1 := by
  rw [← EReal.coe_zero, Ideal.exp_coe, Real.exp_zero, EReal.coe_one]

/-- One divided by one is one. -/
theorem div_one_one : Ideal.div 1 1 = 1 := by
  have h := Ideal.div_coe (y := 1) one_ne_zero (1 : EReal)
  simpa using h

/-- A float pattern whose exponent field is not all ones denotes a real number. -/
theorem ieee_isReal (e m : Nat) {w : Nat} (b : BitVec w) (h : (b.extractLsb' m e).toNat ≠ 2 ^ e - 1) :
    IsReal (Ideal.ieee e m b) := by
  unfold Ideal.ieee
  dsimp only
  rw [if_neg h]
  split <;> exact ⟨_, rfl⟩

/-- The f32 pattern of minus infinity is the least extended real: the maximum with it changes nothing. -/
theorem max_negInf_left (y : EReal) : max (Ideal.ofBits .f32 0xFF800000#32) y = y := by
  simp [Ideal.ofBits, Ideal.ieee]

/-- The same with the operands in the other order. -/
theorem max_negInf_right (y : EReal) : max y (Ideal.ofBits .f32 0xFF800000#32) = y := by
  rw [max_comm]; exact max_negInf_left y

/-- A fold over an axis of length one meets its one term once. -/
theorem fold_fin_one {α : Type} (op : α → α → α) [Std.Commutative op] [Std.Associative op] (b : α) (f : Fin 1 → α) :
    (Finset.univ : Finset (Fin 1)).fold op b f = op (f 0) b := by
  rw [Finset.univ_unique, Finset.fold_singleton]
  rfl

/-- |a| < +inf on the extended reals, where |a| = max a (-a) is +inf at either infinity: `a` is a real number. -/
theorem isReal_of_abs_lt_inf (a : EReal)
    (h : Ideal.cmp .olt (max a (-a)) (Ideal.ofBits .f32 0x7F800000#32) = 1#1) : IsReal a := by
  have htop : Ideal.ofBits .f32 0x7F800000#32 = ⊤ := by simp [Ideal.ofBits, Ideal.ieee]
  rw [htop] at h
  induction a using EReal.rec with
  | bot => simp [Ideal.cmp] at h
  | top => simp [Ideal.cmp] at h
  | coe r => exact ⟨r, rfl⟩

/-- One conjunct of a finiteness precondition, "all entries of `a` have |a| < +inf" (a reduction by `and`, over every axis,
    of the comparison of |a| with the +inf pattern broadcast from a scalar), gives that every entry is a real number. -/
theorem all_isReal {s : Shape} {axes : List (Fin s.rank)} (a : FVec Ideal s .f32)
    (dims : Fin (⟨0, ![]⟩ : Shape).rank → Fin s.rank) (bc : (⟨0, ![]⟩ : Shape).BroadcastsInDim s dims)
    (h' : s.ReducesTo axes ⟨0, ![]⟩) (hu : 0 < (⟨0, ![]⟩ : Shape).numel)
    (e : Host.reduce IntOp.andi
      (cmpf .olt (Host.absf a) (broadcastInDim s dims bc (constant (F := Ideal) ⟨0, ![]⟩ .f32 0x7F800000#32)))
      (constantI ⟨0, ![]⟩ 1 1#1) h' hu ix0 = 1#1) (i : s.Idx) : IsReal (a i) := by
  haveI : Subsingleton (⟨0, ![]⟩ : Shape).Idx := ⟨fun a b => funext fun d => d.elim0⟩
  exact isReal_of_abs_lt_inf (a i) (Host.reduce_andi_all _ _ h' hu ix0 e i)

end Cert.RealValued

end
-- ==== Proof.LibLossLaws.lean ====
/-
  The laws on the extended reals that join a numerically stable loss to its textbook form.

  Every float of an idealized program is an extended real, and the usual algebra (cancelling, regrouping a sum of
  products, log (a · b) = log a + log b) holds for real numbers and can fail at an infinity. The programs compared here
  work on finite inputs, so every entry they meet is a real number; this file has the laws that are then needed:

    * the stable softplus: max (x, 0) + log1p (exp (0 − |x|)) = log1p (exp x) for a real x, where |x| is spelled
      max (x, −x); and its value, the real number log (1 + exp x);
    * the square root of a nonnegative real number is the real square root; of max (a, ε) with ε ≥ 0 in particular;
    * the maximum of two real numbers, inside the extended reals, is the real maximum;
    * each float literal of the two programs denotes a real number, the small ones nonnegative, and 2.0 and 2^26 exactly;
    * real numbers are closed under −, max, negation, the square root of a nonnegative one and the softplus terms (sums,
      products and finite sums are in the imported library), and a regrouping of a sum of products of real numbers is
      proved by moving the coercions outward and appealing to the ring laws of the real numbers.

  Nothing here depends on a particular program.
-/
import Idealize.ShloMosaic.PureOps.Ideal
import Idealize.ShloMosaic.PureOps.Ideal.Laws
import Mathlib.Analysis.SpecialFunctions.Log.Basic
import Mathlib.Tactic
import proofs.«114420_j7301444403972_2_alg».proof.Proof.LibRealValued

noncomputable section

namespace Cert.LossLaws

open Idealize.ShloMosaic
open Cert.RealValued (IsReal isReal_zero isReal_sum ieee_isReal)

/-! ### Maximum, softplus and square root of real numbers -/

/-- The coercion of the real numbers into the extended reals is monotone, so it commutes with the maximum. -/
theorem max_real (a b : ℝ) : max (a : EReal) (b : EReal) = ((max a b : ℝ) : EReal) :=
  (EReal.coe_strictMono.monotone.map_max).symm

/-- log1p (exp x) of a real x is the real number log (1 + exp x): 1 + exp x is positive, so the logarithm is at no
    corner. -/
theorem log1p_exp_real (x : ℝ) :
    Ideal.log1p (Ideal.exp (x : EReal)) = ((Real.log (1 + Real.exp x) : ℝ) : EReal) := by
  have hpos : ¬ (1 + Real.exp x ≤ 0) := not_le.mpr (by positivity)
  rw [Ideal.log1p, Ideal.exp_coe, ← EReal.coe_one, ← EReal.coe_add, Ideal.log_coe, if_neg hpos]

/-- The stable softplus over the real numbers. For x ≥ 0: x + log (1 + exp (−x)) = log (exp x · (1 + exp (−x)))
    = log (exp x + 1). For x ≤ 0: |x| = −x and the left side is 0 + log (1 + exp x). -/
theorem softplus_real (x : ℝ) :
    max x 0 + Real.log (1 + Real.exp (0 - max x (-x))) = Real.log (1 + Real.exp x) := by
  rcases le_total 0 x with h | h
  · have h1 : max x 0 = x := max_eq_left h
    have h2 : max x (-x) = x := max_eq_left (by linarith)
    have hpos : (0 : ℝ) < 1 + Real.exp (-x) := by positivity
    rw [h1, h2, zero_sub]
    calc x + Real.log (1 + Real.exp (-x))
        = Real.log (Real.exp x) + Real.log (1 + Real.exp (-x)) := by rw [Real.log_exp]
      _ = Real.log (Real.exp x * (1 + Real.exp (-x))) :=
          (Real.log_mul (Real.exp_pos x).ne' hpos.ne').symm
      _ = Real.log (1 + Real.exp x) := by
          congr 1
          rw [mul_add, mul_one, ← Real.exp_add, add_neg_cancel, Real.exp_zero, add_comm]
  · have h1 : max x 0 = 0 := max_eq_right h
    have h2 : max x (-x) = -x := max_eq_right (by linarith)
    rw [h1, h2, zero_add, zero_sub, neg_neg]

/-- The stable form's inner argument 0 − |x| of a real x is the real number 0 − max (x, −x). -/
theorem neg_abs_real (x : ℝ) :
    (0 : EReal) - max (x : EReal) (-(x : EReal)) = ((0 - max x (-x) : ℝ) : EReal) := by
  rw [← EReal.coe_neg, max_real, ← EReal.coe_zero, ← EReal.coe_sub]

/-- max (x, 0) of a real x is the real maximum. -/
theorem max_zero_real (x : ℝ) : max (x : EReal) 0 = ((max x 0 : ℝ) : EReal) := by
  rw [← EReal.coe_zero, max_real]

/-- The stable softplus on the extended reals, at a real x: both sides are real numbers and the real law applies. -/
theorem softplus_stable (x : ℝ) :
    max (x : EReal) 0 + Ideal.log1p (Ideal.exp (0 - max (x : EReal) (-(x : EReal))))
      = Ideal.log1p (Ideal.exp (x : EReal)) := by
  rw [max_zero_real, neg_abs_real, log1p_exp_real, log1p_exp_real, ← EReal.coe_add, softplus_real]

/-- The stable softplus of a real x is the real number log (1 + exp x). -/
theorem softplus_stable_value (x : ℝ) :
    max (x : EReal) 0 + Ideal.log1p (Ideal.exp (0 - max (x : EReal) (-(x : EReal))))
      = ((Real.log (1 + Real.exp x) : ℝ) : EReal) := by
  rw [softplus_stable, log1p_exp_real]

/-- The square root of a nonnegative real number is the real square root. -/
theorem sqrt_real {r : ℝ} (h : 0 ≤ r) : Ideal.sqrt (r : EReal) = ((Real.sqrt r : ℝ) : EReal) := by
  rw [Ideal.sqrt_coe, if_neg (not_lt.mpr h)]

/-- The square root of max (a, ε), for real a and a real ε ≥ 0, is the real square root of the real maximum. -/
theorem sqrt_max_real (a : ℝ) {e : ℝ} (he : 0 ≤ e) :
    Ideal.sqrt (max (a : EReal) (e : EReal)) = ((Real.sqrt (max a e) : ℝ) : EReal) := by
  rw [max_real, sqrt_real (le_trans he (le_max_right a e))]

/-! ### Real numbers inside the extended reals: closure -/

/-- A coerced real number is a real number. -/
theorem isReal_coe (r : ℝ) : IsReal (r : EReal) := ⟨r, rfl⟩

/-- One is a real number. -/
theorem isReal_one : IsReal 1 := ⟨1, EReal.coe_one.symm⟩

/-- The negation of a real number is a real number. -/
theorem _root_.Cert.RealValued.IsReal.neg {a : EReal} (ha : IsReal a) : IsReal (-a) := by
  obtain ⟨r, rfl⟩ := ha
  exact ⟨-r, (EReal.coe_neg r).symm⟩

/-- The difference of two real numbers is a real number. -/
theorem _root_.Cert.RealValued.IsReal.sub {a b : EReal} (ha : IsReal a) (hb : IsReal b) : IsReal (a - b) := by
  obtain ⟨r, rfl⟩ := ha
  obtain ⟨s, rfl⟩ := hb
  exact ⟨r - s, (EReal.coe_sub r s).symm⟩

/-- The larger of two real numbers is a real number. -/
theorem _root_.Cert.RealValued.IsReal.max {a b : EReal} (ha : IsReal a) (hb : IsReal b) : IsReal (Max.max a b) := by
  obtain ⟨r, rfl⟩ := ha
  obtain ⟨s, rfl⟩ := hb
  exact ⟨Max.max r s, max_real r s⟩

/-- A sum of real numbers over a whole finite index type is a real number. -/
theorem _root_.Cert.RealValued.IsReal.sum {ι : Type} [Fintype ι] {f : ι → EReal} (h : ∀ i, IsReal (f i)) : IsReal (∑ i, f i) :=
  isReal_sum Finset.univ f fun i _ => h i

/-- The coercion of a finite sum of real numbers is the sum of the coercions. -/
theorem coe_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- The square root of a nonnegative real number is a real number. -/
theorem _root_.Cert.RealValued.IsReal.sqrt {a : EReal} (ha : IsReal a) (h0 : 0 ≤ a) : IsReal (Ideal.sqrt a) := by
  obtain ⟨r, rfl⟩ := ha
  have hr : 0 ≤ r := by rwa [← EReal.coe_zero, EReal.coe_le_coe_iff] at h0
  exact ⟨Real.sqrt r, sqrt_real hr⟩

/-- The square root of max (a, ε), for real a and a real ε ≥ 0, is a real number. -/
theorem _root_.Cert.RealValued.IsReal.sqrt_max {a e : EReal} (ha : IsReal a) (he : IsReal e) (h0 : 0 ≤ e) :
    IsReal (Ideal.sqrt (Max.max a e)) :=
  (ha.max he).sqrt (le_trans h0 (le_max_right a e))

/-- log1p (exp a) of a real number a is a real number. -/
theorem _root_.Cert.RealValued.IsReal.log1p_exp {a : EReal} (ha : IsReal a) : IsReal (Ideal.log1p (Ideal.exp a)) := by
  obtain ⟨r, rfl⟩ := ha
  exact ⟨_, log1p_exp_real r⟩

/-- The stable softplus at a real number, stated on an extended real known to be one. -/
theorem softplus_stable_of_isReal {a : EReal} (ha : IsReal a) :
    max a 0 + Ideal.log1p (Ideal.exp (0 - max a (-a))) = Ideal.log1p (Ideal.exp a) := by
  obtain ⟨r, rfl⟩ := ha
  exact softplus_stable r

/-- The stable softplus term of a real number is a real number. -/
theorem _root_.Cert.RealValued.IsReal.softplus {a : EReal} (ha : IsReal a) :
    IsReal (Max.max a 0 + Ideal.log1p (Ideal.exp (0 - Max.max a (-a)))) := by
  rw [softplus_stable_of_isReal ha]
  exact ha.log1p_exp

/-! ### The same laws in the operations of an idealized program

An idealized program spells these terms in the float operations at the extended reals — sum, difference, maximum,
absolute value max (a, −a), exp, log1p, sqrt — and its zero as the all-zero f32 word. Each operation is by definition
the extended-real one, so the laws above apply as they stand. -/

/-- The stable softplus in a program's operations, its zero the all-zero f32 word. -/
theorem softplus_stable_ops (a : Ideal .f32) (ha : IsReal a) :
    FloatOps.addf (FloatOps.maximumf a (Ideal.ofBits .f32 0x00000000#32))
        (FloatOps.log1p (FloatOps.exp (FloatOps.subf (Ideal.ofBits .f32 0x00000000#32) (FloatOps.absf a))))
      = FloatOps.log1p (FloatOps.exp a) := by
  show max a (Ideal.ofBits .f32 0x00000000#32)
      + Ideal.log1p (Ideal.exp (Ideal.ofBits .f32 0x00000000#32 - max a (-a))) = Ideal.log1p (Ideal.exp a)
  rw [Ideal.ofBits_zero_f32]
  exact softplus_stable_of_isReal ha

/-- A program's square root of a maximum with a nonnegative real ε, at a real number: a real number. -/
theorem isReal_sqrt_max_ops {a e : Ideal .f32} (ha : IsReal a) (he : IsReal e) (h0 : (0 : EReal) ≤ e) :
    IsReal (FloatOps.sqrt (FloatOps.maximumf a e) : Ideal .f32) :=
  IsReal.sqrt_max ha he h0

/-! ### The float literals of the two programs -/

/-- An f32 word whose exponent field is not all ones denotes a real number. -/
theorem f32_isReal (w : BitVec 32) (h : (w.extractLsb' 23 8).toNat ≠ 2 ^ 8 - 1) :
    IsReal (Ideal.ofBits .f32 w) :=
  ieee_isReal 8 23 w h

/-- A float word with a clear sign bit and an exponent field that is not all ones denotes a nonnegative real number:
    its value is a natural number times a power of two. -/
theorem ieee_nonneg (e m : Nat) {w : Nat} (b : BitVec w) (h : (b.extractLsb' m e).toNat ≠ 2 ^ e - 1)
    (hs : (b.extractLsb' (e + m) 1 == 1#1) = false) : ∃ r : ℝ, 0 ≤ r ∧ Ideal.ieee e m b = (r : EReal) := by
  unfold Ideal.ieee
  dsimp only
  rw [if_neg h, hs]
  simp only [Bool.false_eq_true, if_false]
  split
  · exact ⟨_, by positivity, rfl⟩
  · exact ⟨_, by positivity, rfl⟩

/-- The same for an f32 word. -/
theorem f32_nonneg (w : BitVec 32) (h : (w.extractLsb' 23 8).toNat ≠ 2 ^ 8 - 1)
    (hs : (w.extractLsb' 31 1 == 1#1) = false) : ∃ r : ℝ, 0 ≤ r ∧ Ideal.ofBits .f32 w = (r : EReal) :=
  ieee_nonneg 8 23 w h hs

/-- 0.0 -/
theorem lit_zero : Ideal.ofBits .f32 0x00000000#32 = ((0 : ℝ) : EReal) := by
  rw [Ideal.ofBits_zero_f32, EReal.coe_zero]

/-- 1e-12 as an f32: a nonnegative real number. -/
theorem lit_eps12 : ∃ r : ℝ, 0 ≤ r ∧ Ideal.ofBits .f32 0x2B8CBCCC#32 = (r : EReal) :=
  f32_nonneg _ (by decide) (by decide)

/-- 1e-6 as an f32: a nonnegative real number. -/
theorem lit_eps6 : ∃ r : ℝ, 0 ≤ r ∧ Ideal.ofBits .f32 0x358637BD#32 = (r : EReal) :=
  f32_nonneg _ (by decide) (by decide)

/-- 2e-6 as an f32: a nonnegative real number. -/
theorem lit_2eps6 : ∃ r : ℝ, 0 ≤ r ∧ Ideal.ofBits .f32 0x360637BD#32 = (r : EReal) :=
  f32_nonneg _ (by decide) (by decide)

/-- 5.12e-10 as an f32: a nonnegative real number. -/
theorem lit_512eps12 : ∃ r : ℝ, 0 ≤ r ∧ Ideal.ofBits .f32 0x300CBCCC#32 = (r : EReal) :=
  f32_nonneg _ (by decide) (by decide)

/-- 2.0: sign 0, exponent field 128, fraction 0, that is 2^23 · 2^(128 − 127 − 23) = 2. -/
theorem lit_two : Ideal.ofBits .f32 0x40000000#32 = ((2 : ℝ) : EReal) := by
  simp [Ideal.ofBits, Ideal.ieee, -EReal.coe_mul]; norm_num

/-- 2^26: sign 0, exponent field 153, fraction 0, that is 2^23 · 2^(153 − 127 − 23) = 2^26 = 67108864. -/
theorem lit_two_pow_26 : Ideal.ofBits .f32 0x4C800000#32 = ((67108864 : ℝ) : EReal) := by
  simp [Ideal.ofBits, Ideal.ieee, -EReal.coe_mul]; norm_num

/-- Every float literal of the two programs is a real number. -/
theorem lit_isReal :
    IsReal (Ideal.ofBits .f32 0x00000000#32) ∧ IsReal (Ideal.ofBits .f32 0x2B8CBCCC#32)
      ∧ IsReal (Ideal.ofBits .f32 0x358637BD#32) ∧ IsReal (Ideal.ofBits .f32 0x360637BD#32)
      ∧ IsReal (Ideal.ofBits .f32 0x300CBCCC#32) ∧ IsReal (Ideal.ofBits .f32 0x40000000#32)
      ∧ IsReal (Ideal.ofBits .f32 0x4C800000#32) :=
  ⟨f32_isReal _ (by decide), f32_isReal _ (by decide), f32_isReal _ (by decide), f32_isReal _ (by decide),
    f32_isReal _ (by decide), f32_isReal _ (by decide), f32_isReal _ (by decide)⟩

/-- The ε under the square root is nonnegative as an extended real. -/
theorem lit_eps12_nonneg : (0 : EReal) ≤ Ideal.ofBits .f32 0x2B8CBCCC#32 := by
  obtain ⟨r, hr, e⟩ := lit_eps12
  rw [e, ← EReal.coe_zero, EReal.coe_le_coe_iff]
  exact hr

/-! ### Regrouping a sum of products of real numbers

The extended reals are not a ring: a product does not distribute over a sum, and a − a is not 0, when an infinity is
present. For real numbers move every coercion outward — each of +, −, · of coerced real numbers is the coerced
real operation — until both sides are one coerced real expression, and the ring laws of the real numbers finish. -/

/-- The squared distance regrouped: the row term a2 + c·sa + e, the column term p2 − c·sp, minus k times the product,
    against a2 + p2 − k·d plus the correction c·(sa − sp) + e. -/
theorem real_ring_example (a2 sa p2 sp d c e k : ℝ) :
    (((a2 : EReal) + (c : EReal) * (sa : EReal) + (e : EReal)) + ((p2 : EReal) - (c : EReal) * (sp : EReal)))
        - (k : EReal) * (d : EReal)
      = ((((a2 : EReal) + (p2 : EReal)) - (k : EReal) * (d : EReal)) + (c : EReal) * ((sa : EReal) - (sp : EReal)))
        + (e : EReal) := by
  simp only [← EReal.coe_add, ← EReal.coe_mul, ← EReal.coe_sub]
  congr 1
  ring

/-- The same law on extended reals known to be real numbers: name the real numbers, then proceed as above. -/
theorem real_ring_example_isReal {a2 sa p2 sp d c e k : EReal} (h1 : IsReal a2) (h2 : IsReal sa) (h3 : IsReal p2)
    (h4 : IsReal sp) (h5 : IsReal d) (h6 : IsReal c) (h7 : IsReal e) (h8 : IsReal k) :
    ((a2 + c * sa + e) + (p2 - c * sp)) - k * d = (((a2 + p2) - k * d) + c * (sa - sp)) + e := by
  obtain ⟨a2, rfl⟩ := h1
  obtain ⟨sa, rfl⟩ := h2
  obtain ⟨p2, rfl⟩ := h3
  obtain ⟨sp, rfl⟩ := h4
  obtain ⟨d, rfl⟩ := h5
  obtain ⟨c, rfl⟩ := h6
  obtain ⟨e, rfl⟩ := h7
  obtain ⟨k, rfl⟩ := h8
  exact real_ring_example a2 sa p2 sp d c e k

end Cert.LossLaws

end
-- ==== Proof.Law.lean ====
/-
  The two sums of squares, rearranged — over the real numbers, then on the extended reals.

  For real numbers y₁ … y_N (N ≥ 1) with mean μ = (∑ y) / N, and real numbers x₁ … x_N:

      ∑ (y_t − μ)²  =  ∑ y_t²  −  N·μ·μ          (and the left side is ≥ 0, so it is its own maximum with 0)
      ∑ (y_t − x_t)² =  ∑ y_t²  −  2·∑ y_t·x_t  +  ∑ x_t²

  The first follows from ∑ y = N·μ: expanding the square gives ∑ y² − 2μ·∑ y + N·μ² = ∑ y² − N·μ². On the
  extended reals neither identity holds at an infinity (a product does not distribute over a sum there), so
  they are stated for entries that are real numbers: the real witnesses are named, every coercion is moved
  outward, and the real identity is applied. N itself appears as the sum of N ones, and the mean as the
  quotient of ∑ y by max(N, 1), which is N.

  Also: for a quantity of the form max(a, 0), "is not 0" and "is greater than 0" are the same comparison.
-/
import proofs.«114420_j7301444403972_2_alg».proof.Proof.Stats
import proofs.«114420_j7301444403972_2_alg».proof.Proof.LibLossLaws

noncomputable section

open scoped BigOperators

namespace Cert.Proof.Law

open Idealize.ShloMosaic
open Cert.RealValued (IsReal)
open Cert.LossLaws (coe_sum max_real)

variable {ι : Type} [Fintype ι]

/-! ## Over the real numbers -/

/-- ∑ (y − μ)² = ∑ y² − c·μ·μ when c is the number of terms and c·μ = ∑ y. -/
theorem real_centred (Y : ι → ℝ) (c μ : ℝ) (hc : c = (Fintype.card ι : ℝ)) (hμ : c * μ = ∑ t, Y t) :
    ∑ t, (Y t - μ) * (Y t - μ) = (∑ t, Y t * Y t) - c * μ * μ := by
  have e : ∀ t, (Y t - μ) * (Y t - μ) = Y t * Y t - 2 * μ * Y t + μ * μ := fun t => by ring
  simp only [e, Finset.sum_add_distrib, Finset.sum_sub_distrib, ← Finset.mul_sum, Finset.sum_const,
    Finset.card_univ, nsmul_eq_mul]
  rw [← hc, ← hμ]
  ring

/-- ∑ (y − x)² = ∑ y² − 2·∑ y·x + ∑ x². -/
theorem real_residual (X Y : ι → ℝ) :
    ∑ t, (Y t - X t) * (Y t - X t) = (∑ t, Y t * Y t) - 2 * (∑ t, Y t * X t) + ∑ t, X t * X t := by
  have e : ∀ t, (Y t - X t) * (Y t - X t) = Y t * Y t - 2 * (Y t * X t) + X t * X t := fun t => by ring
  simp only [e, Finset.sum_add_distrib, Finset.sum_sub_distrib, ← Finset.mul_sum]

/-! ## On the extended reals -/

/-- A sum of N ones is the real number N. -/
theorem sum_one : (∑ _t : ι, (1 : EReal)) = ((Fintype.card ι : ℝ) : EReal) := by
  rw [← EReal.coe_one, ← coe_sum]
  simp

/-- The mean as both programs compute it: the sum divided by the larger of the count and 1. -/
def mean (y : ι → EReal) : EReal :=
  Ideal.div (∑ t, y t) (max (∑ _t : ι, (1 : EReal)) (Ideal.ofBits .f32 0x3F800000#32))

/-- For real entries and at least one term, the mean is the real number (∑ y) / N. -/
theorem mean_coe (Y : ι → ℝ) (hι : 0 < Fintype.card ι) :
    mean (fun t => (Y t : EReal)) = (((∑ t, Y t) * (1 / (Fintype.card ι : ℝ)) : ℝ) : EReal) := by
  have hc : (1 : ℝ) ≤ (Fintype.card ι : ℝ) := by exact_mod_cast hι
  have hne : (Fintype.card ι : ℝ) ≠ 0 := by positivity
  unfold mean
  rw [sum_one, Stats.ofBits_one, ← EReal.coe_one, max_real, max_eq_left hc, ← coe_sum,
    Ideal.div_coe hne, ← EReal.coe_mul]

/-- The centred sum of squares of real entries is the sum of squares minus N·μ·μ, and is its own maximum
    with 0. -/
theorem centred_law (y : ι → EReal) (hy : ∀ t, IsReal (y t)) (hι : 0 < Fintype.card ι) :
    ∑ t, (1 : EReal) * ((y t - mean y) * (y t - mean y))
      = max ((∑ t, y t * y t) - (∑ _t : ι, (1 : EReal)) * mean y * mean y) (Ideal.ofBits .f32 0x00000000#32) := by
  choose Y hY using hy
  obtain rfl : y = fun t => (Y t : EReal) := funext hY
  have hne : (Fintype.card ι : ℝ) ≠ 0 := by positivity
  have hreal := real_centred Y (Fintype.card ι : ℝ) ((∑ t, Y t) * (1 / (Fintype.card ι : ℝ))) rfl
    (by field_simp)
  rw [mean_coe Y hι, sum_one, Ideal.ofBits_zero_f32]
  simp only [one_mul, ← EReal.coe_sub, ← EReal.coe_mul, ← coe_sum]
  rw [← EReal.coe_zero, max_real, hreal, max_eq_left]
  rw [← hreal]
  exact Finset.sum_nonneg fun t _ => mul_self_nonneg _

/-- The residual sum of squares of real entries, expanded. -/
theorem residual_law (x y : ι → EReal) (hx : ∀ t, IsReal (x t)) (hy : ∀ t, IsReal (y t)) :
    ∑ t, (1 : EReal) * ((y t - x t) * (y t - x t))
      = (∑ t, y t * y t) - Ideal.ofBits .f32 0x40000000#32 * (∑ t, y t * x t) + ∑ t, x t * x t := by
  choose X hX using hx
  choose Y hY using hy
  obtain rfl : x = fun t => (X t : EReal) := funext hX
  obtain rfl : y = fun t => (Y t : EReal) := funext hY
  rw [Stats.ofBits_two]
  simp only [one_mul, ← EReal.coe_sub, ← EReal.coe_mul, ← EReal.coe_add, ← coe_sum]
  rw [real_residual X Y]

/-- Of a maximum with 0, "differs from 0" and "exceeds 0" are one comparison. -/
theorem cmp_ne_max_zero (a : EReal) :
    Ideal.cmp .une (max a (Ideal.ofBits .f32 0x00000000#32)) (Ideal.ofBits .f32 0x00000000#32)
      = Ideal.cmp .ogt (max a (Ideal.ofBits .f32 0x00000000#32)) (Ideal.ofBits .f32 0x00000000#32) := by
  rw [Ideal.ofBits_zero_f32]
  unfold Ideal.cmp
  dsimp only
  congr 1
  rw [decide_eq_decide]
  exact ⟨fun h => lt_of_le_of_ne (le_max_right _ _) (Ne.symm h), fun h => ne_of_gt h⟩

end Cert.Proof.Law

end
-- ==== Proof.RefCols.lean ====
/-
  The reference's per-column quantities, read as sums over the time steps.

  The reference masks the target by "is not NaN". An extended real always equals itself, so the mask is all
  ones, the mask as a number is 1 at every entry, and the cleaned target is the target. Hence, for a column
  j = (site, variable), with y the target and x the prediction:

    * the observed count is the sum of 2000 ones;
    * the sum of the cleaned target is ∑ₜ y(t, j), and the masked mean is that sum over max(count, 1);
    * the mean broadcast back over time is, at every (t, j), the mean of column j;
    * the masked centred sum of squares is ∑ₜ 1·(y(t, j) − mean)², and the masked residual sum of squares is
      ∑ₜ 1·(y(t, j) − x(t, j))².

  No finiteness is needed for any of this.
-/
import proofs.«114420_j7301444403972_2_alg».proof.Proof.RefStages
import proofs.«114420_j7301444403972_2_alg».proof.Proof.Law

noncomputable section

open scoped BigOperators

namespace Cert.Proof.RefCols

open Idealize.ShloMosaic Idealize.ShloMosaic.ValueIdx Cert.ReferenceIdeal.ReadP Cert.Proof.Stats

/-- An extended real is not different from itself. -/
theorem cmp_ne_self (a : EReal) : FloatOps.cmpf (F := Ideal) (φ := .f32) .une a a = 0#1 := by
  simp [Ideal.cmpf_def, Ideal.cmp]

/-- The mask as a number is 1 at every entry. -/
theorem v2_one (y : In) (i : SIn.Idx) : val_main_v2 (F := Ideal) y i = 1 := by
  rw [val_main_v2_apply, val_main_v1_apply, val_main_v0_apply, cmp_ne_self]
  show (((~~~(0#1 : BitVec 1)).toNat : ℝ) : EReal) = 1
  simp

/-- The cleaned target is the target. -/
theorem v4_eq (y : In) (i : SIn.Idx) : val_main_v4 (F := Ideal) y i = y i := by
  rw [val_main_v4_apply, val_main_v1_apply, val_main_v0_apply, cmp_ne_self]
  rfl

/-- The index the four sums over time read at step `k` of column `j` is (k, j). -/
theorem idx3 (j : SCol.Idx) (k : Fin 2000) : idx_main_v3 j k = at3 k j := by
  funext a; match a with | ⟨0, _⟩ => rfl | ⟨1, _⟩ => rfl | ⟨2, _⟩ => rfl
theorem idx7 (j : SCol.Idx) (k : Fin 2000) : idx_main_v7 j k = at3 k j := by
  funext a; match a with | ⟨0, _⟩ => rfl | ⟨1, _⟩ => rfl | ⟨2, _⟩ => rfl
theorem idx14 (j : SCol.Idx) (k : Fin 2000) : idx_main_v14 j k = at3 k j := by
  funext a; match a with | ⟨0, _⟩ => rfl | ⟨1, _⟩ => rfl | ⟨2, _⟩ => rfl
theorem idx18 (j : SCol.Idx) (k : Fin 2000) : idx_main_v18 j k = at3 k j := by
  funext a; match a with | ⟨0, _⟩ => rfl | ⟨1, _⟩ => rfl | ⟨2, _⟩ => rfl

/-- The observed count of a column is the sum of 2000 ones. -/
theorem v3_eq (y : In) (j : SCol.Idx) : val_main_v3 (F := Ideal) y j = cnt j := by
  rw [val_main_v3_apply, val_main_cst_apply]
  simp only [v2_one, Ideal.ofBits_def, Ideal.ofBits_zero_f32, zero_add]
  rfl

/-- The sum of the cleaned target over a column. -/
theorem v7_eq (y : In) (j : SCol.Idx) : val_main_v7 (F := Ideal) y j = st y j := by
  rw [val_main_v7_apply, val_main_cst_2_apply]
  simp only [v4_eq, idx7, Ideal.ofBits_def, Ideal.ofBits_zero_f32, zero_add]
  rfl

/-- The masked mean of a column: its sum over the larger of its count and 1. -/
theorem v8_eq (y : In) (j : SCol.Idx) :
    val_main_v8 (F := Ideal) y j = Law.mean (fun t : Fin 2000 => y (at3 t j)) := by
  rw [val_main_v8_apply, v7_eq, val_main_v6_apply, v3_eq, val_main_v5_apply, val_main_cst_1_apply]
  rfl

/-- The mean broadcast back over time is, at (t, j), the mean of column j. -/
theorem v10_col (y : In) (t : Fin 2000) (j : SCol.Idx) :
    val_main_v10 (F := Ideal) y (at3 t j) = val_main_v8 (F := Ideal) y j := by
  rw [val_main_v10_apply, val_main_v9_apply]
  congr 1
  funext a; match a with | ⟨0, _⟩ => rfl | ⟨1, _⟩ => rfl

/-- The masked centred sum of squares of a column. -/
theorem v14_eq (y : In) (j : SCol.Idx) :
    val_main_v14 (F := Ideal) y j
      = ∑ t : Fin 2000, (1 : EReal) * ((y (at3 t j) - Law.mean (fun t : Fin 2000 => y (at3 t j)))
          * (y (at3 t j) - Law.mean (fun t : Fin 2000 => y (at3 t j)))) := by
  rw [val_main_v14_apply, val_main_cst_3_apply]
  simp only [idx14, val_main_v13_apply, val_main_v12_apply, val_main_v11_apply, v2_one, v4_eq, v10_col, v8_eq,
    Ideal.ofBits_def, Ideal.ofBits_zero_f32, zero_add, Ideal.mulf_def, Ideal.subf_def]

/-- The masked residual sum of squares of a column. -/
theorem v18_eq (x y : In) (j : SCol.Idx) :
    val_main_v18 (F := Ideal) x y j
      = ∑ t : Fin 2000, (1 : EReal) * ((y (at3 t j) - x (at3 t j)) * (y (at3 t j) - x (at3 t j))) := by
  rw [val_main_v18_apply, val_main_cst_4_apply]
  simp only [idx18, val_main_v17_apply, val_main_v16_apply, val_main_v15_apply, v2_one, v4_eq,
    Ideal.ofBits_def, Ideal.ofBits_zero_f32, zero_add, Ideal.mulf_def, Ideal.subf_def]

end Cert.Proof.RefCols

end
-- ==== Proof.ColMeet.lean ====
/-
  Column by column, the reference and the statistics-based arithmetic agree on real-valued inputs.

  Fix a column j. From the five statistics the second computation forms the mean μ = st / max(cnt, 1), the
  centred sum of squares max(st2 − cnt·μ·μ, 0), the residual st2 − 2·stp + sp2, the validity bit
  (cnt > 10) and (centred > 0), and the column's term: residual / (√(centred, or 1 if not valid) + 0.1)² if
  valid, else 0. The reference forms ∑ 1·(y − μ)², ∑ 1·(y − x)², the bit (cnt > 10) and (centred ≠ 0), and
  the same term from those. When every entry is a real number the two centred sums are equal and nonnegative
  (so "≠ 0" is "> 0"), the two residuals are equal, hence the validity bits and the terms are equal.

  Also here: the sum over the sites of a [5000, 8] array, at variable q, is ∑ₖ of the array at (k, q); and the
  statistics-based per-variable sums of terms and of validity bits, read that way.
-/
import proofs.«114420_j7301444403972_2_alg».proof.Proof.RefCols
import Idealize.ShloMosaic.Lib.ValueLayout

noncomputable section

open scoped BigOperators

namespace Cert.Proof.ColMeet

open Idealize.ShloMosaic Idealize.ShloMosaic.ValueIdx Cert.ReferenceIdeal.ReadP Cert.Proof.Stats
open Cert.KernelIdeal.Gen (k1_pay1 k1_pay2 k1_pay3 k1_pay4 k1_pay5 k1_pay6 k1_pay7)
open Cert.RealValued (IsReal)

/-! ## The statistics-based quantities at a column -/

/-- The centred sum of squares from the statistics: max(s2 − c·μ·μ, 0) with μ = s / max(c, 1). -/
theorem pay4_at (c s s2 : Stat) (j : SCol.Idx) :
    k1_pay4 (F := Ideal) c s s2 j
      = max (s2 j - c j * Ideal.div (s j) (max (c j) (Ideal.ofBits .f32 0x3F800000#32))
            * Ideal.div (s j) (max (c j) (Ideal.ofBits .f32 0x3F800000#32)))
          (Ideal.ofBits .f32 0x00000000#32) := by
  unfold k1_pay4 k1_pay2 k1_pay3
  simp only [shapeCast_self]
  rfl

/-- The validity bit from the statistics: the count exceeds 10 and the centred sum of squares exceeds 0. -/
theorem pay5_at (c s s2 : Stat) (j : SCol.Idx) :
    k1_pay5 (F := Ideal) c s s2 j
      = IntOp.andi (Ideal.cmp .ogt (c j) (Ideal.ofBits .f32 0x41200000#32))
          (Ideal.cmp .ogt (k1_pay4 (F := Ideal) c s s2 j) (Ideal.ofBits .f32 0x00000000#32)) := by
  unfold k1_pay5 k1_pay2
  simp only [shapeCast_self]
  rfl

/-- The column's term from the statistics. -/
def colTerm (x y : In) : Stat := fun j =>
  Scalar.select (k1_pay5 (F := Ideal) cnt (st y) (st2 y) j)
    (Ideal.div (st2 y j - Ideal.ofBits .f32 0x40000000#32 * stp x y j + sp2 x j)
      ((Ideal.sqrt (Scalar.select (k1_pay5 (F := Ideal) cnt (st y) (st2 y) j)
            (k1_pay4 (F := Ideal) cnt (st y) (st2 y) j) (Ideal.ofBits .f32 0x3F800000#32))
          + Ideal.ofBits .f32 0x3DCCCCCD#32)
        * (Ideal.sqrt (Scalar.select (k1_pay5 (F := Ideal) cnt (st y) (st2 y) j)
            (k1_pay4 (F := Ideal) cnt (st y) (st2 y) j) (Ideal.ofBits .f32 0x3F800000#32))
          + Ideal.ofBits .f32 0x3DCCCCCD#32)))
    (Ideal.ofBits .f32 0x00000000#32)

/-- The validity bit as a number: 1 if valid, else 0. -/
def colValid (y : In) : Stat := fun j =>
  (((k1_pay5 (F := Ideal) cnt (st y) (st2 y) j).toNat : ℝ) : EReal)

/-! ## A sum over the sites, read at a variable -/

/-- The sum over the first axis of a [5000, 8] array, at variable q, is ∑ₖ of the array at (k, q). -/
theorem siteSum_at (src : FVec Ideal ⟨2, ![5000, 8]⟩ .f32) (h : (⟨2, ![5000, 8]⟩ : Shape).Reduces [0] ⟨1, ![8]⟩)
    (hφ : FKind.Formats .f32) (hacc : (0x00000000#32 : BitVec 32) = 0x00000000#32) (q : Fin 8) :
    multiReduction .add [0] ⟨1, ![8]⟩ src 0x00000000#32 h hφ hacc (ix1 q) = ∑ k : Fin 5000, src (ix2 k q) := by
  refine (Ideal.multiReduction_add_single src 0x00000000#32 h hφ hacc (ix1 q)).trans ?_
  refine Finset.sum_congr rfl fun k _ => congrArg src ?_
  funext a; match a with | ⟨0, _⟩ => rfl | ⟨1, _⟩ => rfl

/-- The per-variable sum of the columns' terms, from the statistics. -/
theorem pay6_at (x y : In) (q : Fin 8) :
    k1_pay6 (F := Ideal) cnt (st y) (st2 y) (stp x y) (sp2 x) (ix2 (0 : Fin 1) q)
      = ∑ k : Fin 5000, colTerm x y (ix2 k q) := by
  unfold k1_pay6 k1_pay3
  simp only [shapeCast_self]
  refine (shapeCast_a_1a_apply _ _ (0 : Fin 1) q).trans ?_
  refine (siteSum_at _ _ _ _ q).trans ?_
  rfl

/-- The per-variable number of valid columns, from the statistics. -/
theorem pay7_at (y : In) (j : SCol.Idx) :
    k1_pay7 (F := Ideal) cnt (st y) (st2 y) j = colValid y j := by
  unfold k1_pay7 colValid
  show ((((k1_pay5 (F := Ideal) cnt (st y) (st2 y) j).setWidth 32).toInt : ℝ) : EReal) = _
  rcases BitVec.eq_zero_or_eq_one (k1_pay5 (F := Ideal) cnt (st y) (st2 y) j) with h | h <;> rw [h] <;> simp

/-! ## The reference's column quantities are the statistics-based ones -/

variable (x y : In) (hx : ∀ i, IsReal (x i)) (hy : ∀ i, IsReal (y i))

include hy in
/-- The centred sums of squares agree. -/
theorem sst_meet (j : SCol.Idx) :
    val_main_v14 (F := Ideal) y j = k1_pay4 (F := Ideal) cnt (st y) (st2 y) j := by
  rw [RefCols.v14_eq, pay4_at,
    Law.centred_law (fun t : Fin 2000 => y (at3 t j)) (fun t => hy _) (by simp)]
  rfl

include hx hy in
/-- The residual sums of squares agree. -/
theorem res_meet (j : SCol.Idx) :
    val_main_v18 (F := Ideal) x y j
      = st2 y j - Ideal.ofBits .f32 0x40000000#32 * stp x y j + sp2 x j := by
  rw [RefCols.v18_eq,
    Law.residual_law (fun t : Fin 2000 => x (at3 t j)) (fun t : Fin 2000 => y (at3 t j)) (fun t => hx _) (fun t => hy _)]
  rfl

include hy in
/-- The validity bits agree. -/
theorem valid_meet (j : SCol.Idx) :
    val_main_v23 (F := Ideal) y j = k1_pay5 (F := Ideal) cnt (st y) (st2 y) j := by
  rw [val_main_v23_apply, val_main_v20_apply, val_main_v22_apply, RefCols.v3_eq, sst_meet y hy,
    val_main_v19_apply, val_main_cst_5_apply, val_main_v21_apply, val_main_cst_6_apply, pay5_at, pay4_at]
  exact congrArg (IntOp.andi _) (Law.cmp_ne_max_zero _)

include hx hy in
/-- The columns' terms agree. -/
theorem term_meet (j : SCol.Idx) : val_main_v30 (F := Ideal) x y j = colTerm x y j := by
  rw [val_main_v30_apply, val_main_v29_apply, val_main_v28_apply, val_main_v27_apply, val_main_v25_apply,
    val_main_v24_apply, valid_meet y hy, sst_meet y hy, res_meet x y hx hy, val_main_v26_apply,
    val_main_cst_8_apply, val_main_call1_v1_apply, val_main_call1_v0_apply, val_main_cst_7_apply,
    val_main_call2_v1_apply, val_main_call2_v0_apply, val_main_cst_9_apply]
  rfl

include hy in
/-- The validity bits as numbers agree. -/
theorem validf_meet (j : SCol.Idx) : val_main_v32 (F := Ideal) y j = colValid y j := by
  rw [val_main_v32_apply, valid_meet y hy]
  rfl

end Cert.Proof.ColMeet

end
-- ==== Proof.RefLoss.lean ====
/-
  The reference's result is the loss computed from the five statistics, on real-valued inputs.

  Both computations end the same way. For each of the eight variables q let L_q be the sum over the 5000
  sites of the columns' terms and N_q the number of valid columns (the sum of the validity bits as numbers);
  the variable contributes L_q / max(N_q, 1) if N_q > 0 and 0 otherwise; the result is the sum of the eight
  contributions divided by 8. The columns' terms and validity bits of the two computations agree when every
  entry of the inputs is a real number, so the two results are the same extended real.

  Two readings used on the way: a sum over the indices of a one-axis array is the sum over its coordinate,
  and the sum over the second axis of a [1, 8] array is the sum of its eight entries.
-/
import proofs.«114420_j7301444403972_2_alg».proof.Proof.ColMeet

noncomputable section

open scoped BigOperators

namespace Cert.Proof.RefLoss

open Idealize.ShloMosaic Idealize.ShloMosaic.ValueIdx Cert.ReferenceIdeal.ReadP Cert.Proof.Stats Cert.Proof.ColMeet
open Cert.KernelIdeal.Gen (k1_pay1 k1_pay6 k1_pay7)
open Cert.RealValued (IsReal)

/-- One variable's contribution: L / max(N, 1) if N > 0, else 0. -/
def perVar (L N : EReal) : EReal :=
  Scalar.select (Ideal.cmp .ogt N (Ideal.ofBits .f32 0x00000000#32))
    (Ideal.div L (max N (Ideal.ofBits .f32 0x3F800000#32))) (Ideal.ofBits .f32 0x00000000#32)

/-- The final value from the per-variable sums: the mean of the eight contributions. -/
def final (x y : In) : EReal :=
  Ideal.div (∑ q : Fin 8, perVar (∑ k : Fin 5000, colTerm x y (ix2 k q)) (∑ k : Fin 5000, colValid y (ix2 k q)))
    (Ideal.ofBits .f32 0x41000000#32)

/-! ## Two readings of sums -/

/-- The indices of a one-axis array are its coordinates. -/
def idxEquiv1 {n : Nat} : (⟨1, ![n]⟩ : Shape).Idx ≃ Fin n where
  toFun i := i 0
  invFun a := ix1 a
  left_inv i := (eq_ix1 i).symm
  right_inv _ := rfl

/-- A sum over the indices of a one-axis array is the sum over the coordinate. -/
theorem sum_idx1 {M : Type} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The sum over the second axis of a [1, 8] array is the sum of its eight entries. -/
theorem varSum_at (src : FVec Ideal ⟨2, ![1, 8]⟩ .f32) (h : (⟨2, ![1, 8]⟩ : Shape).Reduces [1] ⟨1, ![1]⟩)
    (hφ : FKind.Formats .f32) (hacc : (0x00000000#32 : BitVec 32) = 0x00000000#32) :
    multiReduction .add [1] ⟨1, ![1]⟩ src 0x00000000#32 h hφ hacc (ix1 (0 : Fin 1))
      = ∑ q : Fin 8, src (ix2 (0 : Fin 1) q) := by
  refine (Ideal.multiReduction_add_single src 0x00000000#32 h hφ hacc (ix1 (0 : Fin 1))).trans ?_
  refine Finset.sum_congr rfl fun k _ => congrArg src ?_
  funext a; match a with | ⟨0, _⟩ => rfl | ⟨1, _⟩ => rfl

/-! ## The statistics-based side -/

/-- The last stage, from the per-variable sums of terms (given as a [1, 8] array) and the per-column validity
    numbers. -/
theorem pay1_at (v37 : FVec Ideal ⟨2, ![1, 8]⟩ .f32) (v39 : FVec Ideal ⟨2, ![5000, 8]⟩ .f32) :
    k1_pay1 (F := Ideal) v37 v39 (ix2 (0 : Fin 1) (0 : Fin 1))
      = Ideal.div (∑ q : Fin 8, perVar (v37 (ix2 (0 : Fin 1) q)) (∑ k : Fin 5000, v39 (ix2 k q)))
          (Ideal.ofBits .f32 0x41000000#32) := by
  unfold k1_pay1
  refine congrArg (fun z => Ideal.div z (Ideal.ofBits .f32 0x41000000#32)) ?_
  refine (shapeCast_a_1a_apply _ _ (0 : Fin 1) (0 : Fin 1)).trans ?_
  refine (varSum_at _ _ _ _).trans ?_
  refine Finset.sum_congr rfl fun q _ => ?_
  have hN := (shapeCast_a_1a_apply
      (multiReduction .add [0] Cert.KernelIdeal.S8 v39 0x00000000#32 Cert.KernelIdeal.Facts₀.reduces_S5000x8_S8 (.inl rfl) rfl)
      Cert.KernelIdeal.Facts₀.shapeCasts_S8_S1x8 (0 : Fin 1) q).trans (siteSum_at v39 _ _ _ q)
  exact congrArg (fun n => perVar (v37 (ix2 (0 : Fin 1) q)) n) hN

/-- The loss from the statistics is the final value. -/
theorem loss_eq (x y : In) : loss x y = final x y := by
  unfold loss final
  rw [pay1_at]
  simp only [pay6_at, pay7_at]

/-! ## The reference's side -/

/-- The site index the per-variable sums read at site `k` of variable `q` is (k, q). -/
theorem idx31 (q : Fin 8) (k : Fin 5000) : idx_main_v31 (ix1 q) k = ix2 k q := by
  funext a; match a with | ⟨0, _⟩ => rfl | ⟨1, _⟩ => rfl
theorem idx33 (q : Fin 8) (k : Fin 5000) : idx_main_v33 (ix1 q) k = ix2 k q := by
  funext a; match a with | ⟨0, _⟩ => rfl | ⟨1, _⟩ => rfl

variable (x y : In) (hx : ∀ i, IsReal (x i)) (hy : ∀ i, IsReal (y i))

include hx hy in
/-- The reference's contribution of variable q. -/
theorem v39_at (q : Fin 8) :
    val_main_v39 (F := Ideal) x y (ix1 q)
      = perVar (∑ k : Fin 5000, colTerm x y (ix2 k q)) (∑ k : Fin 5000, colValid y (ix2 k q)) := by
  rw [val_main_v39_apply, val_main_v35_apply, val_main_v38_apply, val_main_v37_apply, val_main_v31_apply,
    val_main_v33_apply, val_main_v34_apply, val_main_v36_apply, val_main_call3_v1_apply, val_main_call3_v0_apply,
    val_main_cst_10_apply, val_main_cst_11_apply, val_main_cst_12_apply, val_main_cst_13_apply, val_main_cst_14_apply]
  simp only [idx31, idx33, term_meet x y hx hy, validf_meet y hy, perVar, Ideal.ofBits_def, Ideal.ofBits_zero_f32, zero_add]
  rfl

include hx hy in
/-- The reference's result is the final value. -/
theorem ref_eq (i : (⟨0, ![]⟩ : Shape).Idx) : val_main_v41 (F := Ideal) x y i = final x y := by
  rw [val_main_v41_apply, val_main_v40_apply, val_main_cst_15_apply, val_main_cst_16_apply, sum_idx1]
  simp only [v39_at x y hx hy, Ideal.ofBits_def, Ideal.ofBits_zero_f32, zero_add]
  rfl

end Cert.Proof.RefLoss

namespace Cert.Proof.RefLoss

open Idealize.ShloMosaic Cert.Proof.Stats

/-- THE MEETING: on inputs whose entries are real numbers the reference's result is the loss computed from the
    five statistics (x the prediction, y the target). -/
theorem reference_eq_loss (x y : In) (hx : ∀ i, ∃ r : ℝ, x i = (r : EReal)) (hy : ∀ i, ∃ r : ℝ, y i = (r : EReal)) :
    Cert.ReferenceIdeal.ReadP.val_main_v41 (F := Ideal) x y = fun _ => loss x y :=
  funext fun i => (ref_eq x y hx hy i).trans (loss_eq x y).symm

end Cert.Proof.RefLoss

end
-- ==== Proof.Finite.lean ====
/-
  From the precondition to real-valued inputs.

  The precondition of the claim says, of each of the two input arrays, that every entry a has |a| < +∞, the
  two statements joined by "and". On the extended reals |a| = max(a, −a) is +∞ at either infinity, so
  |a| < +∞ says exactly that a is a real number. Hence: if the precondition holds of X and Y, every entry of
  X and every entry of Y is (the image of) a real number.
-/
import proofs.«114420_j7301444403972_2_alg».proof.Proof.Gen.Pre_finite_inputs
import proofs.«114420_j7301444403972_2_alg».proof.Proof.LibRealValued

noncomputable section

namespace Cert.Proof.Finite

open Idealize.ShloMosaic Idealize.ShloMosaic.ValueIdx
open Cert.RealValued (IsReal all_isReal)

/-- If both inputs pass "all entries have |a| < +∞", every entry of each is a real number. -/
theorem inputs_real
    (X Y : (⟨⟨3, ![2000, 5000, 8]⟩, .f32⟩ : BufTy).Contents (Elt Ideal))
    (h : Cert.Pre_finite_inputs.fn (F := Ideal) X Y = (fun _ => 1#1)) :
    (∀ i, ∃ r : ℝ, X i = (r : EReal)) ∧ (∀ i, ∃ r : ℝ, Y i = (r : EReal)) := by
  have h0 := congrFun h ix0
  dsimp only [Cert.Pre_finite_inputs.fn] at h0
  obtain ⟨hX, hY⟩ := IntOp.andi_eq_one.1 h0
  exact ⟨fun i => all_isReal X _ _ _ _ hX i, fun i => all_isReal Y _ _ _ _ hY i⟩

end Cert.Proof.Finite

end
-- ==== Proof.KernelMeet.lean ====
/-
  The two-pass computation's result is the loss of the five statistics, and with it the certificate's last claim.

  The program under proof makes two passes. The first leaves a [2, 5, 40000] array: for each half h of the time
  axis, each of five rows r and each flattened column 8·s + y, a partial sum over that half's time steps. Between
  the passes the two halves are added, and row r, cut out and reshaped to [5000, 8], becomes the r-th input of the
  second pass; the second pass applies the final arithmetic to its five inputs and leaves a [1, 1] array, whose one
  entry is the scalar result.

  So IF, at every column (s, y), the two halves of row 0, 1, 2, 3, 4 add up to the count, the sum of the target, the
  sum of its squares, the sum of target times prediction and the sum of the squared prediction of that column
  (`SlabStats`, the statement about the first pass that this module takes as a hypothesis), THEN the five inputs of
  the second pass are the five statistics and the scalar result is `loss` of the two argument arrays
  (`kernel_value`).

  The reference, on the other hand, computes the same `loss` whenever every entry of the two arguments is a real
  number, which the precondition "all entries finite" provides. Hence both programs, run from memories that agree
  on the arguments, end with the same scalar and with their arguments unchanged (`algebraic_of`).
-/
import proofs.«114420_j7301444403972_2_alg».proof.Defs
import proofs.«114420_j7301444403972_2_alg».proof.Proof.Whole
import proofs.«114420_j7301444403972_2_alg».proof.Proof.FinalValue
import proofs.«114420_j7301444403972_2_alg».proof.Proof.HostValue
import proofs.«114420_j7301444403972_2_alg».proof.Proof.RefLoss
import proofs.«114420_j7301444403972_2_alg».proof.Proof.Finite

noncomputable section

open scoped BigOperators

namespace Cert.Proof.KernelMeet

open Cert.KernelIdeal Cert.KernelIdeal.Gen Idealize.ShloMosaic Idealize.ShloMosaic.TcCoe Idealize.SL.Sem
open Idealize.ShloMosaic.ValueIdx
open Cert.KernelIdeal (Whole.W2 Whole.W4 Whole.W5 Whole.V3)

/-- The first argument (the prediction) as launched. -/
abbrev argX (m : (ℓ : Loc nD τ sig) → Buf (Elt Ideal) ℓ) (c : Dev nD) : Stats.In :=
  m ((c.tc : Thread nD τ).loc main_arg0)
/-- The second argument (the target) as launched. -/
abbrev argY (m : (ℓ : Loc nD τ sig) → Buf (Elt Ideal) ℓ) (c : Dev nD) : Stats.In :=
  m ((c.tc : Thread nD τ).loc main_arg1)
/-- The first pass's [2, 5, 40000] result: half × row × flattened column. -/
abbrev slab (m : (ℓ : Loc nD τ sig) → Buf (Elt Ideal) ℓ) (c : Dev nD) : S2x5x40000.Idx → EReal :=
  Whole.W2 (F := Ideal) m c (Proc.devRef .tc main_v2)

/-- What the first pass has to deliver: at every column (s, y) the two halves of rows 0 … 4 add up to the five
    statistics of that column. -/
def SlabStats (m : (ℓ : Loc nD τ sig) → Buf (Elt Ideal) ℓ) (c : Dev nD) : Prop :=
  (∀ (s : Fin 5000) (y : Fin 8) (hq : 8 * s.val + y.val < 40000),
      ∑ h : Fin 2, slab m c (ix3 h (0 : Fin 5) ⟨8 * s.val + y.val, hq⟩) = Stats.cnt (ix2 s y))
  ∧ (∀ (s : Fin 5000) (y : Fin 8) (hq : 8 * s.val + y.val < 40000),
      ∑ h : Fin 2, slab m c (ix3 h (1 : Fin 5) ⟨8 * s.val + y.val, hq⟩) = Stats.st (argY m c) (ix2 s y))
  ∧ (∀ (s : Fin 5000) (y : Fin 8) (hq : 8 * s.val + y.val < 40000),
      ∑ h : Fin 2, slab m c (ix3 h (2 : Fin 5) ⟨8 * s.val + y.val, hq⟩) = Stats.st2 (argY m c) (ix2 s y))
  ∧ (∀ (s : Fin 5000) (y : Fin 8) (hq : 8 * s.val + y.val < 40000),
      ∑ h : Fin 2, slab m c (ix3 h (3 : Fin 5) ⟨8 * s.val + y.val, hq⟩) = Stats.stp (argX m c) (argY m c) (ix2 s y))
  ∧ (∀ (s : Fin 5000) (y : Fin 8) (hq : 8 * s.val + y.val < 40000),
      ∑ h : Fin 2, slab m c (ix3 h (4 : Fin 5) ⟨8 * s.val + y.val, hq⟩) = Stats.sp2 (argX m c) (ix2 s y))

/-- An array that at every column is zero plus the two halves of a row, which add up to a statistic, is that
    statistic. -/
theorem col_of_slab (A : S5000x8.Idx → EReal) (B : Stats.Stat) (z : S2x5x40000.Idx → EReal) (r : Fin 5)
    (hA : ∀ (s : Fin 5000) (y : Fin 8) (hq : 8 * s.val + y.val < 40000),
      A (ix2 s y) = 0 + ∑ h : Fin 2, z (ix3 h r ⟨8 * s.val + y.val, hq⟩))
    (hB : ∀ (s : Fin 5000) (y : Fin 8) (hq : 8 * s.val + y.val < 40000),
      ∑ h : Fin 2, z (ix3 h r ⟨8 * s.val + y.val, hq⟩) = B (ix2 s y)) : A = B := by
  funext j
  obtain ⟨s, y, rfl⟩ : ∃ (s : Fin 5000) (y : Fin 8), j = ix2 s y := ⟨j 0, j 1, eq_ix2 j⟩
  have hs := s.isLt
  have hy := y.isLt
  have hq : 8 * s.val + y.val < 40000 := by omega
  rw [hA s y hq, zero_add, hB s y hq]

/-- THE VALUE of the two-pass computation: the scalar result is the loss of the two arguments. -/
theorem kernel_value (m : (ℓ : Loc nD τ sig) → Buf (Elt Ideal) ℓ) (c : Dev nD) (hs : SlabStats m c) :
    (Whole.W5 (F := Ideal) m c (Proc.devRef .tc main_v20) : S_.Idx → EReal)
      = fun _ => Stats.loss (argX m c) (argY m c) := by
  obtain ⟨h0, h1, h2, h3, h4⟩ := hs
  have e6 : (Whole.V3 (F := Ideal) m c main_v6 : S5000x8.Idx → EReal) = Stats.cnt :=
    col_of_slab _ _ (slab m c) 0
      (fun s y hq => HostValue.after1_main_v6_apply_of (Whole.W2 (F := Ideal) m c) (slab m c) rfl s y hq) h0
  have e9 : (Whole.V3 (F := Ideal) m c main_v9 : S5000x8.Idx → EReal) = Stats.st (argY m c) :=
    col_of_slab _ _ (slab m c) 1
      (fun s y hq => HostValue.after1_main_v9_apply_of (Whole.W2 (F := Ideal) m c) (slab m c) rfl s y hq) h1
  have e12 : (Whole.V3 (F := Ideal) m c main_v12 : S5000x8.Idx → EReal) = Stats.st2 (argY m c) :=
    col_of_slab _ _ (slab m c) 2
      (fun s y hq => HostValue.after1_main_v12_apply_of (Whole.W2 (F := Ideal) m c) (slab m c) rfl s y hq) h2
  have e15 : (Whole.V3 (F := Ideal) m c main_v15 : S5000x8.Idx → EReal) = Stats.stp (argX m c) (argY m c) :=
    col_of_slab _ _ (slab m c) 3
      (fun s y hq => HostValue.after1_main_v15_apply_of (Whole.W2 (F := Ideal) m c) (slab m c) rfl s y hq) h3
  have e18 : (Whole.V3 (F := Ideal) m c main_v18 : S5000x8.Idx → EReal) = Stats.sp2 (argX m c) :=
    col_of_slab _ _ (slab m c) 4
      (fun s y hq => HostValue.after1_main_v18_apply_of (Whole.W2 (F := Ideal) m c) (slab m c) rfl s y hq) h4
  have e19 : (Whole.W4 (F := Ideal) m c (Proc.devRef .tc main_v19) : S1x1.Idx → EReal)
      = FinalValue.finalScalar (F := Ideal) Stats.cnt (Stats.st (argY m c)) (Stats.st2 (argY m c))
          (Stats.stp (argX m c) (argY m c)) (Stats.sp2 (argX m c)) := by
    refine ((Whole.W4_arr (F := Ideal) m c 5).trans (FinalValue.final5 (Whole.V3 (F := Ideal) m) c)).trans ?_
    rw [e6, e9, e12, e15, e18]
  refine (HostValue.after2_v20 (Whole.W4 (F := Ideal) m c)).trans ?_
  funext _
  rw [e19]
  rfl

/-- THE LAST CLAIM, from the statement about the first pass: at the extended reals, from memories that agree on the
    two arguments and whose arguments are finite, both programs run to the end, end with the same scalar — the loss
    of the arguments — and leave the arguments unchanged. Finiteness is used on the reference's side only, where the
    two sums of squares are rearranged. -/
theorem algebraic_of (hslab : ∀ m, Cert.Pre_KernelIdeal m → ∀ c : Dev nD, SlabStats m c) :
    Cert.algebraic_KernelIdeal_ReferenceIdeal := by
  intro m ρ m' ρ' hpre hagree
  refine ⟨fun c => fun _ => Stats.loss (argX m c) (argY m c), ?_, ?_⟩
  · refine (θ_run _ _ _).mono (fun r h c => ⟨?_, ?_, ?_⟩) (Whole.run_all (F := Ideal) m ρ)
    · exact (h c _ (Whole.mem_uc main_v20 (by decide))).trans (kernel_value m c (hslab m hpre c))
    · exact (h c _ (Whole.mem_uc main_arg0 (by decide))).trans (Whole.W5_main_arg0 m c)
    · exact (h c _ (Whole.mem_uc main_arg1 (by decide))).trans (Whole.W5_main_arg1 m c)
  · refine (θ_run Cert.ReferenceIdeal.defs _ _).mono (fun r h c => ⟨(h c).1.trans ?_, (h c).2⟩)
      (Cert.ReferenceIdeal.ValueP.run (F := Ideal) m' ρ')
    obtain ⟨hx, hy⟩ := Finite.inputs_real (argX m c) (argY m c) (hpre c)
    rw [Cert.ReferenceIdeal.ReadP.val_main_v41_eq, (hagree c).1, (hagree c).2]
    exact RefLoss.reference_eq_loss (argX m c) (argY m c) hx hy

end Cert.Proof.KernelMeet

end
-- ==== Proof.ReduceArray.lean ====
/-
  The reduction region's result array, read off its proof data at any float instance: the output window is written
  back only at the last point of each half of the grid (t ≡ 24 mod 25), its block then being slab h = t / 25 of the
  [2, 5, 40000] array, and the two slabs cover the array. So the array ends at the function whose slab h is what the
  body left in the output's buffer at point 25·h + 24 — and that buffer is the five rows of the scratch, re-laid
  [5, 40000] → [1, 5, 40000]. An input window's block at point t is rows 40·(t mod 25) … of half t / 25 of its array.
-/
import proofs.«114420_j7301444403972_2_alg».proof.Proof.ReduceFrame
import Idealize.ShloMosaic.Lib.Pipeline.Value
import Idealize.ShloMosaic.Lib.ValueIdx

set_option maxRecDepth 16384

noncomputable section

namespace Cert.KernelIdeal.ReduceValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Reduce Idealize.ShloMosaic.ValueIdx

theorem origin2 : (![0, 0] : Fin 2 → Nat) = fun _ => 0 := funext fun a => by fin_cases a <;> rfl
theorem origin3 : (![0, 0, 0] : Fin 3 → Nat) = fun _ => 0 := funext fun a => by fin_cases a <;> rfl

/-- The windows' block indices over the grid: half and step for the inputs, half alone for the output. -/
theorem idx_facts0 : ∀ t : Fin cfg0.N,
    win0_0.index t (0 : Fin 3) = t.val / 25 ∧ win0_0.index t (1 : Fin 3) = t.val % 25 ∧ win0_0.index t (2 : Fin 3) = 0
    ∧ win0_1.index t (0 : Fin 3) = t.val / 25 ∧ win0_1.index t (1 : Fin 3) = t.val % 25 ∧ win0_1.index t (2 : Fin 3) = 0
    ∧ win0_2.index t (0 : Fin 3) = t.val / 25 ∧ win0_2.index t (1 : Fin 3) = 0 ∧ win0_2.index t (2 : Fin 3) = 0 :=
  (by decide +kernel : ∀ t : Fin grid0.N, _)

section
variable (V : (c : Dev nD) → (b : Ref sig .tc) → Buf (Elt F) ((c : Thread nD τ).loc b))

/-- The first input's block at point t, entry (0, a, q): row 40·(t mod 25) + a of half t / 25 of its array. -/
theorem iblk0_0_apply (c : Dev nD) (t : Fin cfg0.N) (a : Fin 40) (q : Fin 40000) (hh : t.val / 25 < 2) (hr : 40 * (t.val % 25) + a.val < 1000) :
    iblk0 V c 0 t (ix3 (0 : Fin 1) a q)
      = (V c main_v0 : S2x1000x40000.Idx → Elt F .f32) (ix3 (⟨t.val / 25, hh⟩ : Fin 2) (⟨40 * (t.val % 25) + a.val, hr⟩ : Fin 1000) q) := by
  unfold iblk0
  show V c main_v0 (((cfg0.win 0).blk t).view.emb (ix3 (0 : Fin 1) a q)) = V c main_v0 _
  obtain ⟨e00, e01, e02, -⟩ := idx_facts0 t
  congr 1
  funext ax; apply Fin.ext
  match ax with
  | ⟨0, _⟩ => show win0_0.index t (0 : Fin 3) * 1 + 1 * 0 = t.val / 25; omega
  | ⟨1, _⟩ => show win0_0.index t (1 : Fin 3) * 40 + 1 * a.val = 40 * (t.val % 25) + a.val; omega
  | ⟨2, _⟩ => show win0_0.index t (2 : Fin 3) * 40000 + 1 * q.val = q.val; omega

/-- The same for the second input. -/
theorem iblk0_1_apply (c : Dev nD) (t : Fin cfg0.N) (a : Fin 40) (q : Fin 40000) (hh : t.val / 25 < 2) (hr : 40 * (t.val % 25) + a.val < 1000) :
    iblk0 V c 1 t (ix3 (0 : Fin 1) a q)
      = (V c main_v1 : S2x1000x40000.Idx → Elt F .f32) (ix3 (⟨t.val / 25, hh⟩ : Fin 2) (⟨40 * (t.val % 25) + a.val, hr⟩ : Fin 1000) q) := by
  unfold iblk0
  show V c main_v1 (((cfg0.win 1).blk t).view.emb (ix3 (0 : Fin 1) a q)) = V c main_v1 _
  obtain ⟨-, -, -, e10, e11, e12, -⟩ := idx_facts0 t
  congr 1
  funext ax; apply Fin.ext
  match ax with
  | ⟨0, _⟩ => show win0_1.index t (0 : Fin 3) * 1 + 1 * 0 = t.val / 25; omega
  | ⟨1, _⟩ => show win0_1.index t (1 : Fin 3) * 40 + 1 * a.val = 40 * (t.val % 25) + a.val; omega
  | ⟨2, _⟩ => show win0_1.index t (2 : Fin 3) * 40000 + 1 * q.val = q.val; omega

theorem outsAt0_congr (c : Dev nD) {n n' : ℕ} (h : n = n') (hn : n < cfg0.N) (hn' : n' < cfg0.N) :
    outsAt0 V c n hn = outsAt0 V c n' hn' := by subst h; rfl

/-- The result array as one function: slab h is the output's buffer after point 25·h + 24. -/
def slabOf (c : Dev nD) : S2x5x40000.Idx → Elt F .f32 := fun j =>
  (outsAt0 V c (25 * (j 0).val + 24) (by have h2 : (j 0).val < 2 := (j 0).isLt; have hN : cfg0.N = 50 := N_0; omega)).1 (ix3 (0 : Fin 1) (j 1) (j 2))

/-- What a write-back point writes back is its block of `slabOf`. -/
theorem flushed2_eq (c : Dev nD) (t : Fin cfg0.N) (ht : (cfg0.win 2).flush t = true) :
    (dat0 V c).flushed 2 t = ((cfg0.win 2).blk t).view.read (Elt F) (slabOf V c) := by
  have h24 : t.val % 25 = 24 := (flush0_2 t).mp ht
  show (cfg0.win 2).cut (grid0.coords t) ((dat0 V c).after 2 t) = _
  rw [after0_2]
  obtain ⟨-, -, -, -, -, -, e20, e21, e22⟩ := idx_facts0 t
  funext y
  show (outsAt0 V c t.val t.isLt).1 y = slabOf V c (((cfg0.win 2).blk t).view.emb y)
  have hy0 : (y 0).val < 1 := (y 0).isLt
  have e0 : ((((cfg0.win 2).blk t).view.emb y) 0).val = t.val / 25 := by
    show win0_2.index t (0 : Fin 3) * 1 + 1 * (y 0).val = _; omega
  have e1 : ((((cfg0.win 2).blk t).view.emb y) 1).val = (y 1).val := by
    show win0_2.index t (1 : Fin 3) * 5 + 1 * (y 1).val = _; omega
  have e2 : ((((cfg0.win 2).blk t).view.emb y) 2).val = (y 2).val := by
    show win0_2.index t (2 : Fin 3) * 40000 + 1 * (y 2).val = _; omega
  unfold slabOf
  rw [outsAt0_congr V c (show 25 * ((((cfg0.win 2).blk t).view.emb y) 0).val + 24 = t.val by rw [e0]; omega) _ t.isLt]
  refine congrArg (outsAt0 V c t.val t.isLt).1 (funext fun a => Fin.ext ?_)
  match a with
  | ⟨0, _⟩ => show (y 0).val = 0; omega
  | ⟨1, _⟩ => exact e1.symm
  | ⟨2, _⟩ => exact e2.symm

theorem mem_blk2 (t : Fin cfg0.N) (i : S2x5x40000.Idx) :
    i ∈ ((cfg0.win 2).blk t).view.set ↔ ∀ a : Fin 3, win0_2.index t a * S1x5x40000.size a ≤ (i a).val ∧ (i a).val < win0_2.index t a * S1x5x40000.size a + S1x5x40000.size a := by
  show i ∈ ((View.whole main_v2).slice (win0_2.rect t)).set ↔ _
  rw [View.set_slice_whole, Rect.mem_set_unit]
  exact Iff.rfl

/-- The two written-back slabs cover the array: index (h, r, q) lies in the block of point 25·h + 24. -/
theorem cover2 (i : S2x5x40000.Idx) : ∃ t : Fin cfg0.N, (cfg0.win 2).flush t = true ∧ i ∈ ((cfg0.win 2).blk t).view.set := by
  have h2 : (i 0).val < 2 := (i 0).isLt
  have h5 : (i 1).val < 5 := (i 1).isLt
  have h4 : (i 2).val < 40000 := (i 2).isLt
  have hN : cfg0.N = 50 := N_0
  let t : Fin cfg0.N := ⟨25 * (i 0).val + 24, by omega⟩
  have htv : t.val = 25 * (i 0).val + 24 := rfl
  refine ⟨t, (flush0_2 t).mpr (by rw [htv]; omega), ?_⟩
  rw [mem_blk2]
  obtain ⟨-, -, -, -, -, -, e20, e21, e22⟩ := idx_facts0 t
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 5 ≤ (i 1).val ∧ (i 1).val < win0_2.index t (1 : Fin 3) * 5 + 5; omega
  | ⟨2, _⟩ => show win0_2.index t (2 : Fin 3) * 40000 ≤ (i 2).val ∧ (i 2).val < win0_2.index t (2 : Fin 3) * 40000 + 40000; omega

/-- THE RESULT ARRAY after the region. -/
theorem final2 (c : Dev nD) : (dat0 V c).arrAt 2 cfg0.N = slabOf V c :=
  (dat0 V c).arrAt_eq_of_cover 2 _ (fun t ht => flushed2_eq V c t ht) cover2

end

/-! ## The output's buffer at a copy-out point is the scratch, re-laid -/

/-- At a copy-out point the output's buffer at (0, r, q) holds the scratch's entry (r, q). -/
theorem oC_apply (c : Dev nD) (i : grid0.Coords) (arg2 : Memref sig .tc .vmem S1x40x40000 .f32) (harg2 : arg2.IsWhole) (arg3 : Memref sig .tc .vmem S1x40x40000 .f32) (harg3 : arg3.IsWhole) (arg4 : Memref sig .tc .vmem S1x5x40000 .f32) (harg4 : arg4.IsWhole) (arg5 : Memref sig .tc .vmem S5x40000 .f32) (harg5 : arg5.IsWhole) (hc0 : ¬cond0_0 i) (hc1 : cond0_1 i) (x0 x1 : Vec F S1x40x40000 .f32) (xs : Vec F S5x40000 .f32)
    (r : Fin 5) (q : Fin 40000) :
    oC c i arg2 harg2 arg3 harg3 arg4 harg4 arg5 harg5 hc0 hc1 x0 x1 xs (ix3 (0 : Fin 1) r q) = sC c i arg2 harg2 arg3 harg3 arg4 harg4 arg5 harg5 hc0 hc1 x0 x1 xs (ix2 r q) := by
  unfold oC
  rw [View.read_writes_eq_canon _ _ _ (coverC c i arg2 harg2 arg3 harg3 arg4 harg4 arg5 harg5 hc0 hc1 x0 x1 xs)]
  show View.canon [(⟨Rect.unit ![0, 0, 0] S1x5x40000.size inb_S1x5x40000_S1x5x40000_0_0_0, k0_pay6 (kernelRun0_C.sl.v7 c i arg2 harg2 arg3 harg3 arg4 harg4 arg5 harg5 x0 x1 xs)⟩ : View.Piece (Elt F) S1x5x40000 .f32)] (ix3 (0 : Fin 1) r q) = _
  rw [View.canon_unit_zero origin3]
  unfold k0_pay6
  rw [shapeCast_apply _ _ (ix3 (0 : Fin 1) r q) (ix2 r q) (by rw [Shape.rowMajor_val_two, Shape.rowMajor_val_three]; show r.val * 40000 + q.val = (0 * 5 + r.val) * 40000 + q.val; omega)]
  unfold kernelRun0_C.sl.v7 sC
  rw [View.readAt_eq_ld]
  show View.ld (arg5.view.read (Elt F) _) (Rect.unit ![0, 0] S5x40000.size inb_S5x40000_S5x40000_0_0) (ix2 r q) = _
  rw [View.ld_unit_zero origin2]
  rfl

end Cert.KernelIdeal.ReduceValue

end
-- ==== Proof.ReduceScratch.lean ====
/-
  What the scratch holds after the body, per control case, as the five trips' stores written over a starting buffer:
  at a middle or a copy-out point the starting buffer is what the point before left; at a first point of a half it is
  the zero-filled buffer, which reads back as zeros.
-/
import proofs.«114420_j7301444403972_2_alg».proof.Proof.ReduceFrame
import Idealize.ShloMosaic.Lib.Pipeline.Value

set_option maxRecDepth 16384

noncomputable section

namespace Cert.KernelIdeal.ReduceValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Reduce

theorem origin2' : (![0, 0] : Fin 2 → Nat) = fun _ => 0 := funext fun a => by fin_cases a <;> rfl

/-- The zero-fill's one piece: all five rows at the zero payload. -/
abbrev zeroFill : List (View.Piece (Elt F) S5x40000 .f32) :=
  [⟨Rect.unit ![0, 0] S5x40000.size inb_S5x40000_S5x40000_0_0, k0_pay1 (F := F)⟩]

/-- The zero-filled scratch. -/
abbrev zeroed : BufTy.Contents (Elt F) VS0.ty := VS0.writes (Elt F) VS0.junk (zeroFill (F := F))

/-- It reads back as the zero payload. -/
theorem read_zeroed : VS0.read (Elt F) (zeroed (F := F)) = k0_pay1 (F := F) := by
  unfold zeroed zeroFill
  rw [View.read_writes_eq_canon _ _ _ (fun y => View.cover_of_tiled _ S5x40000.size (by rfl) y), View.canon_unit_zero origin2']

/-- Case B: the trips' stores over what the point before left. -/
theorem sB_eq (c : Dev nD) (i : grid0.Coords) (arg2 : Memref sig .tc .vmem S1x40x40000 .f32) (harg2 : arg2.IsWhole) (arg3 : Memref sig .tc .vmem S1x40x40000 .f32) (harg3 : arg3.IsWhole) (arg4 : Memref sig .tc .vmem S1x5x40000 .f32) (harg4 : arg4.IsWhole) (arg5 : Memref sig .tc .vmem S5x40000 .f32) (harg5 : arg5.IsWhole) (hc0 : ¬cond0_0 i) (hc1 : ¬cond0_1 i) (x0 x1 : Vec F S1x40x40000 .f32) (xs : Vec F S5x40000 .f32) :
    sB c i arg2 harg2 arg3 harg3 arg4 harg4 arg5 harg5 hc0 hc1 x0 x1 xs
      = arg5.view.read (Elt F) (arg5.view.writes (Elt F) (harg5.unread xs) (pb_k0_t1 (F := F) Variants.none c none i arg2 harg2 arg3 harg3 arg4 harg4 arg5 harg5 (harg2.unread x0) (harg3.unread x1) (harg5.unread xs) 5)) := rfl

/-- Case C: the same. -/
theorem sC_eq (c : Dev nD) (i : grid0.Coords) (arg2 : Memref sig .tc .vmem S1x40x40000 .f32) (harg2 : arg2.IsWhole) (arg3 : Memref sig .tc .vmem S1x40x40000 .f32) (harg3 : arg3.IsWhole) (arg4 : Memref sig .tc .vmem S1x5x40000 .f32) (harg4 : arg4.IsWhole) (arg5 : Memref sig .tc .vmem S5x40000 .f32) (harg5 : arg5.IsWhole) (hc0 : ¬cond0_0 i) (hc1 : cond0_1 i) (x0 x1 : Vec F S1x40x40000 .f32) (xs : Vec F S5x40000 .f32) :
    sC c i arg2 harg2 arg3 harg3 arg4 harg4 arg5 harg5 hc0 hc1 x0 x1 xs
      = arg5.view.read (Elt F) (arg5.view.writes (Elt F) (harg5.unread xs) (pb_k0_t1 (F := F) Variants.none c none i arg2 harg2 arg3 harg3 arg4 harg4 arg5 harg5 (harg2.unread x0) (harg3.unread x1) (harg5.unread xs) 5)) := rfl

/-- Case A, on the kernel's own scratch: the trips' stores over the zero-filled buffer. -/
theorem sA_eq (c : Dev nD) (i : grid0.Coords) (arg2 : Memref sig .tc .vmem S1x40x40000 .f32) (harg2 : arg2.IsWhole) (arg3 : Memref sig .tc .vmem S1x40x40000 .f32) (harg3 : arg3.IsWhole) (arg4 : Memref sig .tc .vmem S1x5x40000 .f32) (harg4 : arg4.IsWhole) (hc0 : cond0_0 i) (hc1 : ¬cond0_1 i) (x0 x1 : Vec F S1x40x40000 .f32) :
    sA c i arg2 harg2 arg3 harg3 arg4 harg4 scM0 (Memref.isWhole_whole _) hc0 hc1 x0 x1
      = VS0.read (Elt F) (VS0.writes (Elt F) (zeroed (F := F)) (pb_k0_t1 (F := F) Variants.none c none i arg2 harg2 arg3 harg3 arg4 harg4 scM0 (Memref.isWhole_whole _) (harg2.unread x0) (harg3.unread x1) (zeroed (F := F)) 5)) := by
  unfold sA
  show VS0.read (Elt F) (VS0.writes (Elt F) VS0.junk (pb_k0_t1 (F := F) Variants.none c none i arg2 harg2 arg3 harg3 arg4 harg4 scM0 (Memref.isWhole_whole _) (harg2.unread x0) (harg3.unread x1) (zeroed (F := F)) 5 ++ zeroFill (F := F))) = _
  rw [View.writes_append]

end Cert.KernelIdeal.ReduceValue

end
-- ==== Proof.ReduceStats.lean ====
/-
  The scratch after every grid point, at the ideal instance, given what one run of the loop adds: after point 25·h + i
  the scratch's entry (r, q) is the sum over the i + 1 blocks so far, the 5 strips of each and the 8 rows of each, of
  row r's term of the two inputs' entries at row 40·i' + 8·k + j of half h. The first point of a half starts from the
  zero-filled buffer; every later point adds onto what the point before left. At the last point of a half the output's
  buffer is the scratch re-laid, so slab h of the region's result array is the sum over all 25 blocks.
-/
import proofs.«114420_j7301444403972_2_alg».proof.Proof.ReduceArray
import proofs.«114420_j7301444403972_2_alg».proof.Proof.ReduceScratch

set_option maxRecDepth 16384

noncomputable section

namespace Cert.KernelIdeal.ReduceValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Reduce Idealize.ShloMosaic.ValueIdx

section
variable (term : Fin 5 → EReal → EReal → EReal)

/-- What one run of the five trips adds to the scratch, entry by entry (the hypothesis this module is stated under). -/
def LoopAdds : Prop :=
  ∀ (c : Dev nD) (i : grid0.Coords) (arg2 : Memref sig .tc .vmem S1x40x40000 .f32) (harg2 : arg2.IsWhole) (arg3 : Memref sig .tc .vmem S1x40x40000 .f32) (harg3 : arg3.IsWhole) (arg4 : Memref sig .tc .vmem S1x5x40000 .f32) (harg4 : arg4.IsWhole) (arg5 : Memref sig .tc .vmem S5x40000 .f32) (harg5 : arg5.IsWhole)
    (X2 : BufTy.Contents (Elt Ideal) arg2.view.ty) (X3 : BufTy.Contents (Elt Ideal) arg3.view.ty) (G : BufTy.Contents (Elt Ideal) arg5.view.ty),
    (∀ a, ∃ ρ : ℝ, arg3.view.read (Elt Ideal) X3 a = (ρ : EReal)) → ∀ (r : Fin 5) (q : Fin 40000),
    arg5.view.read (Elt Ideal) (arg5.view.writes (Elt Ideal) G (pb_k0_t1 (F := Ideal) Variants.none c none i arg2 harg2 arg3 harg3 arg4 harg4 arg5 harg5 X2 X3 G 5)) (ix2 r q)
      = arg5.view.read (Elt Ideal) G (ix2 r q)
        + ∑ k : Fin 5, ∑ j : Fin 8, term r (arg2.view.read (Elt Ideal) X2 (ix3 (0 : Fin 1) (⟨8 * k.val + j.val, by have := k.isLt; have := j.isLt; omega⟩ : Fin 40) q))
            (arg3.view.read (Elt Ideal) X3 (ix3 (0 : Fin 1) (⟨8 * k.val + j.val, by have := k.isLt; have := j.isLt; omega⟩ : Fin 40) q))

variable (V : (c : Dev nD) → (b : Ref sig .tc) → Buf (Elt Ideal) ((c : Thread nD τ).loc b)) (c : Dev nD)

/-- Row `a` of block `i` of half `h`. -/
theorem row_lt (i : ℕ) (hi : i < 25) (k : Fin 5) (j : Fin 8) : 40 * i + (8 * k.val + j.val) < 1000 := by
  have := k.isLt; have := j.isLt; omega

/-- One block's contribution to entry (r, q): its 5 strips of 8 rows. -/
def blockSum (h : Fin 2) (i : ℕ) (hi : i < 25) (r : Fin 5) (q : Fin 40000) : EReal :=
  ∑ k : Fin 5, ∑ j : Fin 8, term r ((V c main_v0 : S2x1000x40000.Idx → EReal) (ix3 h (⟨40 * i + (8 * k.val + j.val), row_lt i hi k j⟩ : Fin 1000) q))
    ((V c main_v1 : S2x1000x40000.Idx → EReal) (ix3 h (⟨40 * i + (8 * k.val + j.val), row_lt i hi k j⟩ : Fin 1000) q))

/-- The first `n` blocks' contributions. -/
def acc (h : Fin 2) (n : ℕ) (hn : n ≤ 25) (r : Fin 5) (q : Fin 40000) : EReal :=
  ∑ i : Fin n, blockSum term V c h i.val (lt_of_lt_of_le i.isLt hn) r q

theorem acc_succ (h : Fin 2) (n : ℕ) (hn : n + 1 ≤ 25) (r : Fin 5) (q : Fin 40000) :
    acc term V c h (n + 1) hn r q = acc term V c h n (Nat.le_of_succ_le hn) r q + blockSum term V c h n (by omega) r q := by
  unfold acc
  rw [Fin.sum_univ_castSucc]
  rfl

theorem point_lt (h : Fin 2) (i : ℕ) (hi : i < 25) : 25 * h.val + i < cfg0.N := by
  have := h.isLt; have : cfg0.N = 50 := N_0; omega

variable (hloop : LoopAdds term) (hreal : ∀ a, ∃ ρ : ℝ, (V c main_v1 : S2x1000x40000.Idx → EReal) a = (ρ : EReal))
include hloop hreal

/-- What the loop adds at point `t` of half `h`, step `i`: block `i`'s contribution. -/
theorem loop_at (h : Fin 2) (i : ℕ) (hi : i < 25) (G : BufTy.Contents (Elt Ideal) VS0.ty) (r : Fin 5) (q : Fin 40000) :
    let t : Fin cfg0.N := ⟨25 * h.val + i, point_lt h i hi⟩
    VS0.read (Elt Ideal) (VS0.writes (Elt Ideal) G (pb_k0_t1 (F := Ideal) Variants.none c none (grid0.coords t) (ms0_0 t) (hs0_0 t) (ms0_1 t) (hs0_1 t) (ms0_2 t) (hs0_2 t) scM0 (Memref.isWhole_whole _)
        ((hs0_0 t).unread (iblk0 V c 0 t)) ((hs0_1 t).unread (iblk0 V c 1 t)) G 5)) (ix2 r q)
      = VS0.read (Elt Ideal) G (ix2 r q) + blockSum term V c h i hi r q := by
  intro t
  have htv : t.val = 25 * h.val + i := rfl
  have hh : t.val / 25 < 2 := by have := h.isLt; omega
  have e := hloop c (grid0.coords t) (ms0_0 t) (hs0_0 t) (ms0_1 t) (hs0_1 t) (ms0_2 t) (hs0_2 t) scM0 (Memref.isWhole_whole _) ((hs0_0 t).unread (iblk0 V c 0 t)) ((hs0_1 t).unread (iblk0 V c 1 t)) G
    (by
      intro a
      rw [(hs0_1 t).read_unread]
      obtain ⟨a0, a1, a2, rfl⟩ : ∃ (a0 : Fin 1) (a1 : Fin 40) (a2 : Fin 40000), a = ix3 a0 a1 a2 := ⟨a 0, a 1, a 2, eq_ix3 a⟩
      obtain rfl : a0 = 0 := Subsingleton.elim _ _
      rw [iblk0_1_apply V c t a1 a2 hh (by have := a1.isLt; omega)]
      exact hreal _) r q
  refine e.trans ?_
  congr 1
  unfold blockSum
  refine Finset.sum_congr rfl fun k _ => Finset.sum_congr rfl fun j _ => ?_
  rw [(hs0_0 t).read_unread, (hs0_1 t).read_unread,
    iblk0_0_apply V c t _ q hh (by have := k.isLt; have := j.isLt; omega), iblk0_1_apply V c t _ q hh (by have := k.isLt; have := j.isLt; omega)]
  have hidx : (ix3 (⟨t.val / 25, hh⟩ : Fin 2) (⟨40 * (t.val % 25) + (⟨8 * k.val + j.val, by have := k.isLt; have := j.isLt; omega⟩ : Fin 40).val, by have := k.isLt; have := j.isLt; omega⟩ : Fin 1000) q : S2x1000x40000.Idx)
      = ix3 h (⟨40 * i + (8 * k.val + j.val), row_lt i hi k j⟩ : Fin 1000) q := by
    have h1 : (⟨t.val / 25, hh⟩ : Fin 2) = h := Fin.ext (by show t.val / 25 = h.val; omega)
    have h2 : (⟨40 * (t.val % 25) + (8 * k.val + j.val), by have := k.isLt; have := j.isLt; omega⟩ : Fin 1000) = ⟨40 * i + (8 * k.val + j.val), row_lt i hi k j⟩ :=
      Fin.ext (by show 40 * (t.val % 25) + (8 * k.val + j.val) = 40 * i + (8 * k.val + j.val); omega)
    rw [h1]; exact congrArg (fun z => ix3 h z q) h2
  rw [hidx]

/-- THE ACCUMULATION: the scratch after point 25·h + i. -/
theorem scratch_at (h : Fin 2) (i : ℕ) (hi : i < 25) (r : Fin 5) (q : Fin 40000) :
    (outsAt0 V c (25 * h.val + i) (point_lt h i hi)).2 (ix2 r q)
      = (k0_pay1 (F := Ideal)) (ix2 r q) + acc term V c h (i + 1) (by omega) r q := by
  induction i with
  | zero =>
    let t : Fin cfg0.N := ⟨25 * h.val + 0, point_lt h 0 hi⟩
    have h0 : t.val % 25 = 0 := by show (25 * h.val + 0) % 25 = 0; omega
    have e := congrArg Prod.snd (outsAt0_A V c t h0)
    refine (show (outsAt0 V c (25 * h.val + 0) (point_lt h 0 hi)).2 (ix2 r q) = _ from congrFun e (ix2 r q)).trans ?_
    show sA c (grid0.coords t) (ms0_0 t) (hs0_0 t) (ms0_1 t) (hs0_1 t) (ms0_2 t) (hs0_2 t) scM0 (Memref.isWhole_whole _) _ _ (iblk0 V c 0 t) (iblk0 V c 1 t) (ix2 r q) = _
    rw [sA_eq]
    rw [loop_at term V c hloop hreal h 0 hi (zeroed (F := Ideal)) r q, read_zeroed, acc_succ]
    unfold acc
    rw [Finset.univ_eq_empty, Finset.sum_empty, zero_add]
  | succ i ih =>
    have hi' : i < 25 := by omega
    let t : Fin cfg0.N := ⟨25 * h.val + (i + 1), point_lt h (i + 1) hi⟩
    have h0 : ¬ t.val % 25 = 0 := by show ¬ (25 * h.val + (i + 1)) % 25 = 0; omega
    have hprev : (outsAt0 V c (t.val - 1) (Nat.lt_of_le_of_lt (Nat.sub_le _ _) t.isLt)).2 (ix2 r q)
        = (k0_pay1 (F := Ideal)) (ix2 r q) + acc term V c h (i + 1) (by omega) r q := by
      rw [outsAt0_congr V c (show t.val - 1 = 25 * h.val + i by show 25 * h.val + (i + 1) - 1 = _; omega) _ (point_lt h i hi')]
      exact ih hi'
    by_cases h1 : t.val % 25 = 24
    · have e := congrArg Prod.snd (outsAt0_C V c t h0 h1)
      refine (show (outsAt0 V c (25 * h.val + (i + 1)) (point_lt h (i + 1) hi)).2 (ix2 r q) = _ from congrFun e (ix2 r q)).trans ?_
      rw [sC_eq]
      show VS0.read (Elt Ideal) (VS0.writes (Elt Ideal) _ (pb_k0_t1 (F := Ideal) Variants.none c none (grid0.coords t) (ms0_0 t) (hs0_0 t) (ms0_1 t) (hs0_1 t) (ms0_2 t) (hs0_2 t) scM0 (Memref.isWhole_whole _) _ _ _ 5)) (ix2 r q) = _
      rw [loop_at term V c hloop hreal h (i + 1) hi _ r q, (Memref.isWhole_whole (sig := sig) cc0_scratch0).read_unread, hprev, acc_succ term V c h (i + 1), add_assoc]
    · have e := congrArg Prod.snd (outsAt0_B V c t h0 h1)
      refine (show (outsAt0 V c (25 * h.val + (i + 1)) (point_lt h (i + 1) hi)).2 (ix2 r q) = _ from congrFun e (ix2 r q)).trans ?_
      rw [sB_eq]
      show VS0.read (Elt Ideal) (VS0.writes (Elt Ideal) _ (pb_k0_t1 (F := Ideal) Variants.none c none (grid0.coords t) (ms0_0 t) (hs0_0 t) (ms0_1 t) (hs0_1 t) (ms0_2 t) (hs0_2 t) scM0 (Memref.isWhole_whole _) _ _ _ 5)) (ix2 r q) = _
      rw [loop_at term V c hloop hreal h (i + 1) hi _ r q, (Memref.isWhole_whole (sig := sig) cc0_scratch0).read_unread, hprev, acc_succ term V c h (i + 1), add_assoc]

/-- Slab `h` of the region's result array: the zero payload plus all 25 blocks' contributions. -/
theorem slab_at (h : Fin 2) (r : Fin 5) (q : Fin 40000) :
    slabOf V c (ix3 h r q) = (k0_pay1 (F := Ideal)) (ix2 r q) + acc term V c h 25 (le_refl _) r q := by
  unfold slabOf
  let t : Fin cfg0.N := ⟨25 * h.val + 24, point_lt h 24 (by omega)⟩
  have h0 : ¬ t.val % 25 = 0 := by show ¬ (25 * h.val + 24) % 25 = 0; omega
  have h1 : t.val % 25 = 24 := by show (25 * h.val + 24) % 25 = 24; omega
  have e1 := congrArg Prod.fst (outsAt0_C V c t h0 h1)
  have e2 := congrArg Prod.snd (outsAt0_C V c t h0 h1)
  show (outsAt0 V c (25 * h.val + 24) _).1 (ix3 (0 : Fin 1) r q) = _
  refine (congrFun e1 (ix3 (0 : Fin 1) r q)).trans ?_
  dsimp only
  rw [oC_apply]
  refine Eq.trans ?_ (scratch_at term V c hloop hreal h 24 (by omega) r q)
  exact (congrFun e2 (ix2 r q)).symm

end

end Cert.KernelIdeal.ReduceValue

end
-- ==== Proof.TripValue.lean ====
/- THE ACCUMULATION LOOP of the first TensorCore call, read as arithmetic over the extended reals.

   The call's body keeps a scratch of five rows [5,40000]. One trip k of its five-trip loop loads the 8-row strip
   (rows 8·k … 8·k + 7) of the two input blocks [1,40,40000] — call the first block's entries p, the second's t —
   and adds to each scratch row the strip's column sums of that row's summand:
        row 0: 1      row 1: t      row 2: t·t      row 3: t·p      row 4: p·p.
   (The body masks entries of t that differ from themselves and replaces them by zero; no extended real differs
   from itself, so the mask is empty, the indicator is the word of 1.0 = 1 and the cleaned t is t: no hypothesis on
   the inputs is needed.)

   * the strip's arithmetic at an index (`pay7_apply` … `pay14_apply`, `store0_apply` … `store4_apply`): each
     store's payload at (0, q) is the scratch row's entry plus the sum over the strip's eight rows of the summand;
   * `tripL_eq`: one trip's five stores, last first, over the two strips and the scratch rows as the trip finds them;
   * `trip_row0` … `trip_row4`, `trip_read` (one trip): after the trip's stores over contents f, the scratch at
     (r, q) is f at (r, q) plus `tripSum … r q k`, the trip's contribution;
   * `loop_read` (n trips, by induction on n) and `loop_read_five` (the whole loop, the forty rows 8·k + j written
     out): the scratch at (r, q) after the loop is what it held before plus the sum over the block's forty rows of
     the row's summand. -/
import proofs.«114420_j7301444403972_2_alg».proof.Proof.ReduceKit
import proofs.«114420_j7301444403972_2_alg».proof.Proof.Stats
import Idealize.ShloMosaic.Lib.Pipeline.Value
import Idealize.ShloMosaic.Lib.WritesUnit
import Idealize.ShloMosaic.Lib.ValueIdx
import Idealize.ShloMosaic.Lib.ValueLayout
import Idealize.ShloMosaic.PureOps.Ideal.Laws

set_option maxRecDepth 16384

noncomputable section

namespace Cert.KernelIdeal.ReduceValue

open Cert.KernelIdeal Cert.KernelIdeal.Gen
open Idealize.ShloMosaic Idealize.ShloMosaic.TcCoe Idealize.SL.Sem
open Idealize.ShloMosaic.ValueIdx
open scoped BigOperators

/-! ## The strip's arithmetic at an index

  `p` is the first input's 8-row strip, `t` the second's (both [1,8,40000]), `w` one row [1,40000] of the accumulator. -/

section Payloads
variable (p t : Vec Ideal S1x8x40000 .f32) (w : Vec Ideal S1x40000 .f32)

/-- The index of the [8,40000] strip over column q with row j is (j, q). -/
theorem lift_rows (q : Fin 40000) (j : Fin 8) : reduces_S8x40000_S40000.lift (ix1 q) j = ix2 j q := by
  funext a
  match a with
  | ⟨0, _⟩ => rfl
  | ⟨1, _⟩ => rfl

/-- The add-reduction of an [8,40000] strip over its rows, at column q, is the sum of the eight entries of that column. -/
theorem colsum_apply (src : FVec Ideal S8x40000 .f32) (q : Fin 40000) :
    multiReduction .add [0] S40000 src 0x00000000#32 reduces_S8x40000_S40000 (.inl rfl) rfl (ix1 q) = ∑ j : Fin 8, src (ix2 j q) :=
  (Ideal.multiReduction_add_single src 0x00000000#32 reduces_S8x40000_S40000 (.inl rfl) rfl (ix1 q)).trans
    (Finset.sum_congr rfl fun j _ => congrArg src (lift_rows q j))

/-- A [40000] vector viewed as one row: entry (0, q) is entry q. -/
theorem asRow_apply (v : FVec Ideal S40000 .f32) (q : Fin 40000) :
    shapeCast S1x40000 v shapeCasts_S40000_S1x40000 (ix2 (0 : Fin 1) q) = v (ix1 q) :=
  shapeCast_apply v _ _ _ (by
    rw [Shape.rowMajor_val_one, Shape.rowMajor_val_two]
    show q.val = 0 * 40000 + q.val
    omega)

/-- One row viewed as a [40000] vector: entry q is entry (0, q). -/
theorem ofRow_apply (v : Vec Ideal S1x40000 .f32) (q : Fin 40000) :
    shapeCast S40000 v shapeCasts_S1x40000_S40000 (ix1 q) = v (ix2 (0 : Fin 1) q) :=
  shapeCast_apply v _ _ _ (by
    rw [Shape.rowMajor_val_one, Shape.rowMajor_val_two]
    show 0 * 40000 + q.val = q.val
    omega)

/-- The strip without its unit axis: entry (j, q) is entry (0, j, q). -/
theorem pay7_apply (j : Fin 8) (q : Fin 40000) : k0_pay7 p (ix2 j q) = p (ix3 (0 : Fin 1) j q) := by
  unfold k0_pay7; exact shapeCast_1ab_ab_apply p _ j q
theorem pay8_apply (j : Fin 8) (q : Fin 40000) : k0_pay8 t (ix2 j q) = t (ix3 (0 : Fin 1) j q) := by
  unfold k0_pay8; exact shapeCast_1ab_ab_apply t _ j q

/-- "Ordered and different from itself" holds of no extended real: the mask of absent entries is empty. -/
theorem pay9_apply (j : Fin 8) (q : Fin 40000) : k0_pay9 t (ix2 j q) = 0#1 := by
  unfold k0_pay9
  show Ideal.cmp .one (k0_pay8 t (ix2 j q)) (k0_pay8 t (ix2 j q)) = 0#1
  simp [Ideal.cmp]

/-- So the presence indicator is 1 everywhere, -/
theorem pay10_apply (j : Fin 8) (q : Fin 40000) : k0_pay10 t (ix2 j q) = (1 : EReal) := by
  unfold k0_pay10
  show Scalar.select (k0_pay9 t (ix2 j q)) (Ideal.ofBits .f32 0x00000000#32) (Ideal.ofBits .f32 0x3F800000#32) = 1
  rw [pay9_apply]
  exact Cert.Proof.Stats.ofBits_one

/-- and the cleaned second input is the second input. -/
theorem pay11_apply (j : Fin 8) (q : Fin 40000) : k0_pay11 t (ix2 j q) = t (ix3 (0 : Fin 1) j q) := by
  unfold k0_pay11
  show Scalar.select (k0_pay9 t (ix2 j q)) (Ideal.ofBits .f32 0x00000000#32) (k0_pay8 t (ix2 j q)) = _
  rw [pay9_apply, pay8_apply]
  rfl

/-- The five column sums over the strip's eight rows. -/
theorem sum_ones_apply (q : Fin 40000) :
    multiReduction .add [0] S40000 (k0_pay10 t) 0x00000000#32 reduces_S8x40000_S40000 (.inl rfl) rfl (ix1 q) = ∑ _j : Fin 8, (1 : EReal) :=
  (colsum_apply _ q).trans (Finset.sum_congr rfl fun j _ => pay10_apply t j q)

theorem sum_t_apply (q : Fin 40000) :
    multiReduction .add [0] S40000 (k0_pay11 t) 0x00000000#32 reduces_S8x40000_S40000 (.inl rfl) rfl (ix1 q) = ∑ j : Fin 8, t (ix3 (0 : Fin 1) j q) :=
  (colsum_apply _ q).trans (Finset.sum_congr rfl fun j _ => pay11_apply t j q)

theorem pay12_apply (q : Fin 40000) : k0_pay12 t (ix1 q) = ∑ j : Fin 8, t (ix3 (0 : Fin 1) j q) * t (ix3 (0 : Fin 1) j q) := by
  unfold k0_pay12
  refine (colsum_apply _ q).trans (Finset.sum_congr rfl fun j _ => ?_)
  show k0_pay11 t (ix2 j q) * k0_pay11 t (ix2 j q) = _
  rw [pay11_apply]

theorem pay13_apply (q : Fin 40000) : k0_pay13 p t (ix1 q) = ∑ j : Fin 8, t (ix3 (0 : Fin 1) j q) * p (ix3 (0 : Fin 1) j q) := by
  unfold k0_pay13
  refine (colsum_apply _ q).trans (Finset.sum_congr rfl fun j _ => ?_)
  show k0_pay11 t (ix2 j q) * k0_pay7 p (ix2 j q) = _
  rw [pay11_apply, pay7_apply]

theorem pay14_apply (q : Fin 40000) : k0_pay14 p t (ix1 q) = ∑ j : Fin 8, p (ix3 (0 : Fin 1) j q) * p (ix3 (0 : Fin 1) j q) := by
  unfold k0_pay14
  refine (colsum_apply _ q).trans (Finset.sum_congr rfl fun j _ => ?_)
  show k0_pay10 t (ix2 j q) * k0_pay7 p (ix2 j q) * k0_pay7 p (ix2 j q) = _
  rw [pay10_apply, pay7_apply, one_mul]

/-- The five stores' payloads at (0, q): the accumulator's row entry plus the strip's column sum. -/
theorem store0_apply (q : Fin 40000) :
    k0_pay15 t w (ix2 (0 : Fin 1) q) = w (ix2 (0 : Fin 1) q) + ∑ _j : Fin 8, (1 : EReal) := by
  unfold k0_pay15
  refine (asRow_apply _ q).trans ?_
  show shapeCast S40000 w shapeCasts_S1x40000_S40000 (ix1 q) + _ = _
  rw [ofRow_apply, sum_ones_apply]

theorem store1_apply (q : Fin 40000) :
    k0_pay2 (k0_pay16 t w) (ix2 (0 : Fin 1) q) = w (ix2 (0 : Fin 1) q) + ∑ j : Fin 8, t (ix3 (0 : Fin 1) j q) := by
  unfold k0_pay2
  refine (asRow_apply _ q).trans ?_
  unfold k0_pay16
  show shapeCast S40000 w shapeCasts_S1x40000_S40000 (ix1 q) + _ = _
  rw [ofRow_apply, sum_t_apply]

theorem store2_apply (q : Fin 40000) :
    k0_pay3 (k0_pay12 t) w (ix2 (0 : Fin 1) q) = w (ix2 (0 : Fin 1) q) + ∑ j : Fin 8, t (ix3 (0 : Fin 1) j q) * t (ix3 (0 : Fin 1) j q) := by
  unfold k0_pay3
  refine (asRow_apply _ q).trans ?_
  show shapeCast S40000 w shapeCasts_S1x40000_S40000 (ix1 q) + k0_pay12 t (ix1 q) = _
  rw [ofRow_apply, pay12_apply]

theorem store3_apply (q : Fin 40000) :
    k0_pay4 (k0_pay13 p t) w (ix2 (0 : Fin 1) q) = w (ix2 (0 : Fin 1) q) + ∑ j : Fin 8, t (ix3 (0 : Fin 1) j q) * p (ix3 (0 : Fin 1) j q) := by
  unfold k0_pay4
  refine (asRow_apply _ q).trans ?_
  show shapeCast S40000 w shapeCasts_S1x40000_S40000 (ix1 q) + k0_pay13 p t (ix1 q) = _
  rw [ofRow_apply, pay13_apply]

theorem store4_apply (q : Fin 40000) :
    k0_pay5 (k0_pay14 p t) w (ix2 (0 : Fin 1) q) = w (ix2 (0 : Fin 1) q) + ∑ j : Fin 8, p (ix3 (0 : Fin 1) j q) * p (ix3 (0 : Fin 1) j q) := by
  unfold k0_pay5
  refine (asRow_apply _ q).trans ?_
  show shapeCast S40000 w shapeCasts_S1x40000_S40000 (ix1 q) + k0_pay14 p t (ix1 q) = _
  rw [ofRow_apply, pay14_apply]

end Payloads

/-! ## One trip of the accumulation loop -/

/-- The five statistics' summands, for a prediction entry `p` and a target entry `t`: 1, t, t², t·p, p². -/
def term (r : Fin 5) (p t : EReal) : EReal :=
  match r with
  | ⟨0, _⟩ => 1
  | ⟨1, _⟩ => t
  | ⟨2, _⟩ => t * t
  | ⟨3, _⟩ => t * p
  | ⟨4, _⟩ => p * p

/-- Row 8·k + j of the 40-row block, for a trip k and a row j of its strip (reduced modulo 40, so that it is a row for
    every natural k; for k < 5 nothing is reduced). -/
def stripRow (k : ℕ) (j : Fin 8) : Fin 40 := ⟨(8 * k + j.val) % 40, Nat.mod_lt _ (by decide)⟩

theorem stripRow_val (k : ℕ) (hk : k < 5) (j : Fin 8) : (stripRow k j).val = 8 * k + j.val := by
  have := j.isLt
  show (8 * k + j.val) % 40 = _
  omega

section Trip
variable (𝒱 : Variants) (c : Dev nD) (bd : Option 𝒱.V) (i : grid0.Coords)
  (arg2 : Memref sig .tc .vmem S1x40x40000 .f32) (harg2 : arg2.IsWhole) (arg3 : Memref sig .tc .vmem S1x40x40000 .f32) (harg3 : arg3.IsWhole)
  (arg4 : Memref sig .tc .vmem S1x5x40000 .f32) (harg4 : arg4.IsWhole) (arg5 : Memref sig .tc .vmem S5x40000 .f32) (harg5 : arg5.IsWhole)
  (X2 : BufTy.Contents (Elt Ideal) arg2.view.ty) (X3 : BufTy.Contents (Elt Ideal) arg3.view.ty)

/-- The 8-row strip of the first input's block that trip k loads, -/
abbrev strip2 (k : Fin k0_t1_loop.trips) : Vec Ideal S1x8x40000 .f32 :=
  View.readAt (Elt Ideal) arg2.view (Rect.unit (s := S1x40x40000) (k0_off1 k) S1x8x40000.size (k0_off1_inb k)).toLoadRect X2
/-- and of the second's. -/
abbrev strip3 (k : Fin k0_t1_loop.trips) : Vec Ideal S1x8x40000 .f32 :=
  View.readAt (Elt Ideal) arg3.view (Rect.unit (s := S1x40x40000) (k0_off1 k) S1x8x40000.size (k0_off1_inb k)).toLoadRect X3

/-- The strip's entry (0, j, q) is the block's entry (0, 8·k + j, q). -/
theorem strip2_apply (k : Fin k0_t1_loop.trips) (j : Fin 8) (q : Fin 40000) :
    strip2 arg2 X2 k (ix3 (0 : Fin 1) j q) = arg2.view.read (Elt Ideal) X2 (ix3 (0 : Fin 1) (stripRow k.val j) q) := by
  unfold strip2
  rw [View.readAt_apply]
  congr 1
  funext a; apply Fin.ext
  have hk := k0_off1_eq k
  have hk5 : k.val < 5 := Nat.lt_of_lt_of_le k.isLt k0_t1_abs.2.1
  have hj := j.isLt
  match a with
  | ⟨0, _⟩ => show k0_off1 k 0 + 1 * 0 = 0; rw [hk]; rfl
  | ⟨1, _⟩ => show k0_off1 k 1 + 1 * j.val = (8 * k.val + j.val) % 40; rw [hk]; show 8 * k.val + 1 * j.val = _; omega
  | ⟨2, _⟩ => show k0_off1 k 2 + 1 * q.val = q.val; rw [hk]; show 0 + 1 * q.val = _; omega

theorem strip3_apply (k : Fin k0_t1_loop.trips) (j : Fin 8) (q : Fin 40000) :
    strip3 arg3 X3 k (ix3 (0 : Fin 1) j q) = arg3.view.read (Elt Ideal) X3 (ix3 (0 : Fin 1) (stripRow k.val j) q) := by
  unfold strip3
  rw [View.readAt_apply]
  congr 1
  funext a; apply Fin.ext
  have hk := k0_off1_eq k
  have hk5 : k.val < 5 := Nat.lt_of_lt_of_le k.isLt k0_t1_abs.2.1
  have hj := j.isLt
  match a with
  | ⟨0, _⟩ => show k0_off1 k 0 + 1 * 0 = 0; rw [hk]; rfl
  | ⟨1, _⟩ => show k0_off1 k 1 + 1 * j.val = (8 * k.val + j.val) % 40; rw [hk]; show 8 * k.val + 1 * j.val = _; omega
  | ⟨2, _⟩ => show k0_off1 k 2 + 1 * q.val = q.val; rw [hk]; show 0 + 1 * q.val = _; omega

/-- Row r of the accumulator as a load of one row reads it: entry (0, q) is the accumulator's entry (r, q). -/
theorem accRow_apply (f : BufTy.Contents (Elt Ideal) arg5.view.ty) (r : Fin 5) (off : Fin 2 → Nat) (hoff : off = ![r.val, 0])
    (inb : ∀ a, off a + S1x40000.size a ≤ S5x40000.size a) (q : Fin 40000) :
    View.readAt (Elt Ideal) arg5.view (Rect.unit (s := S5x40000) off S1x40000.size inb).toLoadRect f (ix2 (0 : Fin 1) q)
      = arg5.view.read (Elt Ideal) f (ix2 r q) := by
  subst hoff
  rw [View.readAt_apply]
  congr 1
  funext a; apply Fin.ext
  match a with
  | ⟨0, _⟩ => show r.val + 1 * 0 = r.val; omega
  | ⟨1, _⟩ => show 0 + 1 * q.val = q.val; omega

/-- Trip k's five stores, last first, as the run found them: each row's accumulation of the strip's column sum. -/
theorem tripL_eq (k : Fin k0_t1_loop.trips) (f : BufTy.Contents (Elt Ideal) arg5.view.ty) :
    tripL_k0_t1 (F := Ideal) 𝒱 c bd i arg2 harg2 arg3 harg3 arg4 harg4 arg5 harg5 X2 X3 k f
      = [⟨Rect.unit (s := S5x40000) ![4, 0] S1x40000.size inb_S5x40000_S1x40000_4_0,
            k0_pay5 (k0_pay14 (strip2 arg2 X2 k) (strip3 arg3 X3 k))
              (View.readAt (Elt Ideal) arg5.view (Rect.unit (s := S5x40000) ![4, 0] S1x40000.size inb_S5x40000_S1x40000_4_0).toLoadRect f)⟩,
         ⟨Rect.unit (s := S5x40000) ![3, 0] S1x40000.size inb_S5x40000_S1x40000_3_0,
            k0_pay4 (k0_pay13 (strip2 arg2 X2 k) (strip3 arg3 X3 k))
              (View.readAt (Elt Ideal) arg5.view (Rect.unit (s := S5x40000) ![3, 0] S1x40000.size inb_S5x40000_S1x40000_3_0).toLoadRect f)⟩,
         ⟨Rect.unit (s := S5x40000) ![2, 0] S1x40000.size inb_S5x40000_S1x40000_2_0,
            k0_pay3 (k0_pay12 (strip3 arg3 X3 k))
              (View.readAt (Elt Ideal) arg5.view (Rect.unit (s := S5x40000) ![2, 0] S1x40000.size inb_S5x40000_S1x40000_2_0).toLoadRect f)⟩,
         ⟨Rect.unit (s := S5x40000) ![1, 0] S1x40000.size inb_S5x40000_S1x40000_1_0,
            k0_pay2 (k0_pay16 (strip3 arg3 X3 k)
              (View.readAt (Elt Ideal) arg5.view (Rect.unit (s := S5x40000) ![1, 0] S1x40000.size inb_S5x40000_S1x40000_1_0).toLoadRect f))⟩,
         ⟨Rect.unit (s := S5x40000) ![0, 0] S1x40000.size inb_S5x40000_S1x40000_0_0,
            k0_pay15 (strip3 arg3 X3 k)
              (View.readAt (Elt Ideal) arg5.view (Rect.unit (s := S5x40000) ![0, 0] S1x40000.size inb_S5x40000_S1x40000_0_0).toLoadRect f)⟩] := by
  unfold tripL_k0_t1 trip_k0_t1
  dsimp only
  unfold trip_k0_t1.sl.r_2 trip_k0_t1.sl.v56 trip_k0_t1.sl.r_1 trip_k0_t1.sl.v50 trip_k0_t1.sl.r trip_k0_t1.sl.v44 trip_k0_t1.sl.r_3 trip_k0_t1.sl.v38
  rfl

end Trip

section TripRows
variable (𝒱 : Variants) (c : Dev nD) (bd : Option 𝒱.V) (i : grid0.Coords)
  (arg2 : Memref sig .tc .vmem S1x40x40000 .f32) (harg2 : arg2.IsWhole) (arg3 : Memref sig .tc .vmem S1x40x40000 .f32) (harg3 : arg3.IsWhole)
  (arg4 : Memref sig .tc .vmem S1x5x40000 .f32) (harg4 : arg4.IsWhole) (arg5 : Memref sig .tc .vmem S5x40000 .f32) (harg5 : arg5.IsWhole)
  (X2 : BufTy.Contents (Elt Ideal) arg2.view.ty) (X3 : BufTy.Contents (Elt Ideal) arg3.view.ty)

/-! Row by row: the newest store into the row is the trip's (the four others miss it), and its payload at (0, q) is
    the row's entry as the trip found it plus the strip's column sum of the row's summand. -/

theorem trip_row4 (k : Fin k0_t1_loop.trips) (f : BufTy.Contents (Elt Ideal) arg5.view.ty) (q : Fin 40000) :
    arg5.view.read (Elt Ideal) (arg5.view.writes (Elt Ideal) f (tripL_k0_t1 (F := Ideal) 𝒱 c bd i arg2 harg2 arg3 harg3 arg4 harg4 arg5 harg5 X2 X3 k f)) (ix2 (4 : Fin 5) q)
      = arg5.view.read (Elt Ideal) f (ix2 (4 : Fin 5) q) + ∑ j : Fin 8, (arg2.view.read (Elt Ideal) X2 (ix3 (0 : Fin 1) (stripRow k.val j) q)) * (arg2.view.read (Elt Ideal) X2 (ix3 (0 : Fin 1) (stripRow k.val j) q)) := by
  rw [tripL_eq]
  refine (View.read_writes_cons_rows_of_mem arg5.view f _ _ _ (ix2 (4 : Fin 5) q) (ix2 (0 : Fin 1) q) rfl rfl rfl).trans ?_
  rw [store4_apply]
  exact congrArg₂ (· + ·) (accRow_apply arg5 f (4 : Fin 5) _ rfl _ q) (Finset.sum_congr rfl fun j _ => by rw [strip2_apply])

theorem trip_row3 (k : Fin k0_t1_loop.trips) (f : BufTy.Contents (Elt Ideal) arg5.view.ty) (q : Fin 40000) :
    arg5.view.read (Elt Ideal) (arg5.view.writes (Elt Ideal) f (tripL_k0_t1 (F := Ideal) 𝒱 c bd i arg2 harg2 arg3 harg3 arg4 harg4 arg5 harg5 X2 X3 k f)) (ix2 (3 : Fin 5) q)
      = arg5.view.read (Elt Ideal) f (ix2 (3 : Fin 5) q) + ∑ j : Fin 8, (arg3.view.read (Elt Ideal) X3 (ix3 (0 : Fin 1) (stripRow k.val j) q)) * (arg2.view.read (Elt Ideal) X2 (ix3 (0 : Fin 1) (stripRow k.val j) q)) := by
  rw [tripL_eq]
  refine (View.read_writes_cons_rows_of_not_mem arg5.view f _ _ _ (ix2 (3 : Fin 5) q) rfl rfl (Or.inl (by show (3 : ℕ) < 4; omega))).trans ?_
  refine (View.read_writes_cons_rows_of_mem arg5.view f _ _ _ (ix2 (3 : Fin 5) q) (ix2 (0 : Fin 1) q) rfl rfl rfl).trans ?_
  rw [store3_apply]
  exact congrArg₂ (· + ·) (accRow_apply arg5 f (3 : Fin 5) _ rfl _ q) (Finset.sum_congr rfl fun j _ => by rw [strip3_apply, strip2_apply])

theorem trip_row2 (k : Fin k0_t1_loop.trips) (f : BufTy.Contents (Elt Ideal) arg5.view.ty) (q : Fin 40000) :
    arg5.view.read (Elt Ideal) (arg5.view.writes (Elt Ideal) f (tripL_k0_t1 (F := Ideal) 𝒱 c bd i arg2 harg2 arg3 harg3 arg4 harg4 arg5 harg5 X2 X3 k f)) (ix2 (2 : Fin 5) q)
      = arg5.view.read (Elt Ideal) f (ix2 (2 : Fin 5) q) + ∑ j : Fin 8, (arg3.view.read (Elt Ideal) X3 (ix3 (0 : Fin 1) (stripRow k.val j) q)) * (arg3.view.read (Elt Ideal) X3 (ix3 (0 : Fin 1) (stripRow k.val j) q)) := by
  rw [tripL_eq]
  refine (View.read_writes_cons_rows_of_not_mem arg5.view f _ _ _ (ix2 (2 : Fin 5) q) rfl rfl (Or.inl (by show (2 : ℕ) < 4; omega))).trans ?_
  refine (View.read_writes_cons_rows_of_not_mem arg5.view f _ _ _ (ix2 (2 : Fin 5) q) rfl rfl (Or.inl (by show (2 : ℕ) < 3; omega))).trans ?_
  refine (View.read_writes_cons_rows_of_mem arg5.view f _ _ _ (ix2 (2 : Fin 5) q) (ix2 (0 : Fin 1) q) rfl rfl rfl).trans ?_
  rw [store2_apply]
  exact congrArg₂ (· + ·) (accRow_apply arg5 f (2 : Fin 5) _ rfl _ q) (Finset.sum_congr rfl fun j _ => by rw [strip3_apply])

theorem trip_row1 (k : Fin k0_t1_loop.trips) (f : BufTy.Contents (Elt Ideal) arg5.view.ty) (q : Fin 40000) :
    arg5.view.read (Elt Ideal) (arg5.view.writes (Elt Ideal) f (tripL_k0_t1 (F := Ideal) 𝒱 c bd i arg2 harg2 arg3 harg3 arg4 harg4 arg5 harg5 X2 X3 k f)) (ix2 (1 : Fin 5) q)
      = arg5.view.read (Elt Ideal) f (ix2 (1 : Fin 5) q) + ∑ j : Fin 8, (arg3.view.read (Elt Ideal) X3 (ix3 (0 : Fin 1) (stripRow k.val j) q)) := by
  rw [tripL_eq]
  refine (View.read_writes_cons_rows_of_not_mem arg5.view f _ _ _ (ix2 (1 : Fin 5) q) rfl rfl (Or.inl (by show (1 : ℕ) < 4; omega))).trans ?_
  refine (View.read_writes_cons_rows_of_not_mem arg5.view f _ _ _ (ix2 (1 : Fin 5) q) rfl rfl (Or.inl (by show (1 : ℕ) < 3; omega))).trans ?_
  refine (View.read_writes_cons_rows_of_not_mem arg5.view f _ _ _ (ix2 (1 : Fin 5) q) rfl rfl (Or.inl (by show (1 : ℕ) < 2; omega))).trans ?_
  refine (View.read_writes_cons_rows_of_mem arg5.view f _ _ _ (ix2 (1 : Fin 5) q) (ix2 (0 : Fin 1) q) rfl rfl rfl).trans ?_
  rw [store1_apply]
  exact congrArg₂ (· + ·) (accRow_apply arg5 f (1 : Fin 5) _ rfl _ q) (Finset.sum_congr rfl fun j _ => strip3_apply arg3 X3 k j q)

theorem trip_row0 (k : Fin k0_t1_loop.trips) (f : BufTy.Contents (Elt Ideal) arg5.view.ty) (q : Fin 40000) :
    arg5.view.read (Elt Ideal) (arg5.view.writes (Elt Ideal) f (tripL_k0_t1 (F := Ideal) 𝒱 c bd i arg2 harg2 arg3 harg3 arg4 harg4 arg5 harg5 X2 X3 k f)) (ix2 (0 : Fin 5) q)
      = arg5.view.read (Elt Ideal) f (ix2 (0 : Fin 5) q) + ∑ j : Fin 8, (1 : EReal) := by
  rw [tripL_eq]
  refine (View.read_writes_cons_rows_of_not_mem arg5.view f _ _ _ (ix2 (0 : Fin 5) q) rfl rfl (Or.inl (by show (0 : ℕ) < 4; omega))).trans ?_
  refine (View.read_writes_cons_rows_of_not_mem arg5.view f _ _ _ (ix2 (0 : Fin 5) q) rfl rfl (Or.inl (by show (0 : ℕ) < 3; omega))).trans ?_
  refine (View.read_writes_cons_rows_of_not_mem arg5.view f _ _ _ (ix2 (0 : Fin 5) q) rfl rfl (Or.inl (by show (0 : ℕ) < 2; omega))).trans ?_
  refine (View.read_writes_cons_rows_of_not_mem arg5.view f _ _ _ (ix2 (0 : Fin 5) q) rfl rfl (Or.inl (by show (0 : ℕ) < 1; omega))).trans ?_
  refine (View.read_writes_cons_rows_of_mem arg5.view f _ _ _ (ix2 (0 : Fin 5) q) (ix2 (0 : Fin 1) q) rfl rfl rfl).trans ?_
  rw [store0_apply]
  exact congrArg₂ (· + ·) (accRow_apply arg5 f (0 : Fin 5) _ rfl _ q) rfl

/-- One trip's contribution to row r, column q: the sum over the strip's eight rows of the row's summand. -/
def tripSum (x0 x1 : S1x40x40000.Idx → EReal) (r : Fin 5) (q : Fin 40000) (k : ℕ) : EReal :=
  ∑ j : Fin 8, term r (x0 (ix3 (0 : Fin 1) (stripRow k j) q)) (x1 (ix3 (0 : Fin 1) (stripRow k j) q))

/-- (T) ONE TRIP: after trip k's stores over contents f, row r at column q holds what it held plus the trip's
    contribution. -/
theorem trip_read (k : Fin k0_t1_loop.trips) (f : BufTy.Contents (Elt Ideal) arg5.view.ty) (r : Fin 5) (q : Fin 40000) :
    arg5.view.read (Elt Ideal) (arg5.view.writes (Elt Ideal) f (tripL_k0_t1 (F := Ideal) 𝒱 c bd i arg2 harg2 arg3 harg3 arg4 harg4 arg5 harg5 X2 X3 k f)) (ix2 r q)
      = arg5.view.read (Elt Ideal) f (ix2 r q) + tripSum (arg2.view.read (Elt Ideal) X2) (arg3.view.read (Elt Ideal) X3) r q k.val := by
  match r with
  | ⟨0, _⟩ => exact trip_row0 𝒱 c bd i arg2 harg2 arg3 harg3 arg4 harg4 arg5 harg5 X2 X3 k f q
  | ⟨1, _⟩ => exact trip_row1 𝒱 c bd i arg2 harg2 arg3 harg3 arg4 harg4 arg5 harg5 X2 X3 k f q
  | ⟨2, _⟩ => exact trip_row2 𝒱 c bd i arg2 harg2 arg3 harg3 arg4 harg4 arg5 harg5 X2 X3 k f q
  | ⟨3, _⟩ => exact trip_row3 𝒱 c bd i arg2 harg2 arg3 harg3 arg4 harg4 arg5 harg5 X2 X3 k f q
  | ⟨4, _⟩ => exact trip_row4 𝒱 c bd i arg2 harg2 arg3 harg3 arg4 harg4 arg5 harg5 X2 X3 k f q

/-- (L) THE LOOP: after the first n trips over contents G (n at most the trip count), row r at column q holds what it
    held plus the n trips' contributions. -/
theorem loop_read (G : BufTy.Contents (Elt Ideal) arg5.view.ty) (r : Fin 5) (q : Fin 40000) :
    ∀ n : ℕ, n ≤ k0_t1_loop.trips →
      arg5.view.read (Elt Ideal) (arg5.view.writes (Elt Ideal) G (pb_k0_t1 (F := Ideal) 𝒱 c bd i arg2 harg2 arg3 harg3 arg4 harg4 arg5 harg5 X2 X3 G n)) (ix2 r q)
        = arg5.view.read (Elt Ideal) G (ix2 r q)
          + ∑ k ∈ Finset.range n, tripSum (arg2.view.read (Elt Ideal) X2) (arg3.view.read (Elt Ideal) X3) r q k
  | 0, _ => by
      show arg5.view.read (Elt Ideal) (arg5.view.writes (Elt Ideal) G []) (ix2 r q) = _
      rw [View.writes_nil, Finset.sum_range_zero, add_zero]
  | n + 1, h => by
      have hn : n < k0_t1_loop.trips := h
      have ih := loop_read G r q n (Nat.le_of_lt hn)
      have hs := pb_k0_t1_succ (F := Ideal) 𝒱 c bd i arg2 harg2 arg3 harg3 arg4 harg4 arg5 harg5 X2 X3 G ⟨n, hn⟩
      rw [show (⟨n, hn⟩ : Fin k0_t1_loop.trips).val = n from rfl] at hs
      rw [hs, View.writes_append, trip_read, ih, Finset.sum_range_succ, add_assoc]

/-- The loop has five trips. -/
theorem trips_eq : k0_t1_loop.trips = 5 := by decide

/-- (L) at the five trips, the rows written out: row r at column q ends at what it held plus the sum over the 40 rows
    8·k + j of the block of the row's summand. -/
theorem loop_read_five (G : BufTy.Contents (Elt Ideal) arg5.view.ty) (r : Fin 5) (q : Fin 40000) :
    arg5.view.read (Elt Ideal) (arg5.view.writes (Elt Ideal) G (pb_k0_t1 (F := Ideal) 𝒱 c bd i arg2 harg2 arg3 harg3 arg4 harg4 arg5 harg5 X2 X3 G 5)) (ix2 r q)
      = arg5.view.read (Elt Ideal) G (ix2 r q)
        + ∑ k : Fin 5, ∑ j : Fin 8, term r
            (arg2.view.read (Elt Ideal) X2 (ix3 (0 : Fin 1) (⟨8 * k.val + j.val, by have := k.isLt; have := j.isLt; omega⟩ : Fin 40) q))
            (arg3.view.read (Elt Ideal) X3 (ix3 (0 : Fin 1) (⟨8 * k.val + j.val, by have := k.isLt; have := j.isLt; omega⟩ : Fin 40) q)) := by
  rw [loop_read 𝒱 c bd i arg2 harg2 arg3 harg3 arg4 harg4 arg5 harg5 X2 X3 G r q 5 (le_of_eq trips_eq.symm), Finset.sum_range]
  refine congrArg _ (Finset.sum_congr rfl fun k _ => Finset.sum_congr rfl fun j _ => ?_)
  have e : stripRow k.val j = (⟨8 * k.val + j.val, by have := k.isLt; have := j.isLt; omega⟩ : Fin 40) :=
    Fin.ext (stripRow_val k.val k.isLt j)
  rw [e]

end TripRows

/-- info: 'Cert.KernelIdeal.ReduceValue.loop_read_five' depends on axioms: [propext, Classical.choice, Quot.sound] -/
#guard_msgs in #print axioms loop_read_five

end Cert.KernelIdeal.ReduceValue
end
-- ==== Proof.SlabEnds.lean ====
/- TWO ENDS of the first TensorCore call's accumulation, over the extended reals.

   (Z) The zero-fill that opens each half of the grid stores the all-zero [5,40000] vector: its entry at any (r, q) is 0.
   (H) What the call's two input arrays hold when it is entered: the reshape [2000,5000,8] → [2,1000,40000] of the
       program's two arguments as launched, so entry (h, t, 8·s + y) is the argument's entry (1000·h + t, s, y). -/
import proofs.«114420_j7301444403972_2_alg».proof.Proof.TripValue
import proofs.«114420_j7301444403972_2_alg».proof.Proof.HostValue
import proofs.«114420_j7301444403972_2_alg».proof.Proof.Whole
import proofs.«114420_j7301444403972_2_alg».proof.Proof.Stats

noncomputable section

namespace Cert.KernelIdeal.ReduceValue

open Cert.KernelIdeal Cert.KernelIdeal.Gen
open Idealize.ShloMosaic Idealize.ShloMosaic.TcCoe Idealize.SL.Sem
open Idealize.ShloMosaic.ValueIdx

/-- (Z) The zero-fill's payload is 0 at every entry. -/
theorem pay1_zero (r : Fin 5) (q : Fin 40000) : (k0_pay1 (F := Ideal)) (ix2 r q) = 0 := by
  unfold k0_pay1
  refine (congrFun (shapeCast_self _ _) _).trans ?_
  show Ideal.ofBits .f32 0x00000000#32 = 0
  exact Ideal.ofBits_zero_f32

variable (m : (ℓ : Loc nD τ sig) → Buf (Elt Ideal) ℓ) (c : Dev nD)

/-- (H) The first input array of the first call, at its entry, at (h, t, 8·s + y): the first argument as launched at
    (1000·h + t, s, y). -/
theorem v0_at (h : Fin 2) (t : Fin 1000) (s : Fin 5000) (y : Fin 8) (hq : 8 * s.val + y.val < 40000) (hr : 1000 * h.val + t.val < 2000) :
    (Whole.V1 (F := Ideal) m c main_v0 : S2x1000x40000.Idx → EReal) (ix3 h t ⟨8 * s.val + y.val, hq⟩)
      = (m ((c.tc : Thread nD τ).loc main_arg0) : S2000x5000x8.Idx → EReal) (ix3 ⟨1000 * h.val + t.val, hr⟩ s y) :=
  HostValue.after0_v0_apply (Whole.W0 m c) h t s y hq hr

/-- The second input array likewise, from the second argument. -/
theorem v1_at (h : Fin 2) (t : Fin 1000) (s : Fin 5000) (y : Fin 8) (hq : 8 * s.val + y.val < 40000) (hr : 1000 * h.val + t.val < 2000) :
    (Whole.V1 (F := Ideal) m c main_v1 : S2x1000x40000.Idx → EReal) (ix3 h t ⟨8 * s.val + y.val, hq⟩)
      = (m ((c.tc : Thread nD τ).loc main_arg1) : S2000x5000x8.Idx → EReal) (ix3 ⟨1000 * h.val + t.val, hr⟩ s y) :=
  HostValue.after0_v1_apply (Whole.W0 m c) h t s y hq hr

/-- The same at a flat last coordinate q: the argument at (1000·h + t, q / 8, q % 8). -/
theorem v0_at_flat (h : Fin 2) (t : Fin 1000) (q : Fin 40000) (hr : 1000 * h.val + t.val < 2000) (hs : q.val / 8 < 5000) (hy : q.val % 8 < 8) :
    (Whole.V1 (F := Ideal) m c main_v0 : S2x1000x40000.Idx → EReal) (ix3 h t q)
      = (m ((c.tc : Thread nD τ).loc main_arg0) : S2000x5000x8.Idx → EReal) (ix3 ⟨1000 * h.val + t.val, hr⟩ ⟨q.val / 8, hs⟩ ⟨q.val % 8, hy⟩) :=
  HostValue.after0_v0_apply_flat (Whole.W0 m c) h t q hr hs hy

theorem v1_at_flat (h : Fin 2) (t : Fin 1000) (q : Fin 40000) (hr : 1000 * h.val + t.val < 2000) (hs : q.val / 8 < 5000) (hy : q.val % 8 < 8) :
    (Whole.V1 (F := Ideal) m c main_v1 : S2x1000x40000.Idx → EReal) (ix3 h t q)
      = (m ((c.tc : Thread nD τ).loc main_arg1) : S2000x5000x8.Idx → EReal) (ix3 ⟨1000 * h.val + t.val, hr⟩ ⟨q.val / 8, hs⟩ ⟨q.val % 8, hy⟩) :=
  HostValue.after0_v1_apply_flat (Whole.W0 m c) h t q hr hs hy

/-- info: 'Cert.KernelIdeal.ReduceValue.v0_at' depends on axioms: [propext, Classical.choice, Quot.sound] -/
#guard_msgs in #print axioms v0_at

end Cert.KernelIdeal.ReduceValue

end
-- ==== Proof.LibChunkSum.lean ====
/-
  A finite sum over `N = n * m` consecutive indices, cut into `n` chunks of `m`: the sum of the chunk sums is the
  whole sum. Index `c * m + k` of the whole range is entry `k` of chunk `c`. Only commutativity and associativity
  of the addition are used, so the law holds in every commutative monoid — on the extended reals in particular,
  where nothing has to be finite.
-/
import Mathlib.Algebra.BigOperators.Fin
import Mathlib.Logic.Equiv.Fin.Basic
import Mathlib.Tactic.Ring
import Mathlib.Tactic.Linarith

namespace ChunkSum

theorem at_lt {n m N : ℕ} (h : n * m = N) (c : Fin n) (k : Fin m) : c.val * m + k.val < N := by
  have hc := c.isLt
  have hk := k.isLt
  subst h
  calc c.val * m + k.val < c.val * m + m := by omega
    _ = (c.val + 1) * m := by ring
    _ ≤ n * m := Nat.mul_le_mul_right m (by omega)

/-- Entry `k` of chunk `c`, as an index of the whole range: `c * m + k`. -/
def at_ {n m N : ℕ} (h : n * m = N) (c : Fin n) (k : Fin m) : Fin N := ⟨c.val * m + k.val, at_lt h c k⟩

@[simp] theorem at_val {n m N : ℕ} (h : n * m = N) (c : Fin n) (k : Fin m) : (at_ h c k).val = c.val * m + k.val := rfl

/-- The sum of the `n` chunk sums is the sum over all `N = n * m` indices. -/
theorem sum_chunks {M : Type*} [AddCommMonoid M] {n m N : ℕ} (h : n * m = N) (f : Fin N → M) :
    ∑ c : Fin n, ∑ k : Fin m, f (at_ h c k) = ∑ j : Fin N, f j := by
  subst h
  rw [← Equiv.sum_comp finProdFinEquiv f, Fintype.sum_prod_type]
  refine Finset.sum_congr rfl fun c _ => Finset.sum_congr rfl fun k _ => congrArg f (Fin.ext ?_)
  simp only [at_val, finProdFinEquiv, Equiv.coe_fn_mk]
  ring

/-- Eight terms added one after the other onto a zero, from the left, are their sum. -/
theorem fold8 {M : Type*} [AddCommMonoid M] (g : Fin 8 → M) :
    0 + g 0 + g 1 + g 2 + g 3 + g 4 + g 5 + g 6 + g 7 = ∑ c : Fin 8, g c := by
  rw [Fin.sum_univ_eight, zero_add]

/-- A contraction over `N = 8 * m` indices accumulated chunk by chunk onto a zero is the whole contraction. -/
theorem fold8_chunks {M : Type*} [AddCommMonoid M] {m N : ℕ} (h : 8 * m = N) (f : Fin N → M) :
    0 + (∑ k : Fin m, f (at_ h 0 k)) + (∑ k : Fin m, f (at_ h 1 k)) + (∑ k : Fin m, f (at_ h 2 k))
      + (∑ k : Fin m, f (at_ h 3 k)) + (∑ k : Fin m, f (at_ h 4 k)) + (∑ k : Fin m, f (at_ h 5 k))
      + (∑ k : Fin m, f (at_ h 6 k)) + (∑ k : Fin m, f (at_ h 7 k)) = ∑ j : Fin N, f j := by
  rw [fold8 (fun c => ∑ k : Fin m, f (at_ h c k)), sum_chunks h f]

end ChunkSum
-- ==== Proof.SumRegroup.lean ====
/-
  A sum over 2000 consecutive indices regrouped as the kernel walks them: two halves of 1000, each in 25 blocks of
  40 rows, each block in 5 strips of 8 rows — index 1000·h + 40·i + 8·k + j. Three applications of the chunk law; only
  commutativity and associativity of the addition are used, so nothing has to be finite.
-/
import proofs.«114420_j7301444403972_2_alg».proof.Proof.LibChunkSum

namespace Cert.Proof.Regroup

theorem idx_lt (h : Fin 2) (i : Fin 25) (k : Fin 5) (j : Fin 8) : 1000 * h.val + 40 * i.val + 8 * k.val + j.val < 2000 := by
  have := h.isLt; have := i.isLt; have := k.isLt; have := j.isLt; omega

/-- The walk's index. -/
def walk (h : Fin 2) (i : Fin 25) (k : Fin 5) (j : Fin 8) : Fin 2000 := ⟨1000 * h.val + 40 * i.val + 8 * k.val + j.val, idx_lt h i k j⟩

theorem sum_walk {M : Type*} [AddCommMonoid M] (f : Fin 2000 → M) :
    ∑ h : Fin 2, ∑ i : Fin 25, ∑ k : Fin 5, ∑ j : Fin 8, f (walk h i k j) = ∑ t : Fin 2000, f t := by
  rw [← ChunkSum.sum_chunks (show 2 * 1000 = 2000 from rfl) f]
  refine Finset.sum_congr rfl fun h _ => ?_
  rw [← ChunkSum.sum_chunks (show 25 * 40 = 1000 from rfl) (fun a => f (ChunkSum.at_ (show 2 * 1000 = 2000 from rfl) h a))]
  refine Finset.sum_congr rfl fun i _ => ?_
  rw [← ChunkSum.sum_chunks (show 5 * 8 = 40 from rfl) (fun b => f (ChunkSum.at_ (show 2 * 1000 = 2000 from rfl) h (ChunkSum.at_ (show 25 * 40 = 1000 from rfl) i b)))]
  refine Finset.sum_congr rfl fun k _ => Finset.sum_congr rfl fun j _ => congrArg f (Fin.ext ?_)
  simp only [walk, ChunkSum.at_val]
  ring

end Cert.Proof.Regroup
-- ==== Proof.SlabStats.lean ====
/-
  The five statistics out of the reduction region: for each row r of the result array, the two slabs' entries at
  column 8·s + y add up to the sum over all 2000 time steps t of row r's term of pred(t, s, y) and targ(t, s, y) —
  the count, the sum of the targets, of their squares, of target times prediction, of the squared predictions.
  A slab's entry is the sum over its half's 25 blocks, 5 strips and 8 rows; the reshaped input's entry at row
  1000·h + 40·i + 8·k + j, column 8·s + y, is the argument array's entry (1000·h + 40·i + 8·k + j, s, y); and the four
  nested sums are one sum over 2000 consecutive indices.
-/
import proofs.«114420_j7301444403972_2_alg».proof.Proof.ReduceStats
import proofs.«114420_j7301444403972_2_alg».proof.Proof.TripValue
import proofs.«114420_j7301444403972_2_alg».proof.Proof.SlabEnds
import proofs.«114420_j7301444403972_2_alg».proof.Proof.SumRegroup
import proofs.«114420_j7301444403972_2_alg».proof.Proof.KernelMeet

set_option maxRecDepth 16384

noncomputable section

namespace Cert.KernelIdeal.ReduceValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Reduce Cert.KernelIdeal.Whole Cert.Proof Cert.Proof.KernelMeet Cert.Proof.Regroup Idealize.ShloMosaic.ValueIdx

/-- What one run of the loop adds: the five trips' strip sums. -/
theorem loopAdds : LoopAdds term := fun c i arg2 harg2 arg3 harg3 arg4 harg4 arg5 harg5 X2 X3 G _ r q =>
  loop_read_five Variants.none c none i arg2 harg2 arg3 harg3 arg4 harg4 arg5 harg5 X2 X3 G r q

section
variable (m : (ℓ : Loc nD τ sig) → Buf (Elt Ideal) ℓ) (c : Dev nD)

/-- A slab's entry: the sum over its half's 25 blocks. -/
theorem slab_eq (hreal : ∀ a, ∃ ρ : ℝ, (Whole.V1 (F := Ideal) m c main_v1 : S2x1000x40000.Idx → EReal) a = (ρ : EReal))
    (h : Fin 2) (r : Fin 5) (q : Fin 40000) :
    slab m c (ix3 h r q) = acc term (Whole.V1 (F := Ideal) m) c h 25 (le_refl _) r q := by
  show (W2 (F := Ideal) m c (Proc.devRef .tc main_v2) : S2x5x40000.Idx → EReal) (ix3 h r q) = _
  rw [show W2 (F := Ideal) m c (Proc.devRef .tc main_v2) = (dat0 (Whole.V1 (F := Ideal) m) c).arrAt 2 cfg0.N from W2_arr m c 2]
  rw [final2, slab_at term (Whole.V1 (F := Ideal) m) c loopAdds hreal, pay1_zero, zero_add]

/-- Row r of the two slabs at column 8·s + y: the sum over all 2000 time steps. -/
theorem slab_sum (hreal : ∀ a, ∃ ρ : ℝ, (Whole.V1 (F := Ideal) m c main_v1 : S2x1000x40000.Idx → EReal) a = (ρ : EReal))
    (r : Fin 5) (s : Fin 5000) (y : Fin 8) (hq : 8 * s.val + y.val < 40000) :
    ∑ h : Fin 2, slab m c (ix3 h r ⟨8 * s.val + y.val, hq⟩)
      = ∑ t : Fin 2000, term r ((argX m c : S2000x5000x8.Idx → EReal) (ix3 t s y)) ((argY m c : S2000x5000x8.Idx → EReal) (ix3 t s y)) := by
  rw [← sum_walk (fun t : Fin 2000 => term r ((argX m c : S2000x5000x8.Idx → EReal) (ix3 t s y)) ((argY m c : S2000x5000x8.Idx → EReal) (ix3 t s y)))]
  refine Finset.sum_congr rfl fun h _ => ?_
  rw [slab_eq m c hreal]
  unfold acc
  refine Finset.sum_congr rfl fun i _ => ?_
  unfold blockSum
  refine Finset.sum_congr rfl fun k _ => Finset.sum_congr rfl fun j _ => ?_
  have hr : 1000 * h.val + (40 * i.val + (8 * k.val + j.val)) < 2000 := by
    have := h.isLt; have := i.isLt; have := k.isLt; have := j.isLt; omega
  rw [v0_at m c h ⟨40 * i.val + (8 * k.val + j.val), row_lt i.val i.isLt k j⟩ s y hq hr,
    v1_at m c h ⟨40 * i.val + (8 * k.val + j.val), row_lt i.val i.isLt k j⟩ s y hq hr]
  have hw : (⟨1000 * h.val + (40 * i.val + (8 * k.val + j.val)), hr⟩ : Fin 2000) = walk h i k j :=
    Fin.ext (by show 1000 * h.val + (40 * i.val + (8 * k.val + j.val)) = 1000 * h.val + 40 * i.val + 8 * k.val + j.val; omega)
  rw [hw]

end

/-- THE FIVE STATISTICS, as the final kernel's inputs need them. -/
theorem slab_stats (m : (ℓ : Loc nD τ sig) → Buf (Elt Ideal) ℓ) (hpre : Cert.Pre_KernelIdeal m) (c : Dev nD) : SlabStats m c := by
  obtain ⟨hx, hy⟩ := Cert.Proof.Finite.inputs_real (argX m c) (argY m c) (hpre c)
  have hreal : ∀ a, ∃ ρ : ℝ, (Whole.V1 (F := Ideal) m c main_v1 : S2x1000x40000.Idx → EReal) a = (ρ : EReal) := by
    intro a
    obtain ⟨h, t, q, rfl⟩ : ∃ (h : Fin 2) (t : Fin 1000) (q : Fin 40000), a = ix3 h t q := ⟨a 0, a 1, a 2, eq_ix3 a⟩
    have hq8 : 8 * (q.val / 8) + q.val % 8 < 40000 := by have := q.isLt; omega
    have hqe : q = ⟨8 * (⟨q.val / 8, by have := q.isLt; omega⟩ : Fin 5000).val + (⟨q.val % 8, Nat.mod_lt _ (by decide)⟩ : Fin 8).val, hq8⟩ :=
      Fin.ext (by show q.val = 8 * (q.val / 8) + q.val % 8; omega)
    rw [hqe, v1_at m c h t ⟨q.val / 8, by have := q.isLt; omega⟩ ⟨q.val % 8, Nat.mod_lt _ (by decide)⟩ hq8 (by have := h.isLt; have := t.isLt; omega)]
    exact hy _
  unfold SlabStats
  refine ⟨fun s y hq => ?_, fun s y hq => ?_, fun s y hq => ?_, fun s y hq => ?_, fun s y hq => ?_⟩
  · rw [slab_sum m c hreal]; rfl
  · rw [slab_sum m c hreal]; rfl
  · rw [slab_sum m c hreal]; rfl
  · rw [slab_sum m c hreal]; rfl
  · rw [slab_sum m c hreal]; rfl

end Cert.KernelIdeal.ReduceValue

end
-- ==== Proof.lean ====
/-
  The certificate of a masked Nash–Sutcliffe-type loss over a prediction and a target of shape [2000, 5000, 8]
  (time × site × variable), both with finite entries: a one-pass program against the two-pass textbook reference.

  WHAT IS COMPUTED. For each column (site, variable) the reference takes the mask "target is not NaN", the observed
  count, the masked mean of the target, the masked centred sum of squares sst = ∑ₜ (target − mean)², and the masked
  residual sum of squares res = ∑ₜ (target − prediction)²; a column is valid when its count exceeds 10 and
  sst ≠ 0, and then contributes res / (√sst + 0.1)²; per variable the contributions are summed and divided by the
  number of valid columns (0 if there is none); the eight results are averaged. This needs the mean before the
  sums of squares, hence two passes over the inputs.

  The program under proof reads the inputs once. Its first pass accumulates, per column and for each half of the
  time axis, five sums over time: the count of observed entries, ∑ target, ∑ target², ∑ target·prediction and
  ∑ prediction² (over the observed entries); the two halves are added. Its second pass forms, per column,
  mean = ∑target / max(count, 1), sst' = max(∑target² − count·mean·mean, 0) and res' = ∑target² − 2·∑target·prediction
  + ∑prediction², calls the column valid when count > 10 and sst' > 0, and from there proceeds exactly as the
  reference does.

  THE LAW THAT JOINS THEM. With mean = (∑ y)/N over N ≥ 1 real numbers y, ∑ (y − mean)² = ∑ y² − N·mean·mean,
  because ∑ y = N·mean; the left side is a sum of squares, so it is ≥ 0, the maximum with 0 changes nothing, and
  "≠ 0" and "> 0" say the same of it. And ∑ (y − x)² = ∑ y² − 2·∑ y·x + ∑ x². Both are identities of real numbers
  and fail on the extended reals at an infinity.

  WHERE FINITENESS IS USED. At the ideal reading a float is an extended real and nothing is NaN, so the mask is all
  ones on both sides and the first pass's five sums are the plain sums over all 2000 time steps, whatever the
  entries. The precondition — every entry of both inputs has |a| < +∞ — says every entry is a real number; that is
  what the two identities above need, and they are where it is used.

  THE CLAIMS. Each of the three programs (the kernel as printed, the kernel at the ideal reading, the reference at
  the ideal reading) runs to the end, faults nowhere and leaves its arguments unchanged; the ideal reading rewrote
  no operation of the kernel; and at the ideal reading, from memories that agree on the arguments, the kernel and
  the reference end with the same scalar: the loss above as a function of the five column statistics.
-/
import proofs.«114420_j7301444403972_2_alg».proof.Defs
import proofs.«114420_j7301444403972_2_alg».proof.Proof.Gen.Kernel
import proofs.«114420_j7301444403972_2_alg».proof.Proof.Gen.KernelIdeal
import proofs.«114420_j7301444403972_2_alg».proof.Proof.Gen.ReferenceIdeal
import proofs.«114420_j7301444403972_2_alg».proof.Proof.Gen.Pre_finite_inputs
import proofs.«114420_j7301444403972_2_alg».proof.Proof.Frames
import proofs.«114420_j7301444403972_2_alg».proof.Proof.KernelMeet
import proofs.«114420_j7301444403972_2_alg».proof.Proof.SlabStats

noncomputable section

namespace Cert.Proof

open Idealize.ShloMosaic Idealize.SL.Sem

/-- The five claims: the three frames, the (empty) idealization ledger, and the equality of results at the ideal
    reading, the last from the first pass's column sums (`slab_stats`) through `KernelMeet.algebraic_of`. -/
theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves,
    KernelMeet.algebraic_of Cert.KernelIdeal.ReduceValue.slab_stats⟩

end Cert.Proof

end
